-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x4096 : Shape := ⟨3, ![8, 2048, 4096]⟩
abbrev S8x2048x2048 : Shape := ⟨3, ![8, 2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S8192x2048 .f32) (main_arg1 : FVec F S8x2048x4096 .f32) (main_arg2 : FVec F S8x2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x4096 : Shape := ⟨3, ![8, 2048, 4096]⟩
abbrev S8x2048x2048 : Shape := ⟨3, ![8, 2048, 2048]⟩
abbrev S8x1024x2048 : Shape := ⟨3, ![8, 1024, 2048]⟩
abbrev S1x1024x1024 : Shape := ⟨3, ![1, 1024, 1024]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8x2048x4096, .f32⟩
  | .hbm, ⟨2, _⟩ => ⟨S8x2048x2048, .f32⟩
  | .hbm, ⟨3, _⟩ => ⟨S8x1024x2048, .f32⟩
  | .hbm, ⟨4, _⟩ => ⟨S8x1024x2048, .bf16⟩
  | .hbm, ⟨5, _⟩ => ⟨S8x1024x2048, .f32⟩
  | .hbm, ⟨6, _⟩ => ⟨S8192x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S1024x512, .f32⟩
  | .local _ .vmem, ⟨9, _⟩ => ⟨S1024x512, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v24 : BitVec 1 := Scalar.cmpi .eq arg2 c1_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8192x2048_S8x1024x2048 : S8192x2048.ShapeCasts S8x1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  packedbf16_S1x1024x512_S1x1024x512_0_0_0 : (Rect.unit (s := S1x1024x512) ![0, 0, 0] S1x1024x512.size inb_S1x1024x512_S1x1024x512_0_0_0).PackedRows (EltTy.packing .bf16)
  shapeCasts_S8x1024x2048_S8192x2048 : S8x1024x2048.ShapeCasts S8192x2048
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x2048.size a
  hwx0_0 : ∀ i : grid0.Coords, EltTy.bits .f32 = 32 ∨ (Rect.block (s := S8x1024x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x2048x4096.size a
  hwx0_1 : ∀ i : grid0.Coords, EltTy.bits .f32 = 32 ∨ (Rect.block (s := S8x2048x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x4096.size a
  hwx0_2 : ∀ i : grid0.Coords, EltTy.bits .f32 = 32 ∨ (Rect.block (s := S8x2048x4096) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x2048.size a
  hwx0_3 : ∀ i : grid0.Coords, EltTy.bits .bf16 = 32 ∨ (Rect.block (s := S8x1024x2048) S1x1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x1024x2048.size a
  hwx1_0 : ∀ i : grid1.Coords, EltTy.bits .bf16 = 32 ∨ (Rect.block (s := S8x1024x2048) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x512.size a ≤ S8x2048x2048.size a
  hwx1_1 : ∀ i : grid1.Coords, EltTy.bits .f32 = 32 ∨ (Rect.block (s := S8x2048x2048) S1x1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x512.size a ≤ S8x1024x2048.size a
  hwx1_2 : ∀ i : grid1.Coords, EltTy.bits .f32 = 32 ∨ (Rect.block (s := S8x1024x2048) S1x1024x512.size (cc1_transform_2 i) (hinb1_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x4096 : Shape := ⟨3, ![8, 2048, 4096]⟩
abbrev S8x2048x2048 : Shape := ⟨3, ![8, 2048, 2048]⟩
abbrev S8x1024x2048 : Shape := ⟨3, ![8, 1024, 2048]⟩
abbrev S8x1024x4096 : Shape := ⟨3, ![8, 1024, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x4096, .f32⟩
  | .hbm, ⟨2, _⟩ => ⟨S8x2048x2048, .f32⟩
  | .hbm, ⟨3, _⟩ => ⟨S8x1024x2048, .f32⟩
  | .hbm, ⟨4, _⟩ => ⟨S8x1024x4096, .f32⟩
  | .hbm, ⟨5, _⟩ => ⟨S8x1024x2048, .f32⟩
  | .hbm, ⟨6, _⟩ => ⟨S8x1024x2048, .f32⟩
  | .hbm, ⟨7, _⟩ => ⟨S_, .f32⟩
  | .hbm, ⟨8, _⟩ => ⟨S8x1024x2048, .f32⟩
  | .hbm, ⟨9, _⟩ => ⟨S8x1024x2048, .f32⟩
  | .hbm, ⟨10, _⟩ => ⟨S8x1024x2048, .f32⟩
  | .hbm, ⟨11, _⟩ => ⟨S8x1024x2048, .f32⟩
  | .hbm, ⟨12, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x4096_S8x1024x2048_0_0_0 : S8x1024x4096.Slices ![0, 0, 0] S8x1024x2048
  slices_S8x1024x4096_S8x1024x2048_0_0_2048 : S8x1024x4096.Slices ![0, 0, 2048] S8x1024x2048
  bcast_S_S8x1024x2048 : S_.BroadcastsInDim S8x1024x2048 (![] : Fin 0 → Fin S8x1024x2048.rank)
  shapeCasts_S8x1024x2048_S8192x2048 : S8x1024x2048.ShapeCasts S8192x2048
  dot_S8x1024x2048_S8x2048x4096_S8x1024x4096_2_1_1_2_0_0_wf : DotDims.WF S8x1024x2048 S8x2048x4096 S8x1024x4096 [2] [1] [1] [2] [0] [0]
  dot_S8x1024x2048_S8x2048x2048_S8x1024x2048_2_1_1_2_0_0_wf : DotDims.WF S8x1024x2048 S8x2048x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x2048_S8x2048x2048_S8x1024x2048_2_1_1_2_0_0 : DotDims S8x1024x2048 S8x2048x2048 S8x1024x2048 where
  lhsContracting := [2]
  rhsContracting := [1]
  lhsNonContracting := [1]
  rhsNonContracting := [2]
  lhsBatch := [0]
  rhsBatch := [0]
  wf := dot_S8x1024x2048_S8x2048x2048_S8x1024x2048_2_1_1_2_0_0_wf

class Facts : Prop extends Facts₀ where

variable [Facts]
-- ==== Proof.FrameB.R0Base.lean ====
/- Region 0 (the gate/up kernel): what the two control cases of its body share.
   The body's two conditionals depend only on the innermost grid coordinate k = t % 2:
   at k = 0 both accumulators are zero-filled and the output block is not stored;
   at k = 1 nothing is zero-filled and the output block is stored.  Here: the two conditions
   in closed form, where the output window is idle, the staging and accumulator memrefs,
   the region invariant with the accumulators as owned memrefs, and each input window's
   block read off the contents the region is entered with. -/
import proofs.«108648_j3204045603931_2_alg».proof.Proof.Gen.Kernel.Launch
import proofs.«108648_j3204045603931_2_alg».proof.Proof.Gen.Kernel.Skeleton
import proofs.«108648_j3204045603931_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional (zero-fill of both accumulators): the innermost coordinate is 0. -/
abbrev cond0_0 (i : grid0.Coords) : Prop := (Scalar.cmpi .ne (Scalar.extui (Scalar.cmpi .eq (BitVec.ofNat 32 (i 2).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (the store of the output block): the innermost coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At an even point nothing is stored into the output block: the window is idle there, -/
theorem idleAt0_3_A : ∀ t : Fin cfg0.N, cond0_0 (grid0.coords t) → ¬cond0_1 (grid0.coords t) → cfg0.idle 3 (grid0.coords t) = true := by decide +kernel
/-- and its block is not written back. -/
theorem noFlush0_3_A : ∀ t : Fin cfg0.N, cond0_0 (grid0.coords t) → ¬cond0_1 (grid0.coords t) → (cfg0.win 3).flush t = false := by decide +kernel
/-- At an odd point the output block is stored: the window is live. -/
theorem liveAt0_3_B : ∀ t : Fin cfg0.N, ¬cond0_0 (grid0.coords t) → cond0_1 (grid0.coords t) → cfg0.idle 3 (grid0.coords t) = false := by decide +kernel

/-! ## The memrefs the body is called on -/

/-- One staging buffer of the output window, through which its contents are stated. -/
abbrev VO0_3 : View sig .tc .vmem S1x1024x512 .bf16 := (Memref.whole cc0_stg3_0 : Memref sig .tc .vmem S1x1024x512 .bf16).view
/-- Each window's current staging memref at point `t`, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
/-- The two accumulators (gate and up), whole scoped buffers carried from point to point. -/
abbrev scM0_0 : Memref sig .tc .vmem S1024x512 .f32 := Memref.whole cc0_scratch0
abbrev scM0_1 : Memref sig .tc .vmem S1024x512 .f32 := Memref.whole cc0_scratch1
abbrev VS0_0 : View sig .tc .vmem S1024x512 .f32 := scM0_0.view
abbrev VS0_1 : View sig .tc .vmem S1024x512 .f32 := scM0_1.view

/-! ## The region invariant -/

/-- The scoped buffers of the second call (its six staging buffers and its accumulator), each whole at some
    contents: region 0 never touches them. -/
def othersRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant of region 0: both accumulators owned at some contents, the second call's scoped buffers
    at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ othersRest c) ∗ (∃ r, prngReg c r)) := by
  unfold Pipeline.ΦA othersRest; rw [scopedRest0_eq]; simp only [scM0_0, scM0_1, owns_whole]; try rfl

/-! ## The windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Frm

end
-- ==== Proof.FrameB.R0RunA.lean ====
/- Region 0, an even grid point (k = 0): the whole body run.  Both accumulators are zero-filled and then
   each receives its first partial product; the output block is not touched. -/
import proofs.«108648_j3204045603931_2_alg».proof.Proof.FrameB.R0Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 0, on whole memrefs — the three input blocks at their contents, the output buffer at
    contents handed back untouched, the two accumulators at anything — the body runs to the continuation
    holding the inputs and the output buffer as they were and each accumulator with its pieces written
    (last store first): the zero fill and then the sum of the zero fill and the first partial product.
    The piece lists are the witness the symbolic run finds. -/
noncomputable def kernelRun0_A (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) :
    Σ' (L3 : List (View.Piece (Elt F) S1x1024x512 .bf16)) (LS0 : List (View.Piece (Elt F) S1024x512 .f32)), { LS1 : List (View.Piece (Elt F) S1024x512 .f32) //
      ∀ (xi3 : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨[], ?_, ?_, fun xi3 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.Kernel.Frm

end
-- ==== Proof.FrameB.R0RunB.lean ====
/- Region 0, an odd grid point (k = 1): the whole body run.  Each accumulator receives its second partial
   product on top of what the point before left, and the output block is stored from the two accumulators. -/
import proofs.«108648_j3204045603931_2_alg».proof.Proof.FrameB.R0Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1, on whole memrefs — the three input blocks at their contents, the output buffer at
    anything, the two accumulators at the contents the point before left — the body runs to the continuation
    holding the inputs as they were and the output buffer and each accumulator with its pieces written.
    The piece lists are the witness the symbolic run finds. -/
noncomputable def kernelRun0_B (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) :
    Σ' (L3 : List (View.Piece (Elt F) S1x1024x512 .bf16)) (LS0 : List (View.Piece (Elt F) S1024x512 .f32)), { LS1 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.Kernel.Frm

end
-- ==== Proof.FrameB.R0Body.lean ====
/- Region 0 (the gate/up kernel): the proof data of its pipeline and the body obligation.
   After an even point (k = 0) each accumulator holds the zero fill plus the first partial product; after an odd
   point (k = 1) each holds what the even point before left plus the second partial product, and the output block
   holds up * max(gate, 0) of those two sums.  The invariant carries the two accumulators at these named contents
   from each point to the next; the scoped buffers of the second call ride along untouched. -/
import proofs.«108648_j3204045603931_2_alg».proof.Proof.FrameB.R0RunA
import proofs.«108648_j3204045603931_2_alg».proof.Proof.FrameB.R0RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulators and in the output block -/

/-- An even point stores nothing into the output block: a placeholder that nothing consults (the block is
    neither written back there nor read at the next point). -/
def out0_A_3 : Vec F S1x1024x512 .bf16 := VO0_3.read (Elt F) VO0_3.junk

/-- At an even point the pieces written to the gate accumulator cover it, -/
theorem scover0_A_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) (y : S1024x512.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1024x512.size (by sl_kernel_rfl) y
/-- and what they leave in it: the pieces read back over arbitrary contents. -/
def sout0_A_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) : Vec F S1024x512 .f32 :=
  VS0_0.read (Elt F) (VS0_0.writes (Elt F) VS0_0.junk (kernelRun0_A c i arg3 harg3 arg4 harg4 arg5 harg5 arg6 harg6 arg7 harg7 arg8 harg8 hc0 hc1 x0 x1 x2).2.1)
/-- The same for the up accumulator. -/
theorem scover0_A_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) (y : S1024x512.Idx) :
    ∃ pc ∈ (kernelRun0_A c i arg3 harg3 arg4 harg4 arg5 harg5 arg6 harg6 arg7 harg7 arg8 harg8 hc0 hc1 x0 x1 x2).2.2.1, y ∈ pc.1.set :=
  View.cover_of_tiledL (kernelRun0_A c i arg3 harg3 arg4 harg4 arg5 harg5 arg6 harg6 arg7 harg7 arg8 harg8 hc0 hc1 x0 x1 x2).2.2.1 S1024x512.size (by sl_kernel_rfl) y
def sout0_A_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) : Vec F S1024x512 .f32 :=
  VS0_1.read (Elt F) (VS0_1.writes (Elt F) VS0_1.junk (kernelRun0_A c i arg3 harg3 arg4 harg4 arg5 harg5 arg6 harg6 arg7 harg7 arg8 harg8 hc0 hc1 x0 x1 x2).2.2.1)

/-- At an odd point the one store into the output block covers it, -/
theorem cover0_B_3 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) (y : S1x1024x512.Idx) :
    ∃ pc ∈ (kernelRun0_B c i arg3 harg3 arg4 harg4 arg5 harg5 arg6 harg6 arg7 harg7 arg8 harg8 hc0 hc1 x0 x1 x2 xs0 xs1).1, y ∈ pc.1.set :=
  View.cover_of_tiledL (kernelRun0_B c i arg3 harg3 arg4 harg4 arg5 harg5 arg6 harg6 arg7 harg7 arg8 harg8 hc0 hc1 x0 x1 x2 xs0 xs1).1 S1x1024x512.size (by sl_kernel_rfl) y
/-- and what it leaves there. -/
def out0_B_3 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) : Vec F S1x1024x512 .bf16 :=
  VO0_3.read (Elt F) (VO0_3.writes (Elt F) VO0_3.junk (kernelRun0_B c i arg3 harg3 arg4 harg4 arg5 harg5 arg6 harg6 arg7 harg7 arg8 harg8 hc0 hc1 x0 x1 x2 xs0 xs1).1)
theorem scover0_B_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) (y : S1024x512.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL (kernelRun0_B c i arg3 harg3 arg4 harg4 arg5 harg5 arg6 harg6 arg7 harg7 arg8 harg8 hc0 hc1 x0 x1 x2 xs0 xs1).2.1 S1024x512.size (by sl_kernel_rfl) y
def sout0_B_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) : Vec F S1024x512 .f32 :=
  VS0_0.read (Elt F) (VS0_0.writes (Elt F) VS0_0.junk (kernelRun0_B c i arg3 harg3 arg4 harg4 arg5 harg5 arg6 harg6 arg7 harg7 arg8 harg8 hc0 hc1 x0 x1 x2 xs0 xs1).2.1)
theorem scover0_B_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) (y : S1024x512.Idx) :
    ∃ pc ∈ (kernelRun0_B c i arg3 harg3 arg4 harg4 arg5 harg5 arg6 harg6 arg7 harg7 arg8 harg8 hc0 hc1 x0 x1 x2 xs0 xs1).2.2.1, y ∈ pc.1.set :=
  View.cover_of_tiledL (kernelRun0_B c i arg3 harg3 arg4 harg4 arg5 harg5 arg6 harg6 arg7 harg7 arg8 harg8 hc0 hc1 x0 x1 x2 xs0 xs1).2.2.1 S1024x512.size (by sl_kernel_rfl) y
def sout0_B_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) : Vec F S1024x512 .f32 :=
  VS0_1.read (Elt F) (VS0_1.writes (Elt F) VS0_1.junk (kernelRun0_B c i arg3 harg3 arg4 harg4 arg5 harg5 arg6 harg6 arg7 harg7 arg8 harg8 hc0 hc1 x0 x1 x2 xs0 xs1).2.2.1)

section Data
variable (q : Fin cfg0.W → PosShare TreeShare) (V : (c : Dev nD) → (b : Ref sig .tc) → Buf (Elt F) ((c : Thread nD τ).loc b))

/-! ## What the output block and the two accumulators hold after each point -/

/-- After the body at position `n`: (the output block's buffer, the gate accumulator, the up accumulator).
    An even point starts both sums afresh from the point's input blocks; an odd point continues from what the
    point before left. -/
def outsAt0 (c : Dev nD) : (n : ℕ) → n < cfg0.N → Vec F S1x1024x512 .bf16 × Vec F S1024x512 .f32 × Vec F S1024x512 .f32
  | 0, hn => (out0_A_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (by decide : ¬(0 : ℕ) % 2 = 1) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (by decide : ¬(0 : ℕ) % 2 = 1) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      (out0_A_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (by omega : ¬(n + 1) % 2 = 1) ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (by omega : ¬(n + 1) % 2 = 1) ((hcond0_1 ⟨n + 1, hn⟩).mp h)) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr (by omega : (n + 1) % 2 = 1)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr (by omega : (n + 1) % 2 = 1)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr (by omega : (n + 1) % 2 = 1)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at an even point. -/
theorem outsAt0_A (c : Dev nD) (t : Fin cfg0.N) (h0 : t.val % 2 = 0) :
    outsAt0 V c t.val t.isLt = (out0_A_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (by omega : ¬t.val % 2 = 1) ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (by omega : ¬t.val % 2 = 1) ((hcond0_1 t).mp h)) (iblk0 V c 0 t) (iblk0 V c 1 t) (iblk0 V c 2 t)) := by
  obtain ⟨n, hn⟩ := t
  cases n with
  | zero => exact rfl
  | succ n => exact (dif_pos h0).trans rfl

/-- `outsAt0` at an odd point, over what the point before left. -/
theorem outsAt0_B (c : Dev nD) (t : Fin cfg0.N) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (show (0 : ℕ) % 2 = 1 from h1) (by decide)
  | succ n => exact (dif_neg (show ¬(n + 1) % 2 = 0 from fun h => by have h1' : (n + 1) % 2 = 1 := h1; omega)).trans rfl

/-! ## The invariant -/

/-- Before position `n`: at the first point the class invariant (both accumulators at anything); afterwards both
    accumulators at what the point before left, the second call's scoped buffers at some contents, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ othersRest c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ othersRest c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ othersRest c) ∗ (∃ r, prngReg c r)) := by
  cases n with
  | zero => exact absurd rfl hz
  | succ n => rfl

/-! ## The proof data -/

/-- The proof data of pipeline 0 on core `c`: the arrays as the region finds them; after the body each input's
    buffer at its block and the output's at `outsAt0`'s first component; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q := q
  owed _ := 0

theorem A_eq0 (c : Dev nD) (w : Fin cfg0.W) : (dat0 q V c).A w = V c (Pipeline.arrRef spec0 w) := by
  dsimp only [dat0]
theorem q_eq0 (c : Dev nD) (w : Fin cfg0.W) : (dat0 q V c).q w = q w := by
  dsimp only [dat0]
theorem owed0 (c : Dev nD) (t : Fin (cfg0.N + 1)) : (dat0 q V c).owed t = 0 := by
  dsimp only [dat0]

theorem PhiS_castSucc (c : Dev nD) (t : Fin cfg0.N) :
    (dat0 q V c).Φ t.castSucc = PhiS V c t.val (Nat.le_of_lt t.isLt) := by
  dsimp only [dat0]; simp only [Fin.coe_castSucc]

theorem after0_0 (c : Dev nD) (t : Fin cfg0.N) : (dat0 q V c).after 0 t = iblk0 V c 0 t := by dsimp only [dat0]
theorem after0_1 (c : Dev nD) (t : Fin cfg0.N) : (dat0 q V c).after 1 t = iblk0 V c 1 t := by dsimp only [dat0]
theorem after0_2 (c : Dev nD) (t : Fin cfg0.N) : (dat0 q V c).after 2 t = iblk0 V c 2 t := by dsimp only [dat0]
theorem after0_3 (c : Dev nD) (t : Fin cfg0.N) : (dat0 q V c).after 3 t = (outsAt0 V c t.val t.isLt).1 := by dsimp only [dat0]

theorem before0_0 (c : Dev nD) (t : Fin cfg0.N) (d) : (dat0 q V c).before 0 t d = iblk0 V c 0 t :=
  before0_0_of V (dat0 q V c) (A_eq0 q V c 0) (after0_0 q V c) t d
theorem before0_1 (c : Dev nD) (t : Fin cfg0.N) (d) : (dat0 q V c).before 1 t d = iblk0 V c 1 t :=
  before0_1_of V (dat0 q V c) (A_eq0 q V c 1) (after0_1 q V c) t d
theorem before0_2 (c : Dev nD) (t : Fin cfg0.N) (d) : (dat0 q V c).before 2 t d = iblk0 V c 2 t :=
  before0_2_of V (dat0 q V c) (A_eq0 q V c 2) (after0_2 q V c) t d

/-! ## The body obligation -/

def bodyPre (c : Dev nD) (t : Fin cfg0.N) : sProp 𝕄 :=
  iprop((dat0 q V c).Φ t.castSucc ∗ (dat0 q V c).owesAt () t.castSucc
    ∗ (∃ d, owns (c : Thread nD τ) (ms0_0 t) fullShare ((dat0 q V c).before 0 t d))
    ∗ (∃ d, owns (c : Thread nD τ) (ms0_1 t) fullShare ((dat0 q V c).before 1 t d))
    ∗ (∃ d, owns (c : Thread nD τ) (ms0_2 t) fullShare ((dat0 q V c).before 2 t d))
    ∗ (∃ d, owns (c : Thread nD τ) (ms0_3 t) fullShare ((dat0 q V c).before 3 t d)))

def bodyPost (c : Dev nD) (t : Fin cfg0.N) : sProp 𝕄 :=
  iprop((dat0 q V c).Φ t.succ ∗ (dat0 q V c).owesAt () t.succ
    ∗ (dat0 q V c).leavesExact 0 t
    ∗ (dat0 q V c).leavesExact 1 t
    ∗ (dat0 q V c).leavesExact 2 t
    ∗ (dat0 q V c).leavesExact 3 t)

set_option maxHeartbeats 4800000 in
/-- The body at any point.  The inputs' buffers hold their blocks.  At an even point the run for k = 0 applies:
    the invariant hands it both accumulators (at anything, or at what the point before left, forgotten) and takes
    them back at this point's sums; the output's buffer is handed back as found.  At an odd point the run for k = 1
    applies on the accumulators at what the even point before left, and the output's buffer comes back at the
    stored block. -/
theorem sound_body (c : Dev nD) (t : Fin cfg0.N) :
    bodyPre q V c t ⊢ wp frame (wpE (defs₀ (F := F)) Variants.none c none) Set.univ (bodyAt0 t) (fun _ => bodyPost q V c t) := by
  unfold bodyPre bodyPost bodyAt0
  simp only [before0_0, before0_1, before0_2]
  rw [show (dat0 q V c).owesAt () t.succ = (dat0 q V c).owesAt () t.castSucc from rfl]
  rw [show (dat0 q V c).Φ t.succ = PhiS V c (t.val + 1) t.isLt from rfl, PhiS_succ]
  have hN : t.val < 64 := lt_of_lt_of_eq t.isLt (show cfg0.N = 64 from N_0)
  rw [show (dat0 q V c).leavesExact 0 t = owns (c : Thread nD τ) (ms0_0 t) fullShare ((dat0 q V c).after 0 t) from by
    unfold Dat.leavesExact; rw [liveAt0_0 t], after0_0]
  rw [show (dat0 q V c).leavesExact 1 t = owns (c : Thread nD τ) (ms0_1 t) fullShare ((dat0 q V c).after 1 t) from by
    unfold Dat.leavesExact; rw [liveAt0_1 t], after0_1]
  rw [show (dat0 q V c).leavesExact 2 t = owns (c : Thread nD τ) (ms0_2 t) fullShare ((dat0 q V c).after 2 t) from by
    unfold Dat.leavesExact; rw [liveAt0_2 t], after0_2]
  by_cases h0 : t.val % 2 = 0
  · have hc0 : cond0_0 (grid0.coords t) := (hcond0_0 t).mpr h0
    have hc1 : ¬cond0_1 (grid0.coords t) := fun h => (by omega : ¬t.val % 2 = 1) ((hcond0_1 t).mp h)
    rw [Dat.leavesExact_idle (dat0 q V c) 3 t (idleAt0_3_A t hc0 hc1) (noFlush0_3_A t hc0 hc1)]
    rw [outsAt0_A V c t h0]
    unfold sout0_A_0 sout0_A_1; (try dsimp only)
    by_cases hz : t.val = 0
    · rw [PhiS_castSucc q V c t, PhiS_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc q V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond0_0 (grid0.coords t) := fun h => h0 ((hcond0_0 t).mp h)
    have hc1 : cond0_1 (grid0.coords t) := (hcond0_1 t).mpr h1
    rw [show (dat0 q V c).leavesExact 3 t = owns (c : Thread nD τ) (ms0_3 t) fullShare ((dat0 q V c).after 3 t) from by
      unfold Dat.leavesExact; rw [liveAt0_3_B t hc0 hc1], after0_3]
    rw [outsAt0_B V c t h1]
    unfold out0_B_3 sout0_B_0 sout0_B_1; (try dsimp only)
    have hz : t.val ≠ 0 := by omega
    rw [PhiS_castSucc q V c t, PhiS_pos V c _ _ hz]
    iintro ⟨⟨⟨HS0, HS1, HR⟩, Hg⟩, Ho, ⟨%d0, H0⟩, ⟨%d1, H1⟩, ⟨%d2, H2⟩, ⟨%d3, H3⟩⟩
    iapply ((kernelRun0_B c (grid0.coords t) _ _ _ _ _ _ _ _ _ _ _ _ hc0 hc1 (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _ _)

/-- The library's body obligation, at every point. -/
theorem body_obligation0 (c : Dev nD) : BodyObligation (dat0 (F := F) q V c) (defs₀ (F := F)) Variants.none () Set.univ := fun t => by
  rw [bigSep_W0, bigSep_W0]
  exact sound_body q V c t

/-- What the launch hands the region is the invariant before the first point. -/
theorem hin0 (c : Dev nD) : Pipeline.ΦA spec0 c ⊢ (dat0 q V c).Φ 0 := by
  rw [show (dat0 q V c).Φ 0 = PhiS V c 0 (Nat.zero_le _) from rfl, PhiS_zero V c 0 _ rfl]
  try exact Idealize.SL.BI.Entails.refl _

/-- After any point but the first the invariant gives the class invariant back: the accumulators' named contents
    are forgotten. -/
theorem Phi_out (c : Dev nD) (t : Fin (cfg0.N + 1)) (ht : t.val ≠ 0) : (dat0 q V c).Φ t ⊢ Pipeline.ΦA spec0 c := by
  rw [show (dat0 q V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 q V c).Φ (Fin.last cfg0.N) ⊢ Pipeline.ΦA spec0 c :=
  Phi_out q V c _ (by rw [Fin.val_last]; have : cfg0.N = 64 := N_0; omega)

end Data

end Cert.Kernel.Frm

end
-- ==== Proof.FrameB.R1Base.lean ====
/-
  The second pallas_call (the down projection) as a pipeline: what every statement about its body shares.

  Its grid is (expert, output-column block, contraction half) = (8, 4, 2), 64 points; point t has contraction half
  t % 2.  Windows 0 and 1 are inputs (the activation block and the weight block), window 2 is the output block; one
  scratch buffer holds the running sum and is carried from a point to the next.  At an even point the body zero-fills
  the scratch and adds the first half's product (the output is not stored and not written back); at an odd point it adds
  the second half's product and stores the sum into the output block, which is then written back.
-/
import proofs.«108648_j3204045603931_2_alg».proof.Proof.Gen.Kernel.Launch
import proofs.«108648_j3204045603931_2_alg».proof.Proof.Gen.Kernel.Skeleton
import proofs.«108648_j3204045603931_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- "This is the first contraction half": the condition under which the body zero-fills the running sum. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "This is the last contraction half": the condition under which the body stores the sum into the output block. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a first-half point the output block is idle: nothing is stored into it, -/
theorem idleAt1_2_A : ∀ t : Fin cfg1.N, cond1_0 (grid1.coords t) → ¬cond1_1 (grid1.coords t) → cfg1.idle 2 (grid1.coords t) = true := by decide +kernel
/-- and it is not written back there. -/
theorem noFlush1_2_A : ∀ t : Fin cfg1.N, cond1_0 (grid1.coords t) → ¬cond1_1 (grid1.coords t) → (cfg1.win 2).flush t = false := by decide +kernel
/-- At a last-half point the output block is live: the sum is stored into it. -/
theorem liveAt1_2_B : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x1024x512 .f32 := (Memref.whole cc1_stg2_0 : Memref sig .tc .vmem S1x1024x512 .f32).view
/-- Each window's current staging memref at point `t`, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .f32 := win1_2.stage (cfg1.slots t 2)
abbrev hs1_2 (t : Fin cfg1.N) : (ms1_2 t).IsWhole := hstage1_2 ((cfg1.slots t 2).cast nbuf1_2)
/-- The running sum's buffer, a whole scoped buffer passed beside the windows, -/
abbrev scM1_0 : Memref sig .tc .vmem S1024x512 .f32 := Memref.whole cc1_scratch0
/-- and as a view. -/
abbrev VS1_0 : View sig .tc .vmem S1024x512 .f32 := scM1_0.view

/-! ## The region's invariant -/

/-- The other call's scoped buffers (its eight staging buffers and two accumulators), each whole at some contents:
    this call never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Two assertions that entail each other are equal. -/
theorem eq_of_entails1 {P Q : sProp 𝕄} (h₁ : P ⊢ Q) (h₂ : Q ⊢ P) : P = Q := BI.equiv_iff.mp ⟨h₁, h₂⟩

/-- The invariant the launch hands the region, with the running sum's buffer as an owned memref at some contents
    beside the other call's buffers and the generator register. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA; rw [scopedRest1_eq]; unfold rest1; simp only [scM1_0, owns_whole]
  refine eq_of_entails1 ?_ ?_
  · iintro ⟨⟨H1, H2, H3, H4, H5, H6, H7, H8, H9, H10, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      iexact HS
    iexact Hg
  · iintro ⟨⟨⟨H1, H2, H3, H4, H5, H6, H7, H8, H9, H10⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hg

end Cert.Kernel.Frm

end
-- ==== Proof.FrameB.R1RunA.lean ====
/-
  The body of the down-projection call at a FIRST-HALF point (the running sum is zero-filled, then the first half's
  product is added; the output block is not touched): its run on whole staging memrefs, with the pieces it leaves in
  the running sum's buffer as the witness the run finds.
-/
import proofs.«108648_j3204045603931_2_alg».proof.Proof.FrameB.R1Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first-half point, on whole memrefs — the two inputs at their contents, the output block at contents `xi2`
    that are handed back untouched, the running sum at anything — the body runs to a continuation that holds the
    inputs and the output block as they were and the running sum's buffer with the pieces `LS0` written. -/
noncomputable def kernelRun1_A (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) :
    Σ' (L2 : List (View.Piece (Elt F) S1x1024x512 .f32)), { LS0 : List (View.Piece (Elt F) S1024x512 .f32) //
      ∀ (xi2 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Frm

end
-- ==== Proof.FrameB.R1RunB.lean ====
/-
  The body of the down-projection call at a LAST-HALF point (the second half's product is added to the running sum,
  and the sum is stored into the output block): its run on whole staging memrefs, with the pieces it leaves in the
  output block and in the running sum's buffer as the witness the run finds.
-/
import proofs.«108648_j3204045603931_2_alg».proof.Proof.FrameB.R1Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last-half point, on whole memrefs — the two inputs at their contents, the output block at anything, the
    running sum at the contents `xs0` the point before left — the body runs to a continuation that holds the inputs
    as they were, the output block with the pieces `L2` written and the running sum's buffer with `LS0` written. -/
noncomputable def kernelRun1_B (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) :
    Σ' (L2 : List (View.Piece (Elt F) S1x1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Frm

end
-- ==== Proof.FrameB.R1Body.lean ====
/-
  The down-projection call's proof data and its body obligation.

  After the body at point t the two input blocks are in place; the output block and the running sum hold what the
  recursion `outsAt1` says: at an even point (first contraction half) the running sum is the zero fill plus the first
  half's product and the output block is untouched; at an odd point (last half) the running sum is what the point before
  left plus the second half's product, and the output block is that sum.  The invariant between points owns the running
  sum's buffer at exactly that content, beside the other call's buffers (never touched) and the generator register.
-/
import proofs.«108648_j3204045603931_2_alg».proof.Proof.FrameB.R1RunA
import proofs.«108648_j3204045603931_2_alg».proof.Proof.FrameB.R1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem not_odd_of_even1 {n : ℕ} (h : n % 2 = 0) : ¬ n % 2 = 1 := by omega
theorem not_even_of_odd1 {n : ℕ} (h : n % 2 = 1) : ¬ n % 2 = 0 := by omega
theorem odd_of_not_even1 {n : ℕ} (h : ¬ n % 2 = 0) : n % 2 = 1 := by omega

/-! ## What each case leaves -/

/-- A first-half point stores nothing into the output block: no pieces, a placeholder nothing consults (the block is
    neither written back there nor read at the next point). -/
def out1_A_2 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) : Vec F S1x1024x512 .f32 :=
  VO1_2.read (Elt F) (VO1_2.writes (Elt F) VO1_2.junk (kernelRun1_A c i arg3 harg3 arg4 harg4 arg5 harg5 arg6 harg6 hc0 hc1 x0 x1).1)

/-- The pieces a first-half point writes into the running sum's buffer cover it. -/
theorem scover1_A_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) (y : S1024x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x512.size (by sl_kernel_rfl) y

/-- What a first-half point leaves in the running sum's buffer: its pieces read back. -/
def sout1_A_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) : Vec F S1024x512 .f32 :=
  VS1_0.read (Elt F) (VS1_0.writes (Elt F) VS1_0.junk (kernelRun1_A c i arg3 harg3 arg4 harg4 arg5 harg5 arg6 harg6 hc0 hc1 x0 x1).2.1)

/-- The pieces a last-half point writes into the output block cover it. -/
theorem cover1_B_2 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) (y : S1x1024x512.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1x1024x512.size (by sl_kernel_rfl) y

/-- What a last-half point leaves in the output block: its pieces read back. -/
def out1_B_2 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) : Vec F S1x1024x512 .f32 :=
  VO1_2.read (Elt F) (VO1_2.writes (Elt F) VO1_2.junk (kernelRun1_B c i arg3 harg3 arg4 harg4 arg5 harg5 arg6 harg6 hc0 hc1 x0 x1 xs0).1)

/-- The pieces a last-half point writes into the running sum's buffer cover it. -/
theorem scover1_B_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) (y : S1024x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x512.size (by sl_kernel_rfl) y

/-- What a last-half point leaves in the running sum's buffer: its pieces read back. -/
def sout1_B_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) : Vec F S1024x512 .f32 :=
  VS1_0.read (Elt F) (VS1_0.writes (Elt F) VS1_0.junk (kernelRun1_B c i arg3 harg3 arg4 harg4 arg5 harg5 arg6 harg6 hc0 hc1 x0 x1 xs0).2.1)

/-! ## What the output block and the running sum hold after each point -/

/-- The accumulation: after the body at position `n`, the output block's buffer and the running sum (a pair). An even
    position starts afresh from the input blocks; an odd one continues from the running sum the position before left. -/
def outsAt1 (c : Dev nD) : (n : ℕ) → n < cfg1.N → Vec F S1x1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => not_odd_of_even1 (Nat.zero_mod 2) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => not_odd_of_even1 (Nat.zero_mod 2) ((hcond1_1 ⟨0, hn⟩).mp h)) (iblk1 V c 0 ⟨0, hn⟩) (iblk1 V c 1 ⟨0, hn⟩))
  | n + 1, hn =>
    if h0 : (n + 1) % 2 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => not_odd_of_even1 h0 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => not_odd_of_even1 h0 ((hcond1_1 ⟨n + 1, hn⟩).mp h)) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (odd_of_not_even1 h0)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (odd_of_not_even1 h0)) (iblk1 V c 0 ⟨n + 1, hn⟩) (iblk1 V c 1 ⟨n + 1, hn⟩) (outsAt1 c n (Nat.lt_of_succ_lt hn)).2)

/-- `outsAt1` at an even point: a fresh start from that point's input blocks. -/
theorem outsAt1_A (c : Dev nD) (t : Fin cfg1.N) (h0 : t.val % 2 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => not_odd_of_even1 h0 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => not_odd_of_even1 h0 ((hcond1_1 t).mp h)) (iblk1 V c 0 t) (iblk1 V c 1 t)) := by
  obtain ⟨n, hn⟩ := t
  cases n with
  | zero => exact rfl
  | succ n => exact (dif_pos h0).trans rfl

/-- `outsAt1` at an odd point: that point's step over the running sum the point before left. -/
theorem outsAt1_B (c : Dev nD) (t : Fin cfg1.N) (h1 : t.val % 2 = 1) :
    outsAt1 V c t.val t.isLt = (out1_B_2 c (grid1.coords t) (ms1_0 t) (hs1_0 t) (ms1_1 t) (hs1_1 t) (ms1_2 t) (hs1_2 t) scM1_0 (Memref.isWhole_whole _) (fun h => not_even_of_odd1 h1 ((hcond1_0 t).mp h)) ((hcond1_1 t).mpr h1) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => not_even_of_odd1 h1 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd ((Nat.zero_mod 2).symm.trans h1) Nat.zero_ne_one
  | succ n => exact (dif_neg (not_even_of_odd1 h1)).trans rfl

/-! ## The invariant between points -/

/-- Before position `n`: at the start what the launch hands over (the running sum at anything); afterwards the running
    sum's buffer at what the position before left, beside the other call's buffers and the generator register. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of the down-projection pipeline on core `c`, at entry contents `V`: after the body at point `t`
    each input's buffer holds its block and the output's holds `outsAt1`'s first component; the invariant is `PhiS1`;
    nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's parity says which case it is in. At an
    even point the invariant hands the body the running sum at anything (the launch's, at the first point) or at what
    the point before left, and takes it back at the fresh start; the output block is handed back as found. At an odd
    point the invariant hands the running sum at what the point before left and takes it back at this point's sum, and
    the output block is returned holding that sum. The other call's buffers, the generator register and the core's
    debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => not_odd_of_even1 h0 ((hcond1_1 t).mp h)
    rw [Dat.leavesExact_idle (dat1 V c) 2 t (idleAt1_2_A t hc0 hc1) (noFlush1_2_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HR, HS0⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have h1 : t.val % 2 = 1 := odd_of_not_even1 h0
    have hc0 : ¬cond1_0 (grid1.coords t) := fun h => not_even_of_odd1 h1 ((hcond1_0 t).mp h)
    have hc1 : cond1_1 (grid1.coords t) := (hcond1_1 t).mpr h1
    rw [show (dat1 V c).leavesExact 2 t = owns (c : Thread nD τ) (ms1_2 t) fullShare ((dat1 V c).after 2 t) from by
      unfold Dat.leavesExact; rw [liveAt1_2_B t hc0 hc1], after1_2]
    rw [outsAt1_B V c t h1]
    unfold out1_B_2 sout1_B_0; (try dsimp only)
    have hz : t.val ≠ 0 := fun hz => by omega
    rw [PhiS1_castSucc V c t, PhiS1_pos V c _ _ hz]
    iintro ⟨⟨⟨HR, HS0⟩, Hg⟩, Ho, ⟨%d0, H0⟩, ⟨%d1, H1⟩, ⟨%d2, H2⟩⟩
    iapply ((kernelRun1_B c (grid1.coords t) _ _ _ _ _ _ _ _ hc0 hc1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover1_B_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the running sum's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Frm

end
-- ==== Proof.FrameB.Run.lean ====
/-
  The whole program as a run of its four segments: the regrouping of the token matrix by expert, the gate/up region,
  the down-projection region, and the regrouping back into rows.

  Between two segments a core holds every unscoped buffer at a named valuation: the launch memory, then the first
  regrouping applied to it, then the activation array overwritten by what the first region's write-backs leave, then the
  result array overwritten by what the second region's write-backs leave, then the last regrouping applied.  Beside the
  buffers ride the generator register at some state and the fact that the core owes nothing.

  The first region stages the gate/up weight array through two windows at different column blocks.  Both only read it,
  so each window holds one half of the array's share for the length of the region and the halves are joined again when
  the region is left; every other array is held whole.
-/
import proofs.«108648_j3204045603931_2_alg».proof.Proof.Gen.Kernel.Launch
import proofs.«108648_j3204045603931_2_alg».proof.Proof.Gen.Kernel.Skeleton
import proofs.«108648_j3204045603931_2_alg».proof.Proof.Gen.Kernel.Points
import proofs.«108648_j3204045603931_2_alg».proof.Proof.FrameB.R0Body
import proofs.«108648_j3204045603931_2_alg».proof.Proof.FrameB.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares of the first region's arrays -/

/-- The share of its array each window of the first region holds: the two windows on the gate/up weights one half
    each, the others the whole. -/
def q0 : Fin cfg0.W → PosShare TreeShare
  | ⟨1, _⟩ => fullShare.left
  | ⟨2, _⟩ => fullShare.right
  | _ => fullShare

/-! ## The buffers' contents between segments -/

/-- At launch. -/
abbrev W0 : Dev nD → Valuation τ sig (Elt F) := fun c b => m (c, b)
/-- After the tokens are regrouped by expert. -/
abbrev W1 : Dev nD → Valuation τ sig (Elt F) := fun c => StableHlo.after hostOps0 (W0 m c)
/-- The same read at a TensorCore reference: what the first region is entered with. -/
abbrev V1 : (c : Dev nD) → (b : Ref sig .tc) → Buf (Elt F) ((c : Thread nD τ).loc b) := fun c b => W1 m c b
/-- What the first region's write-backs leave in the activation array. -/
def act1 (c : Dev nD) : Buf (Elt F) ((c : Thread nD τ).loc main_v1) := (dat0 q0 (V1 m) c).arrAt 3 cfg0.N
/-- After the first region: the activation array overwritten, everything else as entered. -/
def W2 (c : Dev nD) : Valuation τ sig (Elt F) := Function.update (W1 m c) (Proc.devRef .tc main_v1) (act1 m c)
/-- The same read at a TensorCore reference: what the second region is entered with. -/
abbrev V2 : (c : Dev nD) → (b : Ref sig .tc) → Buf (Elt F) ((c : Thread nD τ).loc b) := fun c b => W2 m c b
/-- What the second region's write-backs leave in the result array. -/
def out2 (c : Dev nD) : Buf (Elt F) ((c : Thread nD τ).loc main_v2) := (dat1 (V2 m) c).arrAt 2 cfg1.N
/-- After the second region: the result array overwritten, everything else as entered. -/
def W3 (c : Dev nD) : Valuation τ sig (Elt F) := Function.update (W2 m c) (Proc.devRef .tc main_v2) (out2 m c)
abbrev V3 : (c : Dev nD) → (b : Ref sig .tc) → Buf (Elt F) ((c : Thread nD τ).loc b) := fun c b => W3 m c b
/-- After the result is regrouped into rows: the contents at the return. -/
abbrev W4 : Dev nD → Valuation τ sig (Elt F) := fun c => StableHlo.after hostOps2 (W3 m c)

theorem W2_main_v1 (c : Dev nD) : W2 m c (Proc.devRef .tc main_v1) = act1 m c := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_main_v2 (c : Dev nD) : W3 m c (Proc.devRef .tc main_v2) = out2 m c := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and what rides beside the buffers -/

/-- No pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 q0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The first region's arrays -/

/-- The three distinct buffers behind the first region's four windows, each whole. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_arg1) ↦{fullShare} V main_arg1)
          ∗ (((c : Thread nD τ).loc main_v1) ↦{fullShare} V main_v1)) := by
  unfold Pipeline.arrBufs
  exact bigSep_eq_bigSepL_of_eq [main_v0, main_arg1, main_v1] (by decide) (by decide) _

theorem share0_0 (c : Dev nD) : (dat0 (F := F) q0 (V1 m) c).share 0 = fullShare := by
  unfold Dat.share; rw [q_eq0]; rfl
theorem share0_1 (c : Dev nD) : (dat0 (F := F) q0 (V1 m) c).share 1 = fullShare.left := by
  unfold Dat.share; rw [q_eq0]; rfl
theorem share0_2 (c : Dev nD) : (dat0 (F := F) q0 (V1 m) c).share 2 = fullShare.right := by
  unfold Dat.share; rw [q_eq0]; rfl
theorem share0_3 (c : Dev nD) : (dat0 (F := F) q0 (V1 m) c).share 3 = fullShare := by
  unfold Dat.share; rfl

/-- The first region's arrays as its proof data holds them, window by window. -/
theorem arrays0_eq (c : Dev nD) (X : (w : Fin cfg0.W) → Buf (Elt F) ((cfg0.win w).arr.view.loc (c : Thread nD τ))) :
    ((dat0 q0 (V1 m) c).arrays X : sProp 𝕄)
      = iprop((((c : Thread nD τ).loc main_v0) ↦{fullShare} X 0) ∗ (((c : Thread nD τ).loc main_arg1) ↦{fullShare.left} X 1)
          ∗ (((c : Thread nD τ).loc main_arg1) ↦{fullShare.right} X 2) ∗ (((c : Thread nD τ).loc main_v1) ↦{fullShare} X 3)) := by
  unfold Dat.arrays
  rw [bigSep_W0, share0_0, share0_1, share0_2, share0_3,
    show (cfg0.win 0).arr.view.set = Finset.univ from (arr_whole0 0).set_eq_univ,
    show (cfg0.win 1).arr.view.set = Finset.univ from (arr_whole0 1).set_eq_univ,
    show (cfg0.win 3).arr.view.set = Finset.univ from (arr_whole0 3).set_eq_univ]

/-- The first region's inputs are never written: after any number of write-backs each input array is as entered. -/
theorem arrAt0_in (c : Dev nD) (n : ℕ) :
    (dat0 (F := F) q0 (V1 m) c).arrAt 0 n = V1 m c main_v0 ∧ (dat0 (F := F) q0 (V1 m) c).arrAt 1 n = V1 m c main_arg1
      ∧ (dat0 (F := F) q0 (V1 m) c).arrAt 2 n = V1 m c main_arg1 :=
  ⟨((dat0 q0 (V1 m) c).arrAt_in 0 rfl n).trans (A_eq0 q0 (V1 m) c 0), ((dat0 q0 (V1 m) c).arrAt_in 1 rfl n).trans (A_eq0 q0 (V1 m) c 1),
    ((dat0 q0 (V1 m) c).arrAt_in 2 rfl n).trans (A_eq0 q0 (V1 m) c 2)⟩

/-- A whole array held at the full share is the same array held at the two halves of the share, and back. -/
theorem halves (c : Dev nD) (b : Ref sig .tc) (f : Buf (Elt F) ((c : Thread nD τ).loc b)) :
    ((((c : Thread nD τ).loc b) ↦{fullShare} f) : sProp 𝕄)
      ⊣⊢ iprop((((c : Thread nD τ).loc b) ↦{fullShare.left} f) ∗ (((c : Thread nD τ).loc b) ↦{fullShare.right} f)) :=
  pointsTo_share (PosShare.mem_left_op_right fullShare)

/-- ENTRY of the first region: the unscoped buffers at the entry contents are the region's arrays — the gate/up weights'
    share halved between the two windows that read them — beside the buffers the region bypasses. -/
theorem entry0 (c : Dev nD) :
    (StableHlo.held (c : Thread nD τ) (Pipeline.ucRefs τ sig) (W1 m c) : sProp 𝕄)
      ⊢ iprop((dat0 q0 (V1 m) c).arrays ((dat0 q0 (V1 m) c).arrAt · 0)
          ∗ Pipeline.unscopedRest (Ix := Unit) (Name := ℕ) (U := UR sig nD τ) (Lvl := ℕ) spec0 c (V1 m c)) := by
  have hs : (unscopedBufs c (V1 m c) : sProp 𝕄)
      = iprop(Pipeline.arrBufs spec0 c (V1 m c) ∗ Pipeline.unscopedRest spec0 c (V1 m c)) :=
    Pipeline.unscopedBufs_split₀ (Ix := Unit) (Name := ℕ) (U := UR sig nD τ) (Lvl := ℕ) (Val := Elt F) (nD := nD) (τ := τ) cfgs (0 : Fin 2)
      winFacts₀0.arr_unscoped c (V1 m c)
  have hA : (Pipeline.arrBufs (Ix := Unit) (Name := ℕ) (U := UR sig nD τ) (Lvl := ℕ) spec0 c (V1 m c) : sProp 𝕄)
      ⊢ (dat0 q0 (V1 m) c).arrays ((dat0 q0 (V1 m) c).arrAt · 0) := by
    rw [arrBufs0_eq, arrays0_eq]
    obtain ⟨e0, e1, e2⟩ := arrAt0_in m c 0
    rw [e0, e1, e2, show (dat0 q0 (V1 m) c).arrAt 3 0 = V1 m c main_v1 from A_eq0 q0 (V1 m) c 3]
    exact sep_mono .rfl ((sep_mono (halves c main_arg1 _).1 .rfl).trans sep_assoc.1)
  rw [← Pipeline.unscopedBufs_held c (W1 m c)]
  exact (Entails.of_eq hs).trans (sep_mono hA .rfl)

/-- EXIT of the first region: its arrays after every write-back — the inputs as entered, the two halves of the gate/up
    weights joined again, the activation array at what the write-backs left — beside the bypassed buffers are the
    unscoped buffers at the exit contents. -/
theorem exit0 (c : Dev nD) :
    iprop((dat0 q0 (V1 m) c).arrays ((dat0 q0 (V1 m) c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have hs : (unscopedBufs c (V2 m c) : sProp 𝕄)
      = iprop(Pipeline.arrBufs spec0 c (V2 m c) ∗ Pipeline.unscopedRest spec0 c (V2 m c)) :=
    Pipeline.unscopedBufs_split₀ (Ix := Unit) (Name := ℕ) (U := UR sig nD τ) (Lvl := ℕ) (Val := Elt F) (nD := nD) (τ := τ) cfgs (0 : Fin 2)
      winFacts₀0.arr_unscoped c (V2 m c)
  have hA : ((dat0 q0 (V1 m) c).arrays ((dat0 q0 (V1 m) c).arrAt · cfg0.N) : sProp 𝕄)
      ⊢ Pipeline.arrBufs (Ix := Unit) (Name := ℕ) (U := UR sig nD τ) (Lvl := ℕ) spec0 c (V2 m c) := by
    rw [arrBufs0_eq, arrays0_eq]
    obtain ⟨e0, e1, e2⟩ := arrAt0_in m c cfg0.N
    rw [e0, e1, e2, show V2 m c main_v0 = V1 m c main_v0 from W2_of_ne m c main_v0 (by decide),
      show V2 m c main_arg1 = V1 m c main_arg1 from W2_of_ne m c main_arg1 (by decide),
      show V2 m c main_v1 = act1 m c from W2_main_v1 m c]
    exact sep_mono .rfl (sep_assoc.2.trans (sep_mono (halves c main_arg1 _).2 .rfl))
  have hR : (Pipeline.unscopedRest (Ix := Unit) (Name := ℕ) (U := UR sig nD τ) (Lvl := ℕ) spec0 c (V1 m c) : sProp 𝕄)
      ⊢ Pipeline.unscopedRest (Ix := Unit) (Name := ℕ) (U := UR sig nD τ) (Lvl := ℕ) spec0 c (V2 m c) := by
    rw [unscopedRest0_eq, unscopedRest0_eq,
      show V2 m c main_arg0 = V1 m c main_arg0 from W2_of_ne m c main_arg0 (by decide),
      show V2 m c main_arg2 = V1 m c main_arg2 from W2_of_ne m c main_arg2 (by decide),
      show V2 m c main_v2 = V1 m c main_v2 from W2_of_ne m c main_v2 (by decide),
      show V2 m c main_v3 = V1 m c main_v3 from W2_of_ne m c main_v3 (by decide)]
  rw [← Pipeline.unscopedBufs_held c (W2 m c)]
  exact (BIClass.sep_mono hA hR).trans (Entails.of_eq hs.symm)

/-! ## The second region's arrays -/

theorem hF1 (c : Dev nD) (w : Fin cfg1.W) : (dat1 (F := F) (V2 m) c).arrAt w cfg1.N = V3 m c (Pipeline.arrRef spec1 w) := by
  match w with
  | ⟨0, _⟩ => exact (((dat1 (V2 m) c).arrAt_in 0 rfl cfg1.N).trans (A_eq1 (V2 m) c 0)).trans (W3_of_ne m c main_v1 (by decide)).symm
  | ⟨1, _⟩ => exact (((dat1 (V2 m) c).arrAt_in 1 rfl cfg1.N).trans (A_eq1 (V2 m) c 1)).trans (W3_of_ne m c main_arg2 (by decide)).symm
  | ⟨2, _⟩ => exact (W3_main_v2 m c).symm
theorem hrest1 (c : Dev nD) : ∀ b, b ∉ Finset.univ.image (Pipeline.arrRef spec1) → V3 m c b = V2 m c b :=
  fun b hb => W3_of_ne m c b fun e => hb (Finset.mem_image.mpr ⟨2, Finset.mem_univ _, e.symm⟩)

/-! ## The regions as segments -/

-- a library lemma stated over a pinned configuration unifies with the printed one only when unification may unfold
-- plain definitions in a metavariable's type
set_option backward.isDefEq.respectTransparency.types false in
/-- The gate/up region: entered with every unscoped buffer at `W1`, left with them at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 q0 (V1 m) c).loose
  hwaits := Pipeline.hwaits_of_owed_zero _ _ _ _ L lv 0 fun c t => owed0 q0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have he := entry0 m c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 q0 (V1 m) c)
    unfold Pipeline.ΦA
    iintro ⟨Hp, -, Hr⟩
    isplitl [Hr]; · iexact Hr
    iexact Hp
  hout c := by
    rw [Pipeline.ownSems0_none]
    refine (hout0 q0 (V1 m) c).trans ?_
    unfold Pipeline.ΦA
    iintro ⟨Hr, Hp⟩
    isplitl [Hp]; · iexact Hp
    isplitr; · iempintro
    iexact Hr
  hexit c := by
    have hx := exit0 m c
    iintro ⟨Ha, HO, HY, Hrest⟩
    imodintro
    isplitl [Ha Hrest]
    · iapply hx
      isplitl [Ha]; · iexact Ha
      iexact Hrest
    isplitl [HY]; · iexact HY
    unfold Pipeline.Dat.owesAt Pipeline.owesWithin
    icases HO with ⟨%W, -, HO⟩; iexists W; iexact HO

-- as for the first region
set_option backward.isDefEq.respectTransparency.types false in
/-- The down-projection region: entered with every unscoped buffer at `W2`, left with them at `W3`. Its three arrays
    are distinct buffers, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun c t => owed1 (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have he := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at he
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hx := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hx
    iintro ⟨Ha, HO, HY, Hrest⟩
    imodintro
    isplitl [Ha Hrest]
    · iapply hx
      isplitl [Ha]; · iexact Ha
      iexact Hrest
    isplitl [HY]; · iexact HY
    unfold Pipeline.Dat.owesAt Pipeline.owesWithin
    icases HO with ⟨%W, -, HO⟩; iexists W; iexact HO

/-! ## The program as its segments, and the launch -/

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The four segments in order. -/
abbrev segs : List (Pipeline.Seg (pcfgs (F := F)) adm (pdats m) () defs₀ 𝒱₀ L lv) :=
  [ .host (hseg hostOps0 hostOps0_sub ops0_fresh (W0 m)),
    .region (reg0 m),
    .region (reg1 m),
    .host (hseg hostOps2 hostOps2_sub ops2_fresh (W3 m)) ]

theorem main_run (c : Dev nD) : main (F := F) c = Pipeline.Seg.run (segs m) :=
  main_segs adm (pdats m) () 𝒱₀ L lv _ _ (reg0 m) (reg1 m) rfl rfl c

/-- The last thread state less the `owes`: every unscoped buffer at the return contents, the generator register at some state. -/
abbrev Tlast (c : Dev nD) : sProp 𝕄 := iprop(StableHlo.held (c : Thread nD τ) (Pipeline.ucRefs τ sig) (W4 m c) ∗ ∃ r, prngReg c r)

-- the launch theorem's implicit arguments are found by unifying its conclusion with this one, which takes unfolding
-- plain definitions in a metavariable's type
set_option backward.isDefEq.respectTransparency.types false in
/-- THE RUN. From any memory with every counter at zero, every weakly fair execution of the program on the TensorCores
    terminates without a fault, and in every final state each unscoped buffer holds the return contents `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments and the result at the return -/

/-- The first regrouping writes only the regrouped tokens, -/
theorem ops0_writes : (hostOps0 : List (HloOp τ sig (Elt F))).Forall fun op => op.writes ⊆ ((([main_v0] : List (Ref sig .tc))).map (Proc.devRef (τ := τ) .tc)).toFinset := by
  simp only [List.Forall]
  exact (by simp only [StableHlo.reshape_writes, Finset.singleton_subset_iff, List.mem_toFinset]; exact List.mem_map_of_mem (by decide))
/-- and the last only the result rows. -/
theorem ops2_writes : (hostOps2 : List (HloOp τ sig (Elt F))).Forall fun op => op.writes ⊆ ((([main_v3] : List (Ref sig .tc))).map (Proc.devRef (τ := τ) .tc)).toFinset := by
  simp only [List.Forall]
  exact (by simp only [StableHlo.reshape_writes, Finset.singleton_subset_iff, List.mem_toFinset]; exact List.mem_map_of_mem (by decide))

/-- A buffer no segment writes holds its launch contents at the return. -/
theorem W4_kept (c : Dev nD) (b : Ref sig .tc) (h0 : b ∉ ([main_v0] : List (Ref sig .tc))) (h1 : b ≠ main_v1) (h2 : b ≠ main_v2)
    (h3 : b ∉ ([main_v3] : List (Ref sig .tc))) : W4 m c (Proc.devRef .tc b) = m ((c : Thread nD τ).loc b) :=
  (StableHlo.after_of_writes_sub hostOps2 _ ops2_writes h3).trans <| (W3_of_ne m c b h2).trans <| (W2_of_ne m c b h1).trans <|
    (StableHlo.after_of_writes_sub hostOps0 _ ops0_writes h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩) (run_all m ρ)

/-- The same run read also at the result rows: they end at the return contents, the arguments as launched. -/
theorem run_value : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v3 (by decide)),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩) (run_all m ρ)

end Cert.Kernel.Frm

end
-- ==== Proof.FrameI.R0Base.lean ====
/- Region 0 (the gate/up kernel): what the two control cases of its body share.
   The body's two conditionals depend only on the innermost grid coordinate k = t % 2:
   at k = 0 both accumulators are zero-filled and the output block is not stored;
   at k = 1 nothing is zero-filled and the output block is stored.  Here: the two conditions
   in closed form, where the output window is idle, the staging and accumulator memrefs,
   the region invariant with the accumulators as owned memrefs, and each input window's
   block read off the contents the region is entered with. -/
import proofs.«108648_j3204045603931_2_alg».proof.Proof.Gen.KernelIdeal.Launch
import proofs.«108648_j3204045603931_2_alg».proof.Proof.Gen.KernelIdeal.Skeleton
import proofs.«108648_j3204045603931_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The first conditional (zero-fill of both accumulators): the innermost coordinate is 0. -/
abbrev cond0_0 (i : grid0.Coords) : Prop := (Scalar.cmpi .ne (Scalar.extui (Scalar.cmpi .eq (BitVec.ofNat 32 (i 2).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (the store of the output block): the innermost coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At an even point nothing is stored into the output block: the window is idle there, -/
theorem idleAt0_3_A : ∀ t : Fin cfg0.N, cond0_0 (grid0.coords t) → ¬cond0_1 (grid0.coords t) → cfg0.idle 3 (grid0.coords t) = true := by decide +kernel
/-- and its block is not written back. -/
theorem noFlush0_3_A : ∀ t : Fin cfg0.N, cond0_0 (grid0.coords t) → ¬cond0_1 (grid0.coords t) → (cfg0.win 3).flush t = false := by decide +kernel
/-- At an odd point the output block is stored: the window is live. -/
theorem liveAt0_3_B : ∀ t : Fin cfg0.N, ¬cond0_0 (grid0.coords t) → cond0_1 (grid0.coords t) → cfg0.idle 3 (grid0.coords t) = false := by decide +kernel

/-! ## The memrefs the body is called on -/

/-- One staging buffer of the output window, through which its contents are stated. -/
abbrev VO0_3 : View sig .tc .vmem S1x1024x512 .bf16 := (Memref.whole cc0_stg3_0 : Memref sig .tc .vmem S1x1024x512 .bf16).view
/-- Each window's current staging memref at point `t`, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
/-- The two accumulators (gate and up), whole scoped buffers carried from point to point. -/
abbrev scM0_0 : Memref sig .tc .vmem S1024x512 .f32 := Memref.whole cc0_scratch0
abbrev scM0_1 : Memref sig .tc .vmem S1024x512 .f32 := Memref.whole cc0_scratch1
abbrev VS0_0 : View sig .tc .vmem S1024x512 .f32 := scM0_0.view
abbrev VS0_1 : View sig .tc .vmem S1024x512 .f32 := scM0_1.view

/-! ## The region invariant -/

/-- The scoped buffers of the second call (its six staging buffers and its accumulator), each whole at some
    contents: region 0 never touches them. -/
def othersRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant of region 0: both accumulators owned at some contents, the second call's scoped buffers
    at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ othersRest c) ∗ (∃ r, prngReg c r)) := by
  unfold Pipeline.ΦA othersRest; rw [scopedRest0_eq]; simp only [scM0_0, scM0_1, owns_whole]; try rfl

/-! ## The windows' blocks -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Frm

end
-- ==== Proof.FrameI.R0RunA.lean ====
/- Region 0, an even grid point (k = 0): the whole body run.  Both accumulators are zero-filled and then
   each receives its first partial product; the output block is not touched. -/
import proofs.«108648_j3204045603931_2_alg».proof.Proof.FrameI.R0Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 0, on whole memrefs — the three input blocks at their contents, the output buffer at
    contents handed back untouched, the two accumulators at anything — the body runs to the continuation
    holding the inputs and the output buffer as they were and each accumulator with its pieces written
    (last store first): the zero fill and then the sum of the zero fill and the first partial product.
    The piece lists are the witness the symbolic run finds. -/
noncomputable def kernelRun0_A (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) :
    Σ' (L3 : List (View.Piece (Elt F) S1x1024x512 .bf16)) (LS0 : List (View.Piece (Elt F) S1024x512 .f32)), { LS1 : List (View.Piece (Elt F) S1024x512 .f32) //
      ∀ (xi3 : Vec F S1x1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨[], ?_, ?_, fun xi3 E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    iexists _; iexact HS1

end Cert.KernelIdeal.Frm

end
-- ==== Proof.FrameI.R0RunB.lean ====
/- Region 0, an odd grid point (k = 1): the whole body run.  Each accumulator receives its second partial
   product on top of what the point before left, and the output block is stored from the two accumulators. -/
import proofs.«108648_j3204045603931_2_alg».proof.Proof.FrameI.R0Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point with k = 1, on whole memrefs — the three input blocks at their contents, the output buffer at
    anything, the two accumulators at the contents the point before left — the body runs to the continuation
    holding the inputs as they were and the output buffer and each accumulator with its pieces written.
    The piece lists are the witness the symbolic run finds. -/
noncomputable def kernelRun0_B (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) :
    Σ' (L3 : List (View.Piece (Elt F) S1x1024x512 .bf16)) (LS0 : List (View.Piece (Elt F) S1024x512 .f32)), { LS1 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    iexists _; iexact HS1

end Cert.KernelIdeal.Frm

end
-- ==== Proof.FrameI.R0Body.lean ====
/- Region 0 (the gate/up kernel): the proof data of its pipeline and the body obligation.
   After an even point (k = 0) each accumulator holds the zero fill plus the first partial product; after an odd
   point (k = 1) each holds what the even point before left plus the second partial product, and the output block
   holds up * max(gate, 0) of those two sums.  The invariant carries the two accumulators at these named contents
   from each point to the next; the scoped buffers of the second call ride along untouched. -/
import proofs.«108648_j3204045603931_2_alg».proof.Proof.FrameI.R0RunA
import proofs.«108648_j3204045603931_2_alg».proof.Proof.FrameI.R0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulators and in the output block -/

/-- An even point stores nothing into the output block: a placeholder that nothing consults (the block is
    neither written back there nor read at the next point). -/
def out0_A_3 : Vec F S1x1024x512 .bf16 := VO0_3.read (Elt F) VO0_3.junk

/-- At an even point the pieces written to the gate accumulator cover it, -/
theorem scover0_A_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) (y : S1024x512.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1024x512.size (by sl_kernel_rfl) y
/-- and what they leave in it: the pieces read back over arbitrary contents. -/
def sout0_A_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) : Vec F S1024x512 .f32 :=
  VS0_0.read (Elt F) (VS0_0.writes (Elt F) VS0_0.junk (kernelRun0_A c i arg3 harg3 arg4 harg4 arg5 harg5 arg6 harg6 arg7 harg7 arg8 harg8 hc0 hc1 x0 x1 x2).2.1)
/-- The same for the up accumulator. -/
theorem scover0_A_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) (y : S1024x512.Idx) :
    ∃ pc ∈ (kernelRun0_A c i arg3 harg3 arg4 harg4 arg5 harg5 arg6 harg6 arg7 harg7 arg8 harg8 hc0 hc1 x0 x1 x2).2.2.1, y ∈ pc.1.set :=
  View.cover_of_tiledL (kernelRun0_A c i arg3 harg3 arg4 harg4 arg5 harg5 arg6 harg6 arg7 harg7 arg8 harg8 hc0 hc1 x0 x1 x2).2.2.1 S1024x512.size (by sl_kernel_rfl) y
def sout0_A_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) : Vec F S1024x512 .f32 :=
  VS0_1.read (Elt F) (VS0_1.writes (Elt F) VS0_1.junk (kernelRun0_A c i arg3 harg3 arg4 harg4 arg5 harg5 arg6 harg6 arg7 harg7 arg8 harg8 hc0 hc1 x0 x1 x2).2.2.1)

/-- At an odd point the one store into the output block covers it, -/
theorem cover0_B_3 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) (y : S1x1024x512.Idx) :
    ∃ pc ∈ (kernelRun0_B c i arg3 harg3 arg4 harg4 arg5 harg5 arg6 harg6 arg7 harg7 arg8 harg8 hc0 hc1 x0 x1 x2 xs0 xs1).1, y ∈ pc.1.set :=
  View.cover_of_tiledL (kernelRun0_B c i arg3 harg3 arg4 harg4 arg5 harg5 arg6 harg6 arg7 harg7 arg8 harg8 hc0 hc1 x0 x1 x2 xs0 xs1).1 S1x1024x512.size (by sl_kernel_rfl) y
/-- and what it leaves there. -/
def out0_B_3 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) : Vec F S1x1024x512 .bf16 :=
  VO0_3.read (Elt F) (VO0_3.writes (Elt F) VO0_3.junk (kernelRun0_B c i arg3 harg3 arg4 harg4 arg5 harg5 arg6 harg6 arg7 harg7 arg8 harg8 hc0 hc1 x0 x1 x2 xs0 xs1).1)
theorem scover0_B_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) (y : S1024x512.Idx) :
    ∃ pc ∈ (kernelRun0_B c i arg3 harg3 arg4 harg4 arg5 harg5 arg6 harg6 arg7 harg7 arg8 harg8 hc0 hc1 x0 x1 x2 xs0 xs1).2.1, y ∈ pc.1.set :=
  View.cover_of_tiledL (kernelRun0_B c i arg3 harg3 arg4 harg4 arg5 harg5 arg6 harg6 arg7 harg7 arg8 harg8 hc0 hc1 x0 x1 x2 xs0 xs1).2.1 S1024x512.size (by sl_kernel_rfl) y
def sout0_B_0 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) : Vec F S1024x512 .f32 :=
  VS0_0.read (Elt F) (VS0_0.writes (Elt F) VS0_0.junk (kernelRun0_B c i arg3 harg3 arg4 harg4 arg5 harg5 arg6 harg6 arg7 harg7 arg8 harg8 hc0 hc1 x0 x1 x2 xs0 xs1).2.1)
theorem scover0_B_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) (y : S1024x512.Idx) :
    ∃ pc ∈ (kernelRun0_B c i arg3 harg3 arg4 harg4 arg5 harg5 arg6 harg6 arg7 harg7 arg8 harg8 hc0 hc1 x0 x1 x2 xs0 xs1).2.2.1, y ∈ pc.1.set :=
  View.cover_of_tiledL (kernelRun0_B c i arg3 harg3 arg4 harg4 arg5 harg5 arg6 harg6 arg7 harg7 arg8 harg8 hc0 hc1 x0 x1 x2 xs0 xs1).2.2.1 S1024x512.size (by sl_kernel_rfl) y
def sout0_B_1 (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) : Vec F S1024x512 .f32 :=
  VS0_1.read (Elt F) (VS0_1.writes (Elt F) VS0_1.junk (kernelRun0_B c i arg3 harg3 arg4 harg4 arg5 harg5 arg6 harg6 arg7 harg7 arg8 harg8 hc0 hc1 x0 x1 x2 xs0 xs1).2.2.1)

section Data
variable (q : Fin cfg0.W → PosShare TreeShare) (V : (c : Dev nD) → (b : Ref sig .tc) → Buf (Elt F) ((c : Thread nD τ).loc b))

/-! ## What the output block and the two accumulators hold after each point -/

/-- After the body at position `n`: (the output block's buffer, the gate accumulator, the up accumulator).
    An even point starts both sums afresh from the point's input blocks; an odd point continues from what the
    point before left. -/
def outsAt0 (c : Dev nD) : (n : ℕ) → n < cfg0.N → Vec F S1x1024x512 .bf16 × Vec F S1024x512 .f32 × Vec F S1024x512 .f32
  | 0, hn => (out0_A_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (by decide : ¬(0 : ℕ) % 2 = 1) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (by decide : ¬(0 : ℕ) % 2 = 1) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      (out0_A_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (by omega : ¬(n + 1) % 2 = 1) ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => (by omega : ¬(n + 1) % 2 = 1) ((hcond0_1 ⟨n + 1, hn⟩).mp h)) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr (by omega : (n + 1) % 2 = 1)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr (by omega : (n + 1) % 2 = 1)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr (by omega : (n + 1) % 2 = 1)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at an even point. -/
theorem outsAt0_A (c : Dev nD) (t : Fin cfg0.N) (h0 : t.val % 2 = 0) :
    outsAt0 V c t.val t.isLt = (out0_A_3, sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (by omega : ¬t.val % 2 = 1) ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (by omega : ¬t.val % 2 = 1) ((hcond0_1 t).mp h)) (iblk0 V c 0 t) (iblk0 V c 1 t) (iblk0 V c 2 t)) := by
  obtain ⟨n, hn⟩ := t
  cases n with
  | zero => exact rfl
  | succ n => exact (dif_pos h0).trans rfl

/-- `outsAt0` at an odd point, over what the point before left. -/
theorem outsAt0_B (c : Dev nD) (t : Fin cfg0.N) (h1 : t.val % 2 = 1) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (show (0 : ℕ) % 2 = 1 from h1) (by decide)
  | succ n => exact (dif_neg (show ¬(n + 1) % 2 = 0 from fun h => by have h1' : (n + 1) % 2 = 1 := h1; omega)).trans rfl

/-! ## The invariant -/

/-- Before position `n`: at the first point the class invariant (both accumulators at anything); afterwards both
    accumulators at what the point before left, the second call's scoped buffers at some contents, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ othersRest c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ othersRest c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ othersRest c) ∗ (∃ r, prngReg c r)) := by
  cases n with
  | zero => exact absurd rfl hz
  | succ n => rfl

/-! ## The proof data -/

/-- The proof data of pipeline 0 on core `c`: the arrays as the region finds them; after the body each input's
    buffer at its block and the output's at `outsAt0`'s first component; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q := q
  owed _ := 0

theorem A_eq0 (c : Dev nD) (w : Fin cfg0.W) : (dat0 q V c).A w = V c (Pipeline.arrRef spec0 w) := by
  dsimp only [dat0]
theorem q_eq0 (c : Dev nD) (w : Fin cfg0.W) : (dat0 q V c).q w = q w := by
  dsimp only [dat0]
theorem owed0 (c : Dev nD) (t : Fin (cfg0.N + 1)) : (dat0 q V c).owed t = 0 := by
  dsimp only [dat0]

theorem PhiS_castSucc (c : Dev nD) (t : Fin cfg0.N) :
    (dat0 q V c).Φ t.castSucc = PhiS V c t.val (Nat.le_of_lt t.isLt) := by
  dsimp only [dat0]; simp only [Fin.coe_castSucc]

theorem after0_0 (c : Dev nD) (t : Fin cfg0.N) : (dat0 q V c).after 0 t = iblk0 V c 0 t := by dsimp only [dat0]
theorem after0_1 (c : Dev nD) (t : Fin cfg0.N) : (dat0 q V c).after 1 t = iblk0 V c 1 t := by dsimp only [dat0]
theorem after0_2 (c : Dev nD) (t : Fin cfg0.N) : (dat0 q V c).after 2 t = iblk0 V c 2 t := by dsimp only [dat0]
theorem after0_3 (c : Dev nD) (t : Fin cfg0.N) : (dat0 q V c).after 3 t = (outsAt0 V c t.val t.isLt).1 := by dsimp only [dat0]

theorem before0_0 (c : Dev nD) (t : Fin cfg0.N) (d) : (dat0 q V c).before 0 t d = iblk0 V c 0 t :=
  before0_0_of V (dat0 q V c) (A_eq0 q V c 0) (after0_0 q V c) t d
theorem before0_1 (c : Dev nD) (t : Fin cfg0.N) (d) : (dat0 q V c).before 1 t d = iblk0 V c 1 t :=
  before0_1_of V (dat0 q V c) (A_eq0 q V c 1) (after0_1 q V c) t d
theorem before0_2 (c : Dev nD) (t : Fin cfg0.N) (d) : (dat0 q V c).before 2 t d = iblk0 V c 2 t :=
  before0_2_of V (dat0 q V c) (A_eq0 q V c 2) (after0_2 q V c) t d

/-! ## The body obligation -/

def bodyPre (c : Dev nD) (t : Fin cfg0.N) : sProp 𝕄 :=
  iprop((dat0 q V c).Φ t.castSucc ∗ (dat0 q V c).owesAt () t.castSucc
    ∗ (∃ d, owns (c : Thread nD τ) (ms0_0 t) fullShare ((dat0 q V c).before 0 t d))
    ∗ (∃ d, owns (c : Thread nD τ) (ms0_1 t) fullShare ((dat0 q V c).before 1 t d))
    ∗ (∃ d, owns (c : Thread nD τ) (ms0_2 t) fullShare ((dat0 q V c).before 2 t d))
    ∗ (∃ d, owns (c : Thread nD τ) (ms0_3 t) fullShare ((dat0 q V c).before 3 t d)))

def bodyPost (c : Dev nD) (t : Fin cfg0.N) : sProp 𝕄 :=
  iprop((dat0 q V c).Φ t.succ ∗ (dat0 q V c).owesAt () t.succ
    ∗ (dat0 q V c).leavesExact 0 t
    ∗ (dat0 q V c).leavesExact 1 t
    ∗ (dat0 q V c).leavesExact 2 t
    ∗ (dat0 q V c).leavesExact 3 t)

set_option maxHeartbeats 4800000 in
/-- The body at any point.  The inputs' buffers hold their blocks.  At an even point the run for k = 0 applies:
    the invariant hands it both accumulators (at anything, or at what the point before left, forgotten) and takes
    them back at this point's sums; the output's buffer is handed back as found.  At an odd point the run for k = 1
    applies on the accumulators at what the even point before left, and the output's buffer comes back at the
    stored block. -/
theorem sound_body (c : Dev nD) (t : Fin cfg0.N) :
    bodyPre q V c t ⊢ wp frame (wpE (defs₀ (F := F)) Variants.none c none) Set.univ (bodyAt0 t) (fun _ => bodyPost q V c t) := by
  unfold bodyPre bodyPost bodyAt0
  simp only [before0_0, before0_1, before0_2]
  rw [show (dat0 q V c).owesAt () t.succ = (dat0 q V c).owesAt () t.castSucc from rfl]
  rw [show (dat0 q V c).Φ t.succ = PhiS V c (t.val + 1) t.isLt from rfl, PhiS_succ]
  have hN : t.val < 64 := lt_of_lt_of_eq t.isLt (show cfg0.N = 64 from N_0)
  rw [show (dat0 q V c).leavesExact 0 t = owns (c : Thread nD τ) (ms0_0 t) fullShare ((dat0 q V c).after 0 t) from by
    unfold Dat.leavesExact; rw [liveAt0_0 t], after0_0]
  rw [show (dat0 q V c).leavesExact 1 t = owns (c : Thread nD τ) (ms0_1 t) fullShare ((dat0 q V c).after 1 t) from by
    unfold Dat.leavesExact; rw [liveAt0_1 t], after0_1]
  rw [show (dat0 q V c).leavesExact 2 t = owns (c : Thread nD τ) (ms0_2 t) fullShare ((dat0 q V c).after 2 t) from by
    unfold Dat.leavesExact; rw [liveAt0_2 t], after0_2]
  by_cases h0 : t.val % 2 = 0
  · have hc0 : cond0_0 (grid0.coords t) := (hcond0_0 t).mpr h0
    have hc1 : ¬cond0_1 (grid0.coords t) := fun h => (by omega : ¬t.val % 2 = 1) ((hcond0_1 t).mp h)
    rw [Dat.leavesExact_idle (dat0 q V c) 3 t (idleAt0_3_A t hc0 hc1) (noFlush0_3_A t hc0 hc1)]
    rw [outsAt0_A V c t h0]
    unfold sout0_A_0 sout0_A_1; (try dsimp only)
    by_cases hz : t.val = 0
    · rw [PhiS_castSucc q V c t, PhiS_zero V c _ _ hz, PhiA0_eq]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS_castSucc q V c t, PhiS_pos V c _ _ hz]
      iintro ⟨⟨⟨HS0, HS1, HR⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond0_0 (grid0.coords t) := fun h => h0 ((hcond0_0 t).mp h)
    have hc1 : cond0_1 (grid0.coords t) := (hcond0_1 t).mpr h1
    rw [show (dat0 q V c).leavesExact 3 t = owns (c : Thread nD τ) (ms0_3 t) fullShare ((dat0 q V c).after 3 t) from by
      unfold Dat.leavesExact; rw [liveAt0_3_B t hc0 hc1], after0_3]
    rw [outsAt0_B V c t h1]
    unfold out0_B_3 sout0_B_0 sout0_B_1; (try dsimp only)
    have hz : t.val ≠ 0 := by omega
    rw [PhiS_castSucc q V c t, PhiS_pos V c _ _ hz]
    iintro ⟨⟨⟨HS0, HS1, HR⟩, Hg⟩, Ho, ⟨%d0, H0⟩, ⟨%d1, H1⟩, ⟨%d2, H2⟩, ⟨%d3, H3⟩⟩
    iapply ((kernelRun0_B c (grid0.coords t) _ _ _ _ _ _ _ _ _ _ _ _ hc0 hc1 (iblk0 V c 0 t) (iblk0 V c 1 t) (iblk0 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _ _ _ _)

/-- The library's body obligation, at every point. -/
theorem body_obligation0 (c : Dev nD) : BodyObligation (dat0 (F := F) q V c) (defs₀ (F := F)) Variants.none () Set.univ := fun t => by
  rw [bigSep_W0, bigSep_W0]
  exact sound_body q V c t

/-- What the launch hands the region is the invariant before the first point. -/
theorem hin0 (c : Dev nD) : Pipeline.ΦA spec0 c ⊢ (dat0 q V c).Φ 0 := by
  rw [show (dat0 q V c).Φ 0 = PhiS V c 0 (Nat.zero_le _) from rfl, PhiS_zero V c 0 _ rfl]
  try exact Idealize.SL.BI.Entails.refl _

/-- After any point but the first the invariant gives the class invariant back: the accumulators' named contents
    are forgotten. -/
theorem Phi_out (c : Dev nD) (t : Fin (cfg0.N + 1)) (ht : t.val ≠ 0) : (dat0 q V c).Φ t ⊢ Pipeline.ΦA spec0 c := by
  rw [show (dat0 q V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 q V c).Φ (Fin.last cfg0.N) ⊢ Pipeline.ΦA spec0 c :=
  Phi_out q V c _ (by rw [Fin.val_last]; have : cfg0.N = 64 := N_0; omega)

end Data

end Cert.KernelIdeal.Frm

end
-- ==== Proof.FrameI.R1Base.lean ====
/-
  The second pallas_call (the down projection) as a pipeline: what every statement about its body shares.

  Its grid is (expert, output-column block, contraction half) = (8, 4, 2), 64 points; point t has contraction half
  t % 2.  Windows 0 and 1 are inputs (the activation block and the weight block), window 2 is the output block; one
  scratch buffer holds the running sum and is carried from a point to the next.  At an even point the body zero-fills
  the scratch and adds the first half's product (the output is not stored and not written back); at an odd point it adds
  the second half's product and stores the sum into the output block, which is then written back.
-/
import proofs.«108648_j3204045603931_2_alg».proof.Proof.Gen.KernelIdeal.Launch
import proofs.«108648_j3204045603931_2_alg».proof.Proof.Gen.KernelIdeal.Skeleton
import proofs.«108648_j3204045603931_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form -/

/-- "This is the first contraction half": the condition under which the body zero-fills the running sum. -/
abbrev cond1_0 (i : grid1.Coords) : Prop := (Scalar.cmpi .ne (Scalar.extui (Scalar.cmpi .eq (BitVec.ofNat 32 (i 2).val) 0#32)) 0#32) = 1#1
/-- It holds exactly at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "This is the last contraction half": the condition under which the body stores the sum into the output block. -/
abbrev cond1_1 (i : grid1.Coords) : Prop := k1_cond2 i = 1#1
/-- It holds exactly at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At a first-half point the output block is idle: nothing is stored into it, -/
theorem idleAt1_2_A : ∀ t : Fin cfg1.N, cond1_0 (grid1.coords t) → ¬cond1_1 (grid1.coords t) → cfg1.idle 2 (grid1.coords t) = true := by decide +kernel
/-- and it is not written back there. -/
theorem noFlush1_2_A : ∀ t : Fin cfg1.N, cond1_0 (grid1.coords t) → ¬cond1_1 (grid1.coords t) → (cfg1.win 2).flush t = false := by decide +kernel
/-- At a last-half point the output block is live: the sum is stored into it. -/
theorem liveAt1_2_B : ∀ t : Fin cfg1.N, ¬cond1_0 (grid1.coords t) → cond1_1 (grid1.coords t) → cfg1.idle 2 (grid1.coords t) = false := by decide +kernel

/-! ## The memrefs the body is called with -/

/-- One staging buffer of the output window, through which its contents are stated. -/
abbrev VO1_2 : View sig .tc .vmem S1x1024x512 .f32 := (Memref.whole cc1_stg2_0 : Memref sig .tc .vmem S1x1024x512 .f32).view
/-- Each window's current staging memref at point `t`, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x512 .f32 := win1_2.stage (cfg1.slots t 2)
abbrev hs1_2 (t : Fin cfg1.N) : (ms1_2 t).IsWhole := hstage1_2 ((cfg1.slots t 2).cast nbuf1_2)
/-- The running sum's buffer, a whole scoped buffer passed beside the windows, -/
abbrev scM1_0 : Memref sig .tc .vmem S1024x512 .f32 := Memref.whole cc1_scratch0
/-- and as a view. -/
abbrev VS1_0 : View sig .tc .vmem S1024x512 .f32 := scM1_0.view

/-! ## The region's invariant -/

/-- The other call's scoped buffers (its eight staging buffers and two accumulators), each whole at some contents:
    this call never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- Two assertions that entail each other are equal. -/
theorem eq_of_entails1 {P Q : sProp 𝕄} (h₁ : P ⊢ Q) (h₂ : Q ⊢ P) : P = Q := BI.equiv_iff.mp ⟨h₁, h₂⟩

/-- The invariant the launch hands the region, with the running sum's buffer as an owned memref at some contents
    beside the other call's buffers and the generator register. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA; rw [scopedRest1_eq]; unfold rest1; simp only [scM1_0, owns_whole]
  refine eq_of_entails1 ?_ ?_
  · iintro ⟨⟨H1, H2, H3, H4, H5, H6, H7, H8, H9, H10, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      iexact HS
    iexact Hg
  · iintro ⟨⟨⟨H1, H2, H3, H4, H5, H6, H7, H8, H9, H10⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hg

end Cert.KernelIdeal.Frm

end
-- ==== Proof.FrameI.R1RunA.lean ====
/-
  The body of the down-projection call at a FIRST-HALF point (the running sum is zero-filled, then the first half's
  product is added; the output block is not touched): its run on whole staging memrefs, with the pieces it leaves in
  the running sum's buffer as the witness the run finds.
-/
import proofs.«108648_j3204045603931_2_alg».proof.Proof.FrameI.R1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first-half point, on whole memrefs — the two inputs at their contents, the output block at contents `xi2`
    that are handed back untouched, the running sum at anything — the body runs to a continuation that holds the
    inputs and the output block as they were and the running sum's buffer with the pieces `LS0` written. -/
noncomputable def kernelRun1_A (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) :
    Σ' (L2 : List (View.Piece (Elt F) S1x1024x512 .f32)), { LS0 : List (View.Piece (Elt F) S1024x512 .f32) //
      ∀ (xi2 : Vec F S1x1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Frm

end
-- ==== Proof.FrameI.R1RunB.lean ====
/-
  The body of the down-projection call at a LAST-HALF point (the second half's product is added to the running sum,
  and the sum is stored into the output block): its run on whole staging memrefs, with the pieces it leaves in the
  output block and in the running sum's buffer as the witness the run finds.
-/
import proofs.«108648_j3204045603931_2_alg».proof.Proof.FrameI.R1Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last-half point, on whole memrefs — the two inputs at their contents, the output block at anything, the
    running sum at the contents `xs0` the point before left — the body runs to a continuation that holds the inputs
    as they were, the output block with the pieces `L2` written and the running sum's buffer with `LS0` written. -/
noncomputable def kernelRun1_B (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) :
    Σ' (L2 : List (View.Piece (Elt F) S1x1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Frm

end
-- ==== Proof.FrameI.R1Body.lean ====
/-
  The down-projection call's proof data and its body obligation.

  After the body at point t the two input blocks are in place; the output block and the running sum hold what the
  recursion `outsAt1` says: at an even point (first contraction half) the running sum is the zero fill plus the first
  half's product and the output block is untouched; at an odd point (last half) the running sum is what the point before
  left plus the second half's product, and the output block is that sum.  The invariant between points owns the running
  sum's buffer at exactly that content, beside the other call's buffers (never touched) and the generator register.
-/
import proofs.«108648_j3204045603931_2_alg».proof.Proof.FrameI.R1RunA
import proofs.«108648_j3204045603931_2_alg».proof.Proof.FrameI.R1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem not_odd_of_even1 {n : ℕ} (h : n % 2 = 0) : ¬ n % 2 = 1 := by omega
theorem not_even_of_odd1 {n : ℕ} (h : n % 2 = 1) : ¬ n % 2 = 0 := by omega
theorem odd_of_not_even1 {n : ℕ} (h : ¬ n % 2 = 0) : n % 2 = 1 := by omega

/-! ## What each case leaves -/

/-- A first-half point stores nothing into the output block: no pieces, a placeholder nothing consults (the block is
    neither written back there nor read at the next point). -/
def out1_A_2 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) : Vec F S1x1024x512 .f32 :=
  VO1_2.read (Elt F) (VO1_2.writes (Elt F) VO1_2.junk (kernelRun1_A c i arg3 harg3 arg4 harg4 arg5 harg5 arg6 harg6 hc0 hc1 x0 x1).1)

/-- The pieces a first-half point writes into the running sum's buffer cover it. -/
theorem scover1_A_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) (y : S1024x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x512.size (by sl_kernel_rfl) y

/-- What a first-half point leaves in the running sum's buffer: its pieces read back. -/
def sout1_A_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) : Vec F S1024x512 .f32 :=
  VS1_0.read (Elt F) (VS1_0.writes (Elt F) VS1_0.junk (kernelRun1_A c i arg3 harg3 arg4 harg4 arg5 harg5 arg6 harg6 hc0 hc1 x0 x1).2.1)

/-- The pieces a last-half point writes into the output block cover it. -/
theorem cover1_B_2 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) (y : S1x1024x512.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S1x1024x512.size (by sl_kernel_rfl) y

/-- What a last-half point leaves in the output block: its pieces read back. -/
def out1_B_2 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) : Vec F S1x1024x512 .f32 :=
  VO1_2.read (Elt F) (VO1_2.writes (Elt F) VO1_2.junk (kernelRun1_B c i arg3 harg3 arg4 harg4 arg5 harg5 arg6 harg6 hc0 hc1 x0 x1 xs0).1)

/-- The pieces a last-half point writes into the running sum's buffer cover it. -/
theorem scover1_B_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) (y : S1024x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x512.size (by sl_kernel_rfl) y

/-- What a last-half point leaves in the running sum's buffer: its pieces read back. -/
def sout1_B_0 (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) : Vec F S1024x512 .f32 :=
  VS1_0.read (Elt F) (VS1_0.writes (Elt F) VS1_0.junk (kernelRun1_B c i arg3 harg3 arg4 harg4 arg5 harg5 arg6 harg6 hc0 hc1 x0 x1 xs0).2.1)

/-! ## What the output block and the running sum hold after each point -/

/-- The accumulation: after the body at position `n`, the output block's buffer and the running sum (a pair). An even
    position starts afresh from the input blocks; an odd one continues from the running sum the position before left. -/
def outsAt1 (c : Dev nD) : (n : ℕ) → n < cfg1.N → Vec F S1x1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => not_odd_of_even1 (Nat.zero_mod 2) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => not_odd_of_even1 (Nat.zero_mod 2) ((hcond1_1 ⟨0, hn⟩).mp h)) (iblk1 V c 0 ⟨0, hn⟩) (iblk1 V c 1 ⟨0, hn⟩))
  | n + 1, hn =>
    if h0 : (n + 1) % 2 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => not_odd_of_even1 h0 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => not_odd_of_even1 h0 ((hcond1_1 ⟨n + 1, hn⟩).mp h)) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (odd_of_not_even1 h0)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr (odd_of_not_even1 h0)) (iblk1 V c 0 ⟨n + 1, hn⟩) (iblk1 V c 1 ⟨n + 1, hn⟩) (outsAt1 c n (Nat.lt_of_succ_lt hn)).2)

/-- `outsAt1` at an even point: a fresh start from that point's input blocks. -/
theorem outsAt1_A (c : Dev nD) (t : Fin cfg1.N) (h0 : t.val % 2 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => not_odd_of_even1 h0 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => not_odd_of_even1 h0 ((hcond1_1 t).mp h)) (iblk1 V c 0 t) (iblk1 V c 1 t)) := by
  obtain ⟨n, hn⟩ := t
  cases n with
  | zero => exact rfl
  | succ n => exact (dif_pos h0).trans rfl

/-- `outsAt1` at an odd point: that point's step over the running sum the point before left. -/
theorem outsAt1_B (c : Dev nD) (t : Fin cfg1.N) (h1 : t.val % 2 = 1) :
    outsAt1 V c t.val t.isLt = (out1_B_2 c (grid1.coords t) (ms1_0 t) (hs1_0 t) (ms1_1 t) (hs1_1 t) (ms1_2 t) (hs1_2 t) scM1_0 (Memref.isWhole_whole _) (fun h => not_even_of_odd1 h1 ((hcond1_0 t).mp h)) ((hcond1_1 t).mpr h1) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => not_even_of_odd1 h1 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd ((Nat.zero_mod 2).symm.trans h1) Nat.zero_ne_one
  | succ n => exact (dif_neg (not_even_of_odd1 h1)).trans rfl

/-! ## The invariant between points -/

/-- Before position `n`: at the start what the launch hands over (the running sum at anything); afterwards the running
    sum's buffer at what the position before left, beside the other call's buffers and the generator register. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of the down-projection pipeline on core `c`, at entry contents `V`: after the body at point `t`
    each input's buffer holds its block and the output's holds `outsAt1`'s first component; the invariant is `PhiS1`;
    nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' memrefs hold their blocks; the point's parity says which case it is in. At an
    even point the invariant hands the body the running sum at anything (the launch's, at the first point) or at what
    the point before left, and takes it back at the fresh start; the output block is handed back as found. At an odd
    point the invariant hands the running sum at what the point before left and takes it back at this point's sum, and
    the output block is returned holding that sum. The other call's buffers, the generator register and the core's
    debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => not_odd_of_even1 h0 ((hcond1_1 t).mp h)
    rw [Dat.leavesExact_idle (dat1 V c) 2 t (idleAt1_2_A t hc0 hc1) (noFlush1_2_A t hc0 hc1)]
    rw [outsAt1_A V c t h0]
    unfold sout1_A_0; (try dsimp only)
    by_cases hz : t.val = 0
    · rw [PhiS1_castSucc V c t, PhiS1_zero V c _ _ hz, PhiA1_eq]
      iintro ⟨⟨⟨HR, HS0⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HR, HS0⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_A_0 c _ _ _ _ _ _ _ _ _ _ _ _ _)
        iexact Hg
      isplitl [Ho]; · iexact Ho
      isplitl [H0]; · iexact H0
      isplitl [H1]; · iexact H1
      iexists _; iexact H2
  · have h1 : t.val % 2 = 1 := odd_of_not_even1 h0
    have hc0 : ¬cond1_0 (grid1.coords t) := fun h => not_even_of_odd1 h1 ((hcond1_0 t).mp h)
    have hc1 : cond1_1 (grid1.coords t) := (hcond1_1 t).mpr h1
    rw [show (dat1 V c).leavesExact 2 t = owns (c : Thread nD τ) (ms1_2 t) fullShare ((dat1 V c).after 2 t) from by
      unfold Dat.leavesExact; rw [liveAt1_2_B t hc0 hc1], after1_2]
    rw [outsAt1_B V c t h1]
    unfold out1_B_2 sout1_B_0; (try dsimp only)
    have hz : t.val ≠ 0 := fun hz => by omega
    rw [PhiS1_castSucc V c t, PhiS1_pos V c _ _ hz]
    iintro ⟨⟨⟨HR, HS0⟩, Hg⟩, Ho, ⟨%d0, H0⟩, ⟨%d1, H1⟩, ⟨%d2, H2⟩⟩
    iapply ((kernelRun1_B c (grid1.coords t) _ _ _ _ _ _ _ _ hc0 hc1 (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HR HS0 Hg]
    · isplitl [HR HS0]
      · isplitl [HR]; · iexact HR
        unfold owns; iexists _; isplitr
        swap; · iexact HS0
        ipureintro; exact View.read_writes_of_cover _ _ _ _ _ (scover1_B_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the running sum's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Frm

end
-- ==== Proof.FrameI.Run.lean ====
/-
  The whole program as a run of its four segments: the regrouping of the token matrix by expert, the gate/up region,
  the down-projection region, and the regrouping back into rows.

  Between two segments a core holds every unscoped buffer at a named valuation: the launch memory, then the first
  regrouping applied to it, then the activation array overwritten by what the first region's write-backs leave, then the
  result array overwritten by what the second region's write-backs leave, then the last regrouping applied.  Beside the
  buffers ride the generator register at some state and the fact that the core owes nothing.

  The first region stages the gate/up weight array through two windows at different column blocks.  Both only read it,
  so each window holds one half of the array's share for the length of the region and the halves are joined again when
  the region is left; every other array is held whole.
-/
import proofs.«108648_j3204045603931_2_alg».proof.Proof.Gen.KernelIdeal.Launch
import proofs.«108648_j3204045603931_2_alg».proof.Proof.Gen.KernelIdeal.Skeleton
import proofs.«108648_j3204045603931_2_alg».proof.Proof.Gen.KernelIdeal.Points
import proofs.«108648_j3204045603931_2_alg».proof.Proof.FrameI.R0Body
import proofs.«108648_j3204045603931_2_alg».proof.Proof.FrameI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares of the first region's arrays -/

/-- The share of its array each window of the first region holds: the two windows on the gate/up weights one half
    each, the others the whole. -/
def q0 : Fin cfg0.W → PosShare TreeShare
  | ⟨1, _⟩ => fullShare.left
  | ⟨2, _⟩ => fullShare.right
  | _ => fullShare

/-! ## The buffers' contents between segments -/

/-- At launch. -/
abbrev W0 : Dev nD → Valuation τ sig (Elt F) := fun c b => m (c, b)
/-- After the tokens are regrouped by expert. -/
abbrev W1 : Dev nD → Valuation τ sig (Elt F) := fun c => StableHlo.after hostOps0 (W0 m c)
/-- The same read at a TensorCore reference: what the first region is entered with. -/
abbrev V1 : (c : Dev nD) → (b : Ref sig .tc) → Buf (Elt F) ((c : Thread nD τ).loc b) := fun c b => W1 m c b
/-- What the first region's write-backs leave in the activation array. -/
def act1 (c : Dev nD) : Buf (Elt F) ((c : Thread nD τ).loc main_v1) := (dat0 q0 (V1 m) c).arrAt 3 cfg0.N
/-- After the first region: the activation array overwritten, everything else as entered. -/
def W2 (c : Dev nD) : Valuation τ sig (Elt F) := Function.update (W1 m c) (Proc.devRef .tc main_v1) (act1 m c)
/-- The same read at a TensorCore reference: what the second region is entered with. -/
abbrev V2 : (c : Dev nD) → (b : Ref sig .tc) → Buf (Elt F) ((c : Thread nD τ).loc b) := fun c b => W2 m c b
/-- What the second region's write-backs leave in the result array. -/
def out2 (c : Dev nD) : Buf (Elt F) ((c : Thread nD τ).loc main_v2) := (dat1 (V2 m) c).arrAt 2 cfg1.N
/-- After the second region: the result array overwritten, everything else as entered. -/
def W3 (c : Dev nD) : Valuation τ sig (Elt F) := Function.update (W2 m c) (Proc.devRef .tc main_v2) (out2 m c)
abbrev V3 : (c : Dev nD) → (b : Ref sig .tc) → Buf (Elt F) ((c : Thread nD τ).loc b) := fun c b => W3 m c b
/-- After the result is regrouped into rows: the contents at the return. -/
abbrev W4 : Dev nD → Valuation τ sig (Elt F) := fun c => StableHlo.after hostOps2 (W3 m c)

theorem W2_main_v1 (c : Dev nD) : W2 m c (Proc.devRef .tc main_v1) = act1 m c := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_main_v2 (c : Dev nD) : W3 m c (Proc.devRef .tc main_v2) = out2 m c := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-! ## The proof data family and what rides beside the buffers -/

/-- No pipeline has a prefetched table. -/
abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 q0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## The first region's arrays -/

/-- The three distinct buffers behind the first region's four windows, each whole. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_arg1) ↦{fullShare} V main_arg1)
          ∗ (((c : Thread nD τ).loc main_v1) ↦{fullShare} V main_v1)) := by
  unfold Pipeline.arrBufs
  exact bigSep_eq_bigSepL_of_eq [main_v0, main_arg1, main_v1] (by decide) (by decide) _

theorem share0_0 (c : Dev nD) : (dat0 (F := F) q0 (V1 m) c).share 0 = fullShare := by
  unfold Dat.share; rw [q_eq0]; rfl
theorem share0_1 (c : Dev nD) : (dat0 (F := F) q0 (V1 m) c).share 1 = fullShare.left := by
  unfold Dat.share; rw [q_eq0]; rfl
theorem share0_2 (c : Dev nD) : (dat0 (F := F) q0 (V1 m) c).share 2 = fullShare.right := by
  unfold Dat.share; rw [q_eq0]; rfl
theorem share0_3 (c : Dev nD) : (dat0 (F := F) q0 (V1 m) c).share 3 = fullShare := by
  unfold Dat.share; rfl

/-- The first region's arrays as its proof data holds them, window by window. -/
theorem arrays0_eq (c : Dev nD) (X : (w : Fin cfg0.W) → Buf (Elt F) ((cfg0.win w).arr.view.loc (c : Thread nD τ))) :
    ((dat0 q0 (V1 m) c).arrays X : sProp 𝕄)
      = iprop((((c : Thread nD τ).loc main_v0) ↦{fullShare} X 0) ∗ (((c : Thread nD τ).loc main_arg1) ↦{fullShare.left} X 1)
          ∗ (((c : Thread nD τ).loc main_arg1) ↦{fullShare.right} X 2) ∗ (((c : Thread nD τ).loc main_v1) ↦{fullShare} X 3)) := by
  unfold Dat.arrays
  rw [bigSep_W0, share0_0, share0_1, share0_2, share0_3,
    show (cfg0.win 0).arr.view.set = Finset.univ from (arr_whole0 0).set_eq_univ,
    show (cfg0.win 1).arr.view.set = Finset.univ from (arr_whole0 1).set_eq_univ,
    show (cfg0.win 3).arr.view.set = Finset.univ from (arr_whole0 3).set_eq_univ]

/-- The first region's inputs are never written: after any number of write-backs each input array is as entered. -/
theorem arrAt0_in (c : Dev nD) (n : ℕ) :
    (dat0 (F := F) q0 (V1 m) c).arrAt 0 n = V1 m c main_v0 ∧ (dat0 (F := F) q0 (V1 m) c).arrAt 1 n = V1 m c main_arg1
      ∧ (dat0 (F := F) q0 (V1 m) c).arrAt 2 n = V1 m c main_arg1 :=
  ⟨((dat0 q0 (V1 m) c).arrAt_in 0 rfl n).trans (A_eq0 q0 (V1 m) c 0), ((dat0 q0 (V1 m) c).arrAt_in 1 rfl n).trans (A_eq0 q0 (V1 m) c 1),
    ((dat0 q0 (V1 m) c).arrAt_in 2 rfl n).trans (A_eq0 q0 (V1 m) c 2)⟩

/-- A whole array held at the full share is the same array held at the two halves of the share, and back. -/
theorem halves (c : Dev nD) (b : Ref sig .tc) (f : Buf (Elt F) ((c : Thread nD τ).loc b)) :
    ((((c : Thread nD τ).loc b) ↦{fullShare} f) : sProp 𝕄)
      ⊣⊢ iprop((((c : Thread nD τ).loc b) ↦{fullShare.left} f) ∗ (((c : Thread nD τ).loc b) ↦{fullShare.right} f)) :=
  pointsTo_share (PosShare.mem_left_op_right fullShare)

/-- ENTRY of the first region: the unscoped buffers at the entry contents are the region's arrays — the gate/up weights'
    share halved between the two windows that read them — beside the buffers the region bypasses. -/
theorem entry0 (c : Dev nD) :
    (StableHlo.held (c : Thread nD τ) (Pipeline.ucRefs τ sig) (W1 m c) : sProp 𝕄)
      ⊢ iprop((dat0 q0 (V1 m) c).arrays ((dat0 q0 (V1 m) c).arrAt · 0)
          ∗ Pipeline.unscopedRest (Ix := Unit) (Name := ℕ) (U := UR sig nD τ) (Lvl := ℕ) spec0 c (V1 m c)) := by
  have hs : (unscopedBufs c (V1 m c) : sProp 𝕄)
      = iprop(Pipeline.arrBufs spec0 c (V1 m c) ∗ Pipeline.unscopedRest spec0 c (V1 m c)) :=
    Pipeline.unscopedBufs_split₀ (Ix := Unit) (Name := ℕ) (U := UR sig nD τ) (Lvl := ℕ) (Val := Elt F) (nD := nD) (τ := τ) cfgs (0 : Fin 2)
      winFacts₀0.arr_unscoped c (V1 m c)
  have hA : (Pipeline.arrBufs (Ix := Unit) (Name := ℕ) (U := UR sig nD τ) (Lvl := ℕ) spec0 c (V1 m c) : sProp 𝕄)
      ⊢ (dat0 q0 (V1 m) c).arrays ((dat0 q0 (V1 m) c).arrAt · 0) := by
    rw [arrBufs0_eq, arrays0_eq]
    obtain ⟨e0, e1, e2⟩ := arrAt0_in m c 0
    rw [e0, e1, e2, show (dat0 q0 (V1 m) c).arrAt 3 0 = V1 m c main_v1 from A_eq0 q0 (V1 m) c 3]
    exact sep_mono .rfl ((sep_mono (halves c main_arg1 _).1 .rfl).trans sep_assoc.1)
  rw [← Pipeline.unscopedBufs_held c (W1 m c)]
  exact (Entails.of_eq hs).trans (sep_mono hA .rfl)

/-- EXIT of the first region: its arrays after every write-back — the inputs as entered, the two halves of the gate/up
    weights joined again, the activation array at what the write-backs left — beside the bypassed buffers are the
    unscoped buffers at the exit contents. -/
theorem exit0 (c : Dev nD) :
    iprop((dat0 q0 (V1 m) c).arrays ((dat0 q0 (V1 m) c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  have hs : (unscopedBufs c (V2 m c) : sProp 𝕄)
      = iprop(Pipeline.arrBufs spec0 c (V2 m c) ∗ Pipeline.unscopedRest spec0 c (V2 m c)) :=
    Pipeline.unscopedBufs_split₀ (Ix := Unit) (Name := ℕ) (U := UR sig nD τ) (Lvl := ℕ) (Val := Elt F) (nD := nD) (τ := τ) cfgs (0 : Fin 2)
      winFacts₀0.arr_unscoped c (V2 m c)
  have hA : ((dat0 q0 (V1 m) c).arrays ((dat0 q0 (V1 m) c).arrAt · cfg0.N) : sProp 𝕄)
      ⊢ Pipeline.arrBufs (Ix := Unit) (Name := ℕ) (U := UR sig nD τ) (Lvl := ℕ) spec0 c (V2 m c) := by
    rw [arrBufs0_eq, arrays0_eq]
    obtain ⟨e0, e1, e2⟩ := arrAt0_in m c cfg0.N
    rw [e0, e1, e2, show V2 m c main_v0 = V1 m c main_v0 from W2_of_ne m c main_v0 (by decide),
      show V2 m c main_arg1 = V1 m c main_arg1 from W2_of_ne m c main_arg1 (by decide),
      show V2 m c main_v1 = act1 m c from W2_main_v1 m c]
    exact sep_mono .rfl (sep_assoc.2.trans (sep_mono (halves c main_arg1 _).2 .rfl))
  have hR : (Pipeline.unscopedRest (Ix := Unit) (Name := ℕ) (U := UR sig nD τ) (Lvl := ℕ) spec0 c (V1 m c) : sProp 𝕄)
      ⊢ Pipeline.unscopedRest (Ix := Unit) (Name := ℕ) (U := UR sig nD τ) (Lvl := ℕ) spec0 c (V2 m c) := by
    rw [unscopedRest0_eq, unscopedRest0_eq,
      show V2 m c main_arg0 = V1 m c main_arg0 from W2_of_ne m c main_arg0 (by decide),
      show V2 m c main_arg2 = V1 m c main_arg2 from W2_of_ne m c main_arg2 (by decide),
      show V2 m c main_v2 = V1 m c main_v2 from W2_of_ne m c main_v2 (by decide),
      show V2 m c main_v3 = V1 m c main_v3 from W2_of_ne m c main_v3 (by decide)]
  rw [← Pipeline.unscopedBufs_held c (W2 m c)]
  exact (BIClass.sep_mono hA hR).trans (Entails.of_eq hs.symm)

/-! ## The second region's arrays -/

theorem hF1 (c : Dev nD) (w : Fin cfg1.W) : (dat1 (F := F) (V2 m) c).arrAt w cfg1.N = V3 m c (Pipeline.arrRef spec1 w) := by
  match w with
  | ⟨0, _⟩ => exact (((dat1 (V2 m) c).arrAt_in 0 rfl cfg1.N).trans (A_eq1 (V2 m) c 0)).trans (W3_of_ne m c main_v1 (by decide)).symm
  | ⟨1, _⟩ => exact (((dat1 (V2 m) c).arrAt_in 1 rfl cfg1.N).trans (A_eq1 (V2 m) c 1)).trans (W3_of_ne m c main_arg2 (by decide)).symm
  | ⟨2, _⟩ => exact (W3_main_v2 m c).symm
theorem hrest1 (c : Dev nD) : ∀ b, b ∉ Finset.univ.image (Pipeline.arrRef spec1) → V3 m c b = V2 m c b :=
  fun b hb => W3_of_ne m c b fun e => hb (Finset.mem_image.mpr ⟨2, Finset.mem_univ _, e.symm⟩)

/-! ## The regions as segments -/

-- a library lemma stated over a pinned configuration unifies with the printed one only when unification may unfold
-- plain definitions in a metavariable's type
set_option backward.isDefEq.respectTransparency.types false in
/-- The gate/up region: entered with every unscoped buffer at `W1`, left with them at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 q0 (V1 m) c).loose
  hwaits := Pipeline.hwaits_of_owed_zero _ _ _ _ L lv 0 fun c t => owed0 q0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have he := entry0 m c
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 q0 (V1 m) c)
    unfold Pipeline.ΦA
    iintro ⟨Hp, -, Hr⟩
    isplitl [Hr]; · iexact Hr
    iexact Hp
  hout c := by
    rw [Pipeline.ownSems0_none]
    refine (hout0 q0 (V1 m) c).trans ?_
    unfold Pipeline.ΦA
    iintro ⟨Hr, Hp⟩
    isplitl [Hp]; · iexact Hp
    isplitr; · iempintro
    iexact Hr
  hexit c := by
    have hx := exit0 m c
    iintro ⟨Ha, HO, HY, Hrest⟩
    imodintro
    isplitl [Ha Hrest]
    · iapply hx
      isplitl [Ha]; · iexact Ha
      iexact Hrest
    isplitl [HY]; · iexact HY
    unfold Pipeline.Dat.owesAt Pipeline.owesWithin
    icases HO with ⟨%W, -, HO⟩; iexists W; iexact HO

-- as for the first region
set_option backward.isDefEq.respectTransparency.types false in
/-- The down-projection region: entered with every unscoped buffer at `W2`, left with them at `W3`. Its three arrays
    are distinct buffers, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun c t => owed1 (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have he := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at he
    iintro ⟨⟨Hub, Hp, HO⟩, -, -⟩
    ihave H := he $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hx := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hx
    iintro ⟨Ha, HO, HY, Hrest⟩
    imodintro
    isplitl [Ha Hrest]
    · iapply hx
      isplitl [Ha]; · iexact Ha
      iexact Hrest
    isplitl [HY]; · iexact HY
    unfold Pipeline.Dat.owesAt Pipeline.owesWithin
    icases HO with ⟨%W, -, HO⟩; iexists W; iexact HO

/-! ## The program as its segments, and the launch -/

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The four segments in order. -/
abbrev segs : List (Pipeline.Seg (pcfgs (F := F)) adm (pdats m) () defs₀ 𝒱₀ L lv) :=
  [ .host (hseg hostOps0 hostOps0_sub ops0_fresh (W0 m)),
    .region (reg0 m),
    .region (reg1 m),
    .host (hseg hostOps2 hostOps2_sub ops2_fresh (W3 m)) ]

theorem main_run (c : Dev nD) : main (F := F) c = Pipeline.Seg.run (segs m) :=
  main_segs adm (pdats m) () 𝒱₀ L lv _ _ (reg0 m) (reg1 m) rfl rfl c

/-- The last thread state less the `owes`: every unscoped buffer at the return contents, the generator register at some state. -/
abbrev Tlast (c : Dev nD) : sProp 𝕄 := iprop(StableHlo.held (c : Thread nD τ) (Pipeline.ucRefs τ sig) (W4 m c) ∗ ∃ r, prngReg c r)

-- the launch theorem's implicit arguments are found by unifying its conclusion with this one, which takes unfolding
-- plain definitions in a metavariable's type
set_option backward.isDefEq.respectTransparency.types false in
/-- THE RUN. From any memory with every counter at zero, every weakly fair execution of the program on the TensorCores
    terminates without a fault, and in every final state each unscoped buffer holds the return contents `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The arguments and the result at the return -/

/-- The first regrouping writes only the regrouped tokens, -/
theorem ops0_writes : (hostOps0 : List (HloOp τ sig (Elt F))).Forall fun op => op.writes ⊆ ((([main_v0] : List (Ref sig .tc))).map (Proc.devRef (τ := τ) .tc)).toFinset := by
  simp only [List.Forall]
  exact (by simp only [StableHlo.reshape_writes, Finset.singleton_subset_iff, List.mem_toFinset]; exact List.mem_map_of_mem (by decide))
/-- and the last only the result rows. -/
theorem ops2_writes : (hostOps2 : List (HloOp τ sig (Elt F))).Forall fun op => op.writes ⊆ ((([main_v3] : List (Ref sig .tc))).map (Proc.devRef (τ := τ) .tc)).toFinset := by
  simp only [List.Forall]
  exact (by simp only [StableHlo.reshape_writes, Finset.singleton_subset_iff, List.mem_toFinset]; exact List.mem_map_of_mem (by decide))

/-- A buffer no segment writes holds its launch contents at the return. -/
theorem W4_kept (c : Dev nD) (b : Ref sig .tc) (h0 : b ∉ ([main_v0] : List (Ref sig .tc))) (h1 : b ≠ main_v1) (h2 : b ≠ main_v2)
    (h3 : b ∉ ([main_v3] : List (Ref sig .tc))) : W4 m c (Proc.devRef .tc b) = m ((c : Thread nD τ).loc b) :=
  (StableHlo.after_of_writes_sub hostOps2 _ ops2_writes h3).trans <| (W3_of_ne m c b h2).trans <| (W2_of_ne m c b h1).trans <|
    (StableHlo.after_of_writes_sub hostOps0 _ ops0_writes h0).trans rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every weakly fair execution terminates without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩) (run_all m ρ)

/-- The same run read also at the result rows: they end at the return contents, the arguments as launched. -/
theorem run_value : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v3 (by decide)),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩) (run_all m ρ)

end Cert.KernelIdeal.Frm

end
-- ==== Proof.Spec.lean ====
/-
  The mathematics both programs compute, stated once over the extended reals and over literal shapes.

  Eight experts each own 1024 consecutive rows of the token matrix `x : [8192, 2048]`: row `e * 1024 + t` is token `t` of
  expert `e`.  For expert `e` the first weight array `w1 : [8, 2048, 4096]` holds two matrices side by side along its last
  axis, the GATE in columns `[0, 2048)` and the UP projection in columns `[2048, 4096)`.  With
  `gate = h · w1[:, :, :2048]` and `up = h · w1[:, :, 2048:]` (contractions over the 2048 features), the activation is
  `up * max gate 0`, and the result is its product with the second weight array `w2 : [8, 2048, 2048]`, laid back out as
  `[8192, 2048]` rows.

  A contraction over the 2048 features may be carried out in two halves of 1024 starting from zero
  (`sum_two_halves`): on the extended reals addition is commutative and associative with `0` neutral, so no
  finiteness is needed for that regrouping.
-/
import Idealize.ShloMosaic.PureOps.Ideal
import Idealize.ShloMosaic.Lib.ValueIdx

noncomputable section

open scoped BigOperators

namespace Cert.Spec

open Idealize.ShloMosaic Idealize.ShloMosaic.ValueIdx

/-- The token matrix, `[8192, 2048]`. -/
abbrev X2 : Shape := ⟨2, ![8192, 2048]⟩
/-- Tokens grouped by expert, `[8, 1024, 2048]`. -/
abbrev H3 : Shape := ⟨3, ![8, 1024, 2048]⟩
/-- The gate and up weights side by side, `[8, 2048, 4096]`. -/
abbrev W1 : Shape := ⟨3, ![8, 2048, 4096]⟩
/-- The down weights, `[8, 2048, 2048]`. -/
abbrev W2 : Shape := ⟨3, ![8, 2048, 2048]⟩

/-- The row of the token matrix that holds token `t` of expert `e`. -/
def row (e : Fin 8) (t : Fin 1024) : Fin 8192 := ⟨e.val * 1024 + t.val, by omega⟩
/-- The expert that owns row `r`, -/
def expertOf (r : Fin 8192) : Fin 8 := ⟨r.val / 1024, by omega⟩
/-- and the row's position among that expert's tokens. -/
def slotOf (r : Fin 8192) : Fin 1024 := ⟨r.val % 1024, by omega⟩

theorem row_expertOf_slotOf (r : Fin 8192) : row (expertOf r) (slotOf r) = r := by
  apply Fin.ext; simp only [row, expertOf, slotOf]; omega
theorem expertOf_row (e : Fin 8) (t : Fin 1024) : expertOf (row e t) = e := by
  apply Fin.ext; simp only [row, expertOf]; omega
theorem slotOf_row (e : Fin 8) (t : Fin 1024) : slotOf (row e t) = t := by
  apply Fin.ext; simp only [row, slotOf]; omega

/-- Column `f` of the gate matrix inside `w1`'s last axis, -/
def gateCol (f : Fin 2048) : Fin 4096 := ⟨f.val, by omega⟩
/-- and column `f` of the up matrix. -/
def upCol (f : Fin 2048) : Fin 4096 := ⟨2048 + f.val, by omega⟩

/-- The token matrix regrouped by expert. -/
def tok (x : X2.Idx → EReal) : H3.Idx → EReal := fun i => x (ix2 (row (i 0) (i 1)) (i 2))
/-- A per-expert array laid back out as rows of the token matrix. -/
def untok (o : H3.Idx → EReal) : X2.Idx → EReal := fun j => o (ix3 (expertOf (j 0)) (slotOf (j 0)) (j 1))

/-- The gate pre-activation of token `t` of expert `e` at feature `f`. -/
def gate (h : H3.Idx → EReal) (w1 : W1.Idx → EReal) (e : Fin 8) (t : Fin 1024) (f : Fin 2048) : EReal :=
  ∑ d : Fin 2048, h (ix3 e t d) * w1 (ix3 e d (gateCol f))
/-- The up projection of the same token at the same feature. -/
def up (h : H3.Idx → EReal) (w1 : W1.Idx → EReal) (e : Fin 8) (t : Fin 1024) (f : Fin 2048) : EReal :=
  ∑ d : Fin 2048, h (ix3 e t d) * w1 (ix3 e d (upCol f))
/-- The gated activation: the up projection times the positive part of the gate. -/
def act (h : H3.Idx → EReal) (w1 : W1.Idx → EReal) : H3.Idx → EReal :=
  fun i => up h w1 (i 0) (i 1) (i 2) * max (gate h w1 (i 0) (i 1) (i 2)) 0
/-- The down projection of an activation array. -/
def down (a : H3.Idx → EReal) (w2 : W2.Idx → EReal) : H3.Idx → EReal :=
  fun i => ∑ d : Fin 2048, a (ix3 (i 0) (i 1) d) * w2 (ix3 (i 0) d (i 2))

/-- The whole computation: regroup, gate, project down, lay back out. -/
def G (x : X2.Idx → EReal) (w1 : W1.Idx → EReal) (w2 : W2.Idx → EReal) : X2.Idx → EReal :=
  untok (down (act (tok x) w1) w2)

theorem tok_ix3 (x : X2.Idx → EReal) (e : Fin 8) (t : Fin 1024) (d : Fin 2048) :
    tok x (ix3 e t d) = x (ix2 (row e t) d) := rfl
theorem untok_ix2 (o : H3.Idx → EReal) (r : Fin 8192) (f : Fin 2048) :
    untok o (ix2 r f) = o (ix3 (expertOf r) (slotOf r) f) := rfl
theorem act_ix3 (h : H3.Idx → EReal) (w1 : W1.Idx → EReal) (e : Fin 8) (t : Fin 1024) (f : Fin 2048) :
    act h w1 (ix3 e t f) = up h w1 e t f * max (gate h w1 e t f) 0 := rfl
theorem down_ix3 (a : H3.Idx → EReal) (w2 : W2.Idx → EReal) (e : Fin 8) (t : Fin 1024) (f : Fin 2048) :
    down a w2 (ix3 e t f) = ∑ d : Fin 2048, a (ix3 e t d) * w2 (ix3 e d f) := rfl

/-- Feature `k` of the first half, -/
def loHalf (k : Fin 1024) : Fin 2048 := ⟨k.val, by omega⟩
/-- and of the second half. -/
def hiHalf (k : Fin 1024) : Fin 2048 := ⟨1024 + k.val, by omega⟩

/-- A sum over the 2048 features, accumulated from zero in two halves of 1024. -/
theorem sum_two_halves (f : Fin 2048 → EReal) :
    (0 + ∑ k : Fin 1024, f (loHalf k)) + ∑ k : Fin 1024, f (hiHalf k) = ∑ d : Fin 2048, f d := by
  rw [zero_add]
  have h := Fin.sum_univ_add (M := EReal) (a := 1024) (b := 1024) (fun i : Fin (1024 + 1024) => f i)
  refine Eq.trans ?_ h.symm
  congr 1

end Cert.Spec

end
-- ==== Proof.RefSide.lean ====
/-
  The reference program read at the extended reals: its run ends with its result array at the composed term of its
  operations, and that term, index by index, is the specification `Cert.Spec.G` of the argument arrays.

  The reading goes stage by stage, each stage at an index built from literal coordinates.  Regrouping the token
  matrix reads row `e * 1024 + t`; the first contraction is a sum over the 2048 features; the two slices read that
  contraction at column `f` (the gate) and at column `2048 + f` (the up projection); the positive part is the
  maximum with the zero word, which is the real number zero; the product and the second contraction follow; and the
  last regrouping reads expert `r / 1024`, slot `r % 1024`.  Nothing here needs the inputs to be finite.
-/
import proofs.«108648_j3204045603931_2_alg».proof.Defs
import proofs.«108648_j3204045603931_2_alg».proof.Proof.Gen.ReferenceIdeal
import proofs.«108648_j3204045603931_2_alg».proof.Proof.Gen.Pre_finite_inputs
import proofs.«108648_j3204045603931_2_alg».proof.Proof.Gen.ReferenceIdeal.Run
import proofs.«108648_j3204045603931_2_alg».proof.Proof.Gen.ReferenceIdeal.Read
import proofs.«108648_j3204045603931_2_alg».proof.Proof.Spec
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.ValueIdx Cert.Spec

/-! ## Where each stage reads its operands -/

/-- Regrouping by expert reads row `e * 1024 + t` of the token matrix. -/
theorem idx_v0 (e : Fin 8) (t : Fin 1024) (d : Fin 2048) : idx_main_v0 (ix3 e t d) = ix2 (row e t) d :=
  funext fun a => Fin.ext (by
    match a with
    | ⟨0, _⟩ => show ((e.val * 1024 + t.val) * 2048 + d.val) / 2048 = e.val * 1024 + t.val; omega
    | ⟨1, _⟩ => show ((e.val * 1024 + t.val) * 2048 + d.val) % 2048 = d.val; omega)

/-- The first contraction pairs feature `k` of the token with row `k` of the expert's first weight matrix. -/
theorem lidx_v1 (e : Fin 8) (t : Fin 1024) (c : Fin 4096) (k : Fin 2048) : lidx_main_v1 (ix3 e t c) k = ix3 e t k :=
  funext fun a => Fin.ext (by match a with | ⟨0, _⟩ => rfl | ⟨1, _⟩ => rfl | ⟨2, _⟩ => rfl)
theorem ridx_v1 (e : Fin 8) (t : Fin 1024) (c : Fin 4096) (k : Fin 2048) : ridx_main_v1 (ix3 e t c) k = ix3 e k c :=
  funext fun a => Fin.ext (by match a with | ⟨0, _⟩ => rfl | ⟨1, _⟩ => rfl | ⟨2, _⟩ => rfl)

/-- The first slice keeps column `f`, the gate's, -/
theorem idx_v2 (e : Fin 8) (t : Fin 1024) (f : Fin 2048) : idx_main_v2 (ix3 e t f) = ix3 e t (gateCol f) :=
  funext fun a => Fin.ext (by match a with | ⟨0, _⟩ => rfl | ⟨1, _⟩ => rfl | ⟨2, _⟩ => rfl)
/-- and the second column `2048 + f`, the up projection's. -/
theorem idx_v3 (e : Fin 8) (t : Fin 1024) (f : Fin 2048) : idx_main_v3 (ix3 e t f) = ix3 e t (upCol f) :=
  funext fun a => Fin.ext (by match a with | ⟨0, _⟩ => rfl | ⟨1, _⟩ => rfl | ⟨2, _⟩ => rfl)

/-- The second contraction pairs feature `k` of the activation with row `k` of the expert's second weight matrix. -/
theorem lidx_v6 (e : Fin 8) (t : Fin 1024) (f k : Fin 2048) : lidx_main_v6 (ix3 e t f) k = ix3 e t k :=
  funext fun a => Fin.ext (by match a with | ⟨0, _⟩ => rfl | ⟨1, _⟩ => rfl | ⟨2, _⟩ => rfl)
theorem ridx_v6 (e : Fin 8) (t : Fin 1024) (f k : Fin 2048) : ridx_main_v6 (ix3 e t f) k = ix3 e k f :=
  funext fun a => Fin.ext (by match a with | ⟨0, _⟩ => rfl | ⟨1, _⟩ => rfl | ⟨2, _⟩ => rfl)

/-- Laying the result back out reads expert `r / 1024`, slot `r % 1024`. -/
theorem idx_v7 (r : Fin 8192) (f : Fin 2048) : idx_main_v7 (ix2 r f) = ix3 (expertOf r) (slotOf r) f :=
  funext fun a => Fin.ext (by
    match a with
    | ⟨0, _⟩ => show (r.val * 2048 + f.val) / 2097152 = r.val / 1024; omega
    | ⟨1, _⟩ => show (r.val * 2048 + f.val) / 2048 % 1024 = r.val % 1024; omega
    | ⟨2, _⟩ => show (r.val * 2048 + f.val) % 2048 = f.val; omega)

/-! ## The stages at an index -/

variable (x : FVec Ideal S8192x2048 .f32) (w1 : FVec Ideal S8x2048x4096 .f32) (w2 : FVec Ideal S8x2048x2048 .f32)

theorem v0_at (e : Fin 8) (t : Fin 1024) (d : Fin 2048) :
    val_main_v0 (F := Ideal) x (ix3 e t d) = tok x (ix3 e t d) := by
  rw [val_main_v0_apply, idx_v0]; rfl

theorem v1_at (e : Fin 8) (t : Fin 1024) (c : Fin 4096) :
    val_main_v1 (F := Ideal) x w1 (ix3 e t c) = ∑ k : Fin 2048, tok x (ix3 e t k) * w1 (ix3 e k c) := by
  rw [val_main_v1_apply]
  refine Finset.sum_congr rfl fun k _ => ?_
  rw [lidx_v1, ridx_v1, v0_at]

theorem v2_at (e : Fin 8) (t : Fin 1024) (f : Fin 2048) :
    val_main_v2 (F := Ideal) x w1 (ix3 e t f) = gate (tok x) w1 e t f := by
  rw [val_main_v2_apply, idx_v2, v1_at]; rfl

theorem v3_at (e : Fin 8) (t : Fin 1024) (f : Fin 2048) :
    val_main_v3 (F := Ideal) x w1 (ix3 e t f) = up (tok x) w1 e t f := by
  rw [val_main_v3_apply, idx_v3, v1_at]; rfl

theorem v4_at (e : Fin 8) (t : Fin 1024) (f : Fin 2048) :
    val_main_v4 (F := Ideal) x w1 (ix3 e t f) = max (gate (tok x) w1 e t f) 0 := by
  rw [val_main_v4_apply, v2_at, val_main_call0_v0_apply, val_main_call0_cst_apply, Ideal.maximumf_def, Ideal.ofBits_def,
    Ideal.ofBits_zero_f32]

theorem v5_at (e : Fin 8) (t : Fin 1024) (f : Fin 2048) :
    val_main_v5 (F := Ideal) x w1 (ix3 e t f) = act (tok x) w1 (ix3 e t f) := by
  rw [val_main_v5_apply, v3_at, v4_at, Ideal.mulf_def]; rfl

theorem v6_at (e : Fin 8) (t : Fin 1024) (f : Fin 2048) :
    val_main_v6 (F := Ideal) x w1 w2 (ix3 e t f) = down (act (tok x) w1) w2 (ix3 e t f) := by
  rw [val_main_v6_apply]
  refine Finset.sum_congr rfl fun k _ => ?_
  rw [lidx_v6, ridx_v6, v5_at]

/-- The last stage, index by index, is the specification. -/
theorem v7_eq : val_main_v7 (F := Ideal) x w1 w2 = G x w1 w2 := by
  funext j
  obtain ⟨r, f, rfl⟩ : ∃ (r : Fin 8192) (f : Fin 2048), j = ix2 r f := ⟨j 0, j 1, eq_ix2 j⟩
  rw [val_main_v7_apply, idx_v7, v6_at]; rfl

/-! ## The run -/

/-- The composed term of the reference's operations is the specification of the three argument arrays. -/
theorem result_eq (x : FVec Ideal Cert.ReferenceIdeal.S8192x2048 .f32) (w1 : FVec Ideal Cert.ReferenceIdeal.S8x2048x4096 .f32)
    (w2 : FVec Ideal Cert.ReferenceIdeal.S8x2048x2048 .f32) :
    shapeCast _ (Host.dotGeneral dot_S8x1024x2048_S8x2048x2048_S8x1024x2048_2_1_1_2_0_0 none (mulf (extractStridedSlice S8x1024x2048 ![0, 0, 2048] (Host.dotGeneral dot_S8x1024x2048_S8x2048x4096_S8x1024x4096_2_1_1_2_0_0 none (shapeCast _ (x) shapeCasts_S8192x2048_S8x1024x2048) (w1)) slices_S8x1024x4096_S8x1024x2048_0_0_2048) (maximumf (extractStridedSlice S8x1024x2048 ![0, 0, 0] (Host.dotGeneral dot_S8x1024x2048_S8x2048x4096_S8x1024x4096_2_1_1_2_0_0 none (shapeCast _ (x) shapeCasts_S8192x2048_S8x1024x2048) (w1)) slices_S8x1024x4096_S8x1024x2048_0_0_0) (broadcastInDim S8x1024x2048 ![] bcast_S_S8x1024x2048 (constant S_ .f32 0x00000000#32)))) (w2)) shapeCasts_S8x1024x2048_S8192x2048
      = Cert.Spec.G x w1 w2 :=
  (val_main_v7_eq (F := Ideal) x w1 w2).trans (v7_eq x w1 w2)

/-- Every weakly fair execution of the reference terminates with its result array at the specification of the
    argument arrays as the run found them, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v7)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => ⟨(h c).1.trans (result_eq _ _ _), (h c).2⟩)
    (Cert.ReferenceIdeal.Value.run (F := Ideal) m' ρ')

/-- The reference runs and leaves its arguments as it found them: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.ValI.R0Pieces.lean ====
/- Region 0: what each control case leaves in the two accumulators and in the output block, as the body's
   arithmetic applied to the blocks it loaded.  Every load and store of the body goes through a whole buffer, so a
   load reads the buffer's contents and the last store into a buffer leaves its payload.
   At an even point (k = 0) the gate accumulator ends at (zero fill) + (first partial product of the token block
   with the gate weights' block), the up accumulator likewise with the up weights' block.
   At an odd point (k = 1) each accumulator ends at what it held plus its second partial product, and the output
   block at the activation of those two sums. -/
import proofs.«108648_j3204045603931_2_alg».proof.Proof.FrameI.R0Body
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic Idealize.SL.Sem
open Idealize.ShloMosaic.Pipeline (Dat)

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Odd point, gate accumulator: what it held plus the product of the token block with the gate weights' block. -/
theorem sout0_B_0_eq (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) :
    sout0_B_0 c i arg3 harg3 arg4 harg4 arg5 harg5 arg6 harg6 arg7 harg7 arg8 harg8 hc0 hc1 x0 x1 x2 xs0 xs1 = k0_pay4 x0 x1 xs0 := by
  have hz2 := zeros2; have hz3 := zeros3
  unfold sout0_B_0
  rw [View.read_writes_eq_canon _ _ _ (scover0_B_0 c i arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg3.read_unread, harg4.read_unread, harg5.read_unread, harg7.read_unread, harg8.read_unread, View.ld_unit_zero (S := S1x1024x1024) hz3, View.ld_unit_zero (S := S1x1024x512) hz3, View.ld_unit_zero (S := S1024x512) hz2]

/-- Odd point, up accumulator. -/
theorem sout0_B_1_eq (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) :
    sout0_B_1 c i arg3 harg3 arg4 harg4 arg5 harg5 arg6 harg6 arg7 harg7 arg8 harg8 hc0 hc1 x0 x1 x2 xs0 xs1 = k0_pay5 x0 x2 xs1 := by
  have hz2 := zeros2; have hz3 := zeros3
  unfold sout0_B_1
  rw [View.read_writes_eq_canon _ _ _ (scover0_B_1 c i arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg3.read_unread, harg4.read_unread, harg5.read_unread, harg7.read_unread, harg8.read_unread, View.ld_unit_zero (S := S1x1024x1024) hz3, View.ld_unit_zero (S := S1x1024x512) hz3, View.ld_unit_zero (S := S1024x512) hz2]

/-- Odd point, output block: the activation of the two accumulators as this point leaves them. -/
theorem out0_B_3_eq (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1x1024x1024 .f32) (x1 : Vec F S1x1024x512 .f32) (x2 : Vec F S1x1024x512 .f32) (xs0 : Vec F S1024x512 .f32) (xs1 : Vec F S1024x512 .f32) :
    out0_B_3 c i arg3 harg3 arg4 harg4 arg5 harg5 arg6 harg6 arg7 harg7 arg8 harg8 hc0 hc1 x0 x1 x2 xs0 xs1 = k0_pay6 (k0_pay4 x0 x1 xs0) (k0_pay5 x0 x2 xs1) := by
  have hz2 := zeros2; have hz3 := zeros3
  unfold out0_B_3
  rw [View.read_writes_eq_canon _ _ _ (cover0_B_3 c i arg3 harg3 arg4 harg4 arg5 harg5 arg6 harg6 arg7 harg7 arg8 harg8 hc0 hc1 x0 x1 x2 xs0 xs1)]
  unfold kernelRun0_B
  dsimp only
  sl_unfold_words
  rw [View.canon_unit_zero hz3, View.readCov_unit_zero (S := S1024x512) _ hz2, View.readCov_unit_zero (S := S1024x512) _ hz2]
  simp only [View.readAt_eq_ld, harg3.read_unread, harg4.read_unread, harg5.read_unread, harg7.read_unread, harg8.read_unread, View.ld_unit_zero (S := S1x1024x1024) hz3, View.ld_unit_zero (S := S1x1024x512) hz3, View.ld_unit_zero (S := S1024x512) hz2]

/-- Even point, gate accumulator: the zero fill plus the first partial product. -/
theorem sout0_A_0_eq (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) :
    sout0_A_0 c i arg3 harg3 arg4 harg4 arg5 harg5 arg6 harg6 arg7 harg7 arg8 harg8 hc0 hc1 x0 x1 x2 = k0_pay4 x0 x1 (k0_pay1 (F := F)) := by
  have hz2 := zeros2; have hz3 := zeros3
  unfold sout0_A_0
  rw [View.read_writes_eq_canon _ _ _ (scover0_A_0 c i arg3 harg3 arg4 harg4 arg5 harg5 arg6 harg6 arg7 harg7 arg8 harg8 hc0 hc1 x0 x1 x2)]
  unfold kernelRun0_A
  dsimp only
  sl_unfold_words
  rw [View.canon_cons_unit_zero (S := S1024x512) hz2, View.readCov_unit_zero (S := S1024x512) _ hz2]
  simp only [View.readAt_eq_ld, harg3.read_unread, harg4.read_unread, harg5.read_unread, View.ld_unit_zero (S := S1x1024x1024) hz3, View.ld_unit_zero (S := S1x1024x512) hz3, View.ld_unit_zero (S := S1024x512) hz2]

/-- Even point, up accumulator. -/
theorem sout0_A_1_eq (c : Dev nD) (i : grid0.Coords) (arg3 : Memref sig .tc .vmem S1x1024x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x1024x512 .bf16) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1x1024x1024 .f32) (x1 : Vec F S1x1024x512 .f32) (x2 : Vec F S1x1024x512 .f32) :
    sout0_A_1 c i arg3 harg3 arg4 harg4 arg5 harg5 arg6 harg6 arg7 harg7 arg8 harg8 hc0 hc1 x0 x1 x2 = k0_pay5 x0 x2 (k0_pay2 (F := F)) := by
  have hz2 := zeros2; have hz3 := zeros3
  unfold sout0_A_1
  rw [View.read_writes_eq_canon _ _ _ (scover0_A_1 c i arg3 harg3 arg4 harg4 arg5 harg5 arg6 harg6 arg7 harg7 arg8 harg8 hc0 hc1 x0 x1 x2)]
  unfold kernelRun0_A
  dsimp only
  sl_unfold_words
  rw [View.canon_cons_unit_zero (S := S1024x512) hz2, View.readCov_unit_zero (S := S1024x512) _ hz2]
  simp only [View.readAt_eq_ld, harg3.read_unread, harg4.read_unread, harg5.read_unread, View.ld_unit_zero (S := S1x1024x1024) hz3, View.ld_unit_zero (S := S1x1024x512) hz3, View.ld_unit_zero (S := S1024x512) hz2]

end Cert.KernelIdeal.Val

end
-- ==== Proof.ValI.Payloads.lean ====
/-
  What the two kernel bodies store, read at an index, on the extended reals.

  Every block a body works on is one expert's: its leading axis has extent one, so a block of shape [1, a, b] viewed as
  an [a, b] matrix reads (0, i, j) at (i, j).  Narrowing to the shorter float format is the identity on extended
  reals.  The matrix unit's product into the zero accumulator, at row r and column j, is the sum over the 1024
  contraction positions k of the left operand at (r, k) times the right operand at (k, j); the body adds it to what
  the accumulator buffer held.  The first body's last store is the up projection times the positive part of the
  gate, the second body's last store is its accumulator, each laid out again as a block with a leading unit axis.
-/
import proofs.«108648_j3204045603931_2_alg».proof.Proof.Gen.KernelIdeal.Skeleton
import proofs.«108648_j3204045603931_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## The matrix product's operand indices -/

/-- The left operand is read at the result's row … -/
theorem dot_lhs0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- … and the contraction position, -/
theorem dot_lhs1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- the right operand at the contraction position … -/
theorem dot_rhs0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- … and the result's column. -/
theorem dot_rhs1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The matrix product into the zero accumulator, at row `r` and column `j`: the sum over the contraction. -/
theorem matmul_zero_at {φ₁ φ₂ : FTy} (L : FVec Ideal S1024x1024 φ₁) (R : FVec Ideal S1024x512 φ₂) (r : Fin 1024) (j : Fin 512) :
    matmul dot_S1024x1024_S1024x512_S1024x512_1_0_0_1_n_n none L R (constant (F := Ideal) S1024x512 .f32 0x00000000#32) (ix2 r j)
      = ∑ k : Fin 1024, L (ix2 r k) * R (ix2 k j) := by
  show FloatOps.matmul dot_S1024x1024_S1024x512_S1024x512_1_0_0_1_n_n none L R (constant (F := Ideal) S1024x512 .f32 0x00000000#32) (ix2 r j) = _
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r j) ((contrEquiv1 dot_S1024x1024_S1024x512_S1024x512_1_0_0_1_n_n 1024 rfl rfl).symm k) = ix2 r k := funext fun a => Fin.ext (by
    match a with
    | ⟨0, _⟩ => exact dot_lhs0 _ _
    | ⟨1, _⟩ => exact (dot_lhs1 _ _).trans hk)
  have er : dot_S1024x1024_S1024x512_S1024x512_1_0_0_1_n_n.rhsIdx (ix2 r j) ((contrEquiv1 dot_S1024x1024_S1024x512_S1024x512_1_0_0_1_n_n 1024 rfl rfl).symm k) = ix2 k j := funext fun a => Fin.ext (by
    match a with
    | ⟨0, _⟩ => exact (dot_rhs0 _ _).trans hk
    | ⟨1, _⟩ => exact dot_rhs1 _ _)
  rw [el, er]

/-! ## The first body -/

/-- Under the first contraction block both accumulators are filled with zero. -/
theorem k0_pay1_at (r : Fin 1024) (j : Fin 512) : k0_pay1 (F := Ideal) (ix2 r j) = 0 := by
  unfold k0_pay1
  exact (congrFun (shapeCast_self _ _) _).trans Ideal.ofBits_zero_f32
theorem k0_pay2_at (r : Fin 1024) (j : Fin 512) : k0_pay2 (F := Ideal) (ix2 r j) = 0 := by
  unfold k0_pay2
  exact (congrFun (shapeCast_self _ _) _).trans Ideal.ofBits_zero_f32

/-- The token block as a matrix. -/
theorem k0_pay3_at (v3 : Vec Ideal S1x1024x1024 .f32) (r k : Fin 1024) :
    k0_pay3 (F := Ideal) v3 (ix2 r k) = v3 (ix3 0 r k) := by
  unfold k0_pay3
  exact shapeCast_1ab_ab_apply v3 _ r k

/-- The gate accumulator after a point: what it held plus the block product with the gate weights. -/
theorem k0_pay4_at (v3 : Vec Ideal S1x1024x1024 .f32) (v6 : Vec Ideal S1x1024x512 .f32) (v12 : Vec Ideal S1024x512 .f32)
    (r : Fin 1024) (j : Fin 512) :
    k0_pay4 (F := Ideal) v3 v6 v12 (ix2 r j) = v12 (ix2 r j) + ∑ k : Fin 1024, v3 (ix3 0 r k) * v6 (ix3 0 k j) := by
  unfold k0_pay4
  refine (congrFun (shapeCast_self _ _) _).trans ?_
  refine congrArg (v12 (ix2 r j) + ·) ?_
  refine (matmul_zero_at _ _ r j).trans ?_
  refine Finset.sum_congr rfl fun k _ => ?_
  exact congrArg₂ (· * ·) (k0_pay3_at v3 r k) (shapeCast_1ab_ab_apply v6 _ k j)

/-- The up accumulator after a point: what it held plus the block product with the up weights. -/
theorem k0_pay5_at (v3 : Vec Ideal S1x1024x1024 .f32) (v9 : Vec Ideal S1x1024x512 .f32) (v18 : Vec Ideal S1024x512 .f32)
    (r : Fin 1024) (j : Fin 512) :
    k0_pay5 (F := Ideal) v3 v9 v18 (ix2 r j) = v18 (ix2 r j) + ∑ k : Fin 1024, v3 (ix3 0 r k) * v9 (ix3 0 k j) := by
  unfold k0_pay5
  refine (congrFun (shapeCast_self _ _) _).trans ?_
  refine congrArg (v18 (ix2 r j) + ·) ?_
  refine (matmul_zero_at _ _ r j).trans ?_
  refine Finset.sum_congr rfl fun k _ => ?_
  exact congrArg₂ (· * ·) (k0_pay3_at v3 r k) (shapeCast_1ab_ab_apply v9 _ k j)

/-- The activation block: the up accumulator times the positive part of the gate accumulator. -/
theorem k0_pay6_at (v27 v28 : Vec Ideal S1024x512 .f32) (r : Fin 1024) (j : Fin 512) :
    k0_pay6 (F := Ideal) v27 v28 (ix3 0 r j) = v28 (ix2 r j) * max (v27 (ix2 r j)) 0 := by
  unfold k0_pay6
  refine (shapeCast_ab_1ab_apply _ _ 0 r j).trans ?_
  exact congrArg (fun z => v28 (ix2 r j) * max (v27 (ix2 r j)) z) Ideal.ofBits_zero_f32

/-! ## The second body -/

/-- Under the first contraction block the accumulator is filled with zero. -/
theorem k1_pay1_at (r : Fin 1024) (j : Fin 512) : k1_pay1 (F := Ideal) (ix2 r j) = 0 := by
  unfold k1_pay1
  exact (congrFun (shapeCast_self _ _) _).trans Ideal.ofBits_zero_f32

/-- The accumulator after a point: what it held plus the block product of the activations with the down weights. -/
theorem k1_pay2_at (v3 : Vec Ideal S1x1024x1024 .bf16) (v5 : Vec Ideal S1x1024x512 .f32) (v8 : Vec Ideal S1024x512 .f32)
    (r : Fin 1024) (j : Fin 512) :
    k1_pay2 (F := Ideal) v3 v5 v8 (ix2 r j) = v8 (ix2 r j) + ∑ k : Fin 1024, v3 (ix3 0 r k) * v5 (ix3 0 k j) := by
  unfold k1_pay2
  refine (congrFun (shapeCast_self _ _) _).trans ?_
  refine congrArg (v8 (ix2 r j) + ·) ?_
  refine (matmul_zero_at _ _ r j).trans ?_
  refine Finset.sum_congr rfl fun k _ => ?_
  exact congrArg₂ (· * ·) (shapeCast_1ab_ab_apply v3 _ r k) (shapeCast_1ab_ab_apply v5 _ k j)

/-- The result block is the accumulator. -/
theorem k1_pay3_at (v17 : Vec Ideal S1024x512 .f32) (r : Fin 1024) (j : Fin 512) :
    k1_pay3 (F := Ideal) v17 (ix3 0 r j) = v17 (ix2 r j) := by
  unfold k1_pay3
  exact shapeCast_ab_1ab_apply v17 _ 0 r j

end Cert.KernelIdeal.Val

end
-- ==== Proof.ValI.Blocks.lean ====
/-
  Where each window's block sits in its array.

  Both grids are (8, 4, 2), run with the last axis fastest: point `t` works for expert `t / 8`, column block
  `t / 2 % 4` and contraction block `t % 2`.  A block's coordinate in its array is always the block index times the
  block size plus the coordinate inside the block.  In the first region the token block is rows of expert `e`,
  features `k * 1024 …`; the two weight blocks are rows `k * 1024 …` of the expert's first weight matrix, columns
  `n * 512 …` of its gate half and of its up half (the second window's block index is shifted by four blocks, that is
  by 2048 columns); the result block is columns `n * 512 …` of the expert's activations.  The second region is laid
  out the same way over the activations and the second weight array.
-/
import proofs.«108648_j3204045603931_2_alg».proof.Proof.Gen.KernelIdeal.Points
import proofs.«108648_j3204045603931_2_alg».proof.Proof.Gen.KernelIdeal.Launch
import proofs.«108648_j3204045603931_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-! ## A point's three coordinates -/

theorem pt0_lt (t : Fin cfg0.N) : t.val < 64 := by
  have h : t.val < grid0.N := t.isLt
  rwa [N_0] at h
theorem pt1_lt (t : Fin cfg1.N) : t.val < 64 := by
  have h : t.val < grid1.N := t.isLt
  rwa [N_1] at h

/-- The expert a point of the first region works for, -/
def tE (t : Fin cfg0.N) : Fin 8 := ⟨t.val / 8, by have := pt0_lt t; omega⟩
/-- its column block, -/
def tN (t : Fin cfg0.N) : Fin 4 := ⟨t.val / 2 % 4, by omega⟩
/-- and its contraction block. -/
def tK (t : Fin cfg0.N) : Fin 2 := ⟨t.val % 2, by omega⟩
/-- The same three for a point of the second region. -/
def tE1 (t : Fin cfg1.N) : Fin 8 := ⟨t.val / 8, by have := pt1_lt t; omega⟩
def tN1 (t : Fin cfg1.N) : Fin 4 := ⟨t.val / 2 % 4, by omega⟩
def tK1 (t : Fin cfg1.N) : Fin 2 := ⟨t.val % 2, by omega⟩

theorem tE_val (t : Fin cfg0.N) : (tE t).val = t.val / 8 := rfl
theorem tN_val (t : Fin cfg0.N) : (tN t).val = t.val / 2 % 4 := rfl
theorem tK_val (t : Fin cfg0.N) : (tK t).val = t.val % 2 := rfl
theorem tE1_val (t : Fin cfg1.N) : (tE1 t).val = t.val / 8 := rfl
theorem tN1_val (t : Fin cfg1.N) : (tN1 t).val = t.val / 2 % 4 := rfl
theorem tK1_val (t : Fin cfg1.N) : (tK1 t).val = t.val % 2 := rfl

/-- Position `k` of contraction block `b` among the 2048 contraction positions. -/
def kIdx (b : Fin 2) (k : Fin 1024) : Fin 2048 := ⟨b.val * 1024 + k.val, by omega⟩
/-- Column `j` of column block `n` among the 2048 columns. -/
def nIdx (n : Fin 4) (j : Fin 512) : Fin 2048 := ⟨n.val * 512 + j.val, by omega⟩

theorem kIdx_val (b : Fin 2) (k : Fin 1024) : (kIdx b k).val = b.val * 1024 + k.val := rfl
theorem nIdx_val (n : Fin 4) (j : Fin 512) : (nIdx n j).val = n.val * 512 + j.val := rfl
/-- The first contraction block is the first half of the features, the second block the second half. -/
theorem kIdx_zero (k : Fin 1024) : kIdx 0 k = Cert.Spec.loHalf k := Fin.ext (by show 0 * 1024 + k.val = k.val; omega)
theorem kIdx_one (k : Fin 1024) : kIdx 1 k = Cert.Spec.hiHalf k := Fin.ext (by show 1 * 1024 + k.val = 1024 + k.val; omega)

/-! ## The printed index maps, decided once over each grid -/

theorem idx0_0 : ∀ t : Fin cfg0.N, win0_0.index t (0 : Fin 3) = t.val / 8 ∧ win0_0.index t (1 : Fin 3) = 0
    ∧ win0_0.index t (2 : Fin 3) = t.val % 2 :=
  (by decide +kernel : ∀ t : Fin grid0.N, _)
theorem idx0_1 : ∀ t : Fin cfg0.N, win0_1.index t (0 : Fin 3) = t.val / 8 ∧ win0_1.index t (1 : Fin 3) = t.val % 2
    ∧ win0_1.index t (2 : Fin 3) = t.val / 2 % 4 :=
  (by decide +kernel : ∀ t : Fin grid0.N, _)
theorem idx0_2 : ∀ t : Fin cfg0.N, win0_2.index t (0 : Fin 3) = t.val / 8 ∧ win0_2.index t (1 : Fin 3) = t.val % 2
    ∧ win0_2.index t (2 : Fin 3) = t.val / 2 % 4 + 4 :=
  (by decide +kernel : ∀ t : Fin grid0.N, _)
theorem idx0_3 : ∀ t : Fin cfg0.N, win0_3.index t (0 : Fin 3) = t.val / 8 ∧ win0_3.index t (1 : Fin 3) = 0
    ∧ win0_3.index t (2 : Fin 3) = t.val / 2 % 4 :=
  (by decide +kernel : ∀ t : Fin grid0.N, _)
theorem idx1_0 : ∀ t : Fin cfg1.N, win1_0.index t (0 : Fin 3) = t.val / 8 ∧ win1_0.index t (1 : Fin 3) = 0
    ∧ win1_0.index t (2 : Fin 3) = t.val % 2 :=
  (by decide +kernel : ∀ t : Fin grid1.N, _)
theorem idx1_1 : ∀ t : Fin cfg1.N, win1_1.index t (0 : Fin 3) = t.val / 8 ∧ win1_1.index t (1 : Fin 3) = t.val % 2
    ∧ win1_1.index t (2 : Fin 3) = t.val / 2 % 4 :=
  (by decide +kernel : ∀ t : Fin grid1.N, _)
theorem idx1_2 : ∀ t : Fin cfg1.N, win1_2.index t (0 : Fin 3) = t.val / 8 ∧ win1_2.index t (1 : Fin 3) = 0
    ∧ win1_2.index t (2 : Fin 3) = t.val / 2 % 4 :=
  (by decide +kernel : ∀ t : Fin grid1.N, _)

/-! ## The first region's blocks -/

/-- The token block: expert `e`'s rows, the features of contraction block `k`. -/
theorem emb0_0 (t : Fin cfg0.N) (r k : Fin 1024) :
    (((cfg0.win 0).blk t).view.emb (ix3 (0 : Fin 1) r k : S1x1024x1024.Idx) : S8x1024x2048.Idx)
      = ix3 (tE t) r (kIdx (tK t) k) := by
  obtain ⟨e0, e1, e2⟩ := idx0_0 t
  funext a; apply Fin.ext
  match a with
  | ⟨0, _⟩ => show win0_0.index t (0 : Fin 3) * 1 + 1 * 0 = t.val / 8; omega
  | ⟨1, _⟩ => show win0_0.index t (1 : Fin 3) * 1024 + 1 * r.val = r.val; omega
  | ⟨2, _⟩ => show win0_0.index t (2 : Fin 3) * 1024 + 1 * k.val = t.val % 2 * 1024 + k.val; omega

theorem read0_0 (A : Vec Ideal S8x1024x2048 .f32) (t : Fin cfg0.N) (r k : Fin 1024) :
    ((cfg0.win 0).blk t).view.read (Elt Ideal) A (ix3 (0 : Fin 1) r k : S1x1024x1024.Idx)
      = A (ix3 (tE t) r (kIdx (tK t) k)) :=
  congrArg A (emb0_0 t r k)

/-- The gate weights' block: rows of contraction block `k`, columns of column block `n` in the gate half. -/
theorem emb0_1 (t : Fin cfg0.N) (k : Fin 1024) (j : Fin 512) :
    (((cfg0.win 1).blk t).view.emb (ix3 (0 : Fin 1) k j : S1x1024x512.Idx) : S8x2048x4096.Idx)
      = ix3 (tE t) (kIdx (tK t) k) (Cert.Spec.gateCol (nIdx (tN t) j)) := by
  obtain ⟨e0, e1, e2⟩ := idx0_1 t
  funext a; apply Fin.ext
  match a with
  | ⟨0, _⟩ => show win0_1.index t (0 : Fin 3) * 1 + 1 * 0 = t.val / 8; omega
  | ⟨1, _⟩ => show win0_1.index t (1 : Fin 3) * 1024 + 1 * k.val = t.val % 2 * 1024 + k.val; omega
  | ⟨2, _⟩ => show win0_1.index t (2 : Fin 3) * 512 + 1 * j.val = t.val / 2 % 4 * 512 + j.val; omega
theorem read0_1 (A : Vec Ideal S8x2048x4096 .f32) (t : Fin cfg0.N) (k : Fin 1024) (j : Fin 512) :
    ((cfg0.win 1).blk t).view.read (Elt Ideal) A (ix3 (0 : Fin 1) k j : S1x1024x512.Idx)
      = A (ix3 (tE t) (kIdx (tK t) k) (Cert.Spec.gateCol (nIdx (tN t) j))) :=
  congrArg A (emb0_1 t k j)

/-- The up weights' block: the same rows, the same columns of the up half. -/
theorem emb0_2 (t : Fin cfg0.N) (k : Fin 1024) (j : Fin 512) :
    (((cfg0.win 2).blk t).view.emb (ix3 (0 : Fin 1) k j : S1x1024x512.Idx) : S8x2048x4096.Idx)
      = ix3 (tE t) (kIdx (tK t) k) (Cert.Spec.upCol (nIdx (tN t) j)) := by
  obtain ⟨e0, e1, e2⟩ := idx0_2 t
  funext a; apply Fin.ext
  match a with
  | ⟨0, _⟩ => show win0_2.index t (0 : Fin 3) * 1 + 1 * 0 = t.val / 8; omega
  | ⟨1, _⟩ => show win0_2.index t (1 : Fin 3) * 1024 + 1 * k.val = t.val % 2 * 1024 + k.val; omega
  | ⟨2, _⟩ => show win0_2.index t (2 : Fin 3) * 512 + 1 * j.val = 2048 + (t.val / 2 % 4 * 512 + j.val); omega
theorem read0_2 (A : Vec Ideal S8x2048x4096 .f32) (t : Fin cfg0.N) (k : Fin 1024) (j : Fin 512) :
    ((cfg0.win 2).blk t).view.read (Elt Ideal) A (ix3 (0 : Fin 1) k j : S1x1024x512.Idx)
      = A (ix3 (tE t) (kIdx (tK t) k) (Cert.Spec.upCol (nIdx (tN t) j))) :=
  congrArg A (emb0_2 t k j)

/-- The activation block the first region writes: expert `e`'s rows, the columns of column block `n`. -/
theorem emb0_3 (t : Fin cfg0.N) (r : Fin 1024) (j : Fin 512) :
    (((cfg0.win 3).blk t).view.emb (ix3 (0 : Fin 1) r j : S1x1024x512.Idx) : S8x1024x2048.Idx)
      = ix3 (tE t) r (nIdx (tN t) j) := by
  obtain ⟨e0, e1, e2⟩ := idx0_3 t
  funext a; apply Fin.ext
  match a with
  | ⟨0, _⟩ => show win0_3.index t (0 : Fin 3) * 1 + 1 * 0 = t.val / 8; omega
  | ⟨1, _⟩ => show win0_3.index t (1 : Fin 3) * 1024 + 1 * r.val = r.val; omega
  | ⟨2, _⟩ => show win0_3.index t (2 : Fin 3) * 512 + 1 * j.val = t.val / 2 % 4 * 512 + j.val; omega
theorem read0_3 (A : Vec Ideal S8x1024x2048 .bf16) (t : Fin cfg0.N) (r : Fin 1024) (j : Fin 512) :
    ((cfg0.win 3).blk t).view.read (Elt Ideal) A (ix3 (0 : Fin 1) r j : S1x1024x512.Idx)
      = A (ix3 (tE t) r (nIdx (tN t) j)) :=
  congrArg A (emb0_3 t r j)

/-! ## The second region's blocks -/

/-- The activation block: expert `e`'s rows, the features of contraction block `k`. -/
theorem emb1_0 (t : Fin cfg1.N) (r k : Fin 1024) :
    (((cfg1.win 0).blk t).view.emb (ix3 (0 : Fin 1) r k : S1x1024x1024.Idx) : S8x1024x2048.Idx)
      = ix3 (tE1 t) r (kIdx (tK1 t) k) := by
  obtain ⟨e0, e1, e2⟩ := idx1_0 t
  funext a; apply Fin.ext
  match a with
  | ⟨0, _⟩ => show win1_0.index t (0 : Fin 3) * 1 + 1 * 0 = t.val / 8; omega
  | ⟨1, _⟩ => show win1_0.index t (1 : Fin 3) * 1024 + 1 * r.val = r.val; omega
  | ⟨2, _⟩ => show win1_0.index t (2 : Fin 3) * 1024 + 1 * k.val = t.val % 2 * 1024 + k.val; omega
theorem read1_0 (A : Vec Ideal S8x1024x2048 .bf16) (t : Fin cfg1.N) (r k : Fin 1024) :
    ((cfg1.win 0).blk t).view.read (Elt Ideal) A (ix3 (0 : Fin 1) r k : S1x1024x1024.Idx)
      = A (ix3 (tE1 t) r (kIdx (tK1 t) k)) :=
  congrArg A (emb1_0 t r k)

/-- The down weights' block: rows of contraction block `k`, columns of column block `n`. -/
theorem emb1_1 (t : Fin cfg1.N) (k : Fin 1024) (j : Fin 512) :
    (((cfg1.win 1).blk t).view.emb (ix3 (0 : Fin 1) k j : S1x1024x512.Idx) : S8x2048x2048.Idx)
      = ix3 (tE1 t) (kIdx (tK1 t) k) (nIdx (tN1 t) j) := by
  obtain ⟨e0, e1, e2⟩ := idx1_1 t
  funext a; apply Fin.ext
  match a with
  | ⟨0, _⟩ => show win1_1.index t (0 : Fin 3) * 1 + 1 * 0 = t.val / 8; omega
  | ⟨1, _⟩ => show win1_1.index t (1 : Fin 3) * 1024 + 1 * k.val = t.val % 2 * 1024 + k.val; omega
  | ⟨2, _⟩ => show win1_1.index t (2 : Fin 3) * 512 + 1 * j.val = t.val / 2 % 4 * 512 + j.val; omega
theorem read1_1 (A : Vec Ideal S8x2048x2048 .f32) (t : Fin cfg1.N) (k : Fin 1024) (j : Fin 512) :
    ((cfg1.win 1).blk t).view.read (Elt Ideal) A (ix3 (0 : Fin 1) k j : S1x1024x512.Idx)
      = A (ix3 (tE1 t) (kIdx (tK1 t) k) (nIdx (tN1 t) j)) :=
  congrArg A (emb1_1 t k j)

/-- The result block the second region writes: expert `e`'s rows, the columns of column block `n`. -/
theorem emb1_2 (t : Fin cfg1.N) (r : Fin 1024) (j : Fin 512) :
    (((cfg1.win 2).blk t).view.emb (ix3 (0 : Fin 1) r j : S1x1024x512.Idx) : S8x1024x2048.Idx)
      = ix3 (tE1 t) r (nIdx (tN1 t) j) := by
  obtain ⟨e0, e1, e2⟩ := idx1_2 t
  funext a; apply Fin.ext
  match a with
  | ⟨0, _⟩ => show win1_2.index t (0 : Fin 3) * 1 + 1 * 0 = t.val / 8; omega
  | ⟨1, _⟩ => show win1_2.index t (1 : Fin 3) * 1024 + 1 * r.val = r.val; omega
  | ⟨2, _⟩ => show win1_2.index t (2 : Fin 3) * 512 + 1 * j.val = t.val / 2 % 4 * 512 + j.val; omega
theorem read1_2 (A : Vec Ideal S8x1024x2048 .f32) (t : Fin cfg1.N) (r : Fin 1024) (j : Fin 512) :
    ((cfg1.win 2).blk t).view.read (Elt Ideal) A (ix3 (0 : Fin 1) r j : S1x1024x512.Idx)
      = A (ix3 (tE1 t) r (nIdx (tN1 t) j)) :=
  congrArg A (emb1_2 t r j)

end Cert.KernelIdeal.Val

end
-- ==== Proof.ValI.R0Value.lean ====
/- Region 0, the values: what the activation array holds after the first region, on the extended reals.
   Point t of the (8, 4, 2) grid works for expert e = t / 8, column block n = t / 2 % 4 and contraction block
   k = t % 2.  After the even point (e, n, 0) the gate accumulator holds, at row r and column j, zero plus the sum
   over the first 1024 features of token (e, r) times the gate weight of column n * 512 + j; the up accumulator
   likewise.  After the odd point (e, n, 1) each holds that plus the sum over the last 1024 features, which is the
   whole contraction over the 2048 features (addition on the extended reals is commutative and associative, no
   finiteness is used); the block stored there is up * max(gate, 0).  Every entry (e, r, f) of the activation array
   lies in the block of exactly the odd point ((e * 4 + f / 512) * 2 + 1), so the array ends holding the gated
   activation of the token array and the first weight array as the region found them. -/
import proofs.«108648_j3204045603931_2_alg».proof.Proof.ValI.R0Pieces
import proofs.«108648_j3204045603931_2_alg».proof.Proof.ValI.Payloads
import proofs.«108648_j3204045603931_2_alg».proof.Proof.ValI.Blocks
import proofs.«108648_j3204045603931_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.SL Idealize.SL.RA
open Idealize.ShloMosaic.Pipeline (Dat)
open Cert.Spec (loHalf hiHalf gateCol upCol)

variable (q : Fin cfg0.W → PosShare TreeShare) (V : (c : Dev nD) → (b : Ref sig .tc) → Buf (Elt Ideal) ((c : Thread nD τ).loc b))

/-- The token array grouped by expert, and the first weight array, as the region finds them. -/
abbrev Hh (c : Dev nD) : Vec Ideal S8x1024x2048 .f32 := V c main_v0
abbrev Ww (c : Dev nD) : Vec Ideal S8x2048x4096 .f32 := V c main_arg1

/-! ## The input blocks at an index -/

theorem blk0_at (c : Dev nD) (t : Fin cfg0.N) (r k : Fin 1024) :
    (iblk0 V c 0 t : Vec Ideal S1x1024x1024 .f32) (ix3 (0 : Fin 1) r k) = Hh V c (ix3 (tE t) r (kIdx (tK t) k)) := by
  unfold iblk0
  exact read0_0 (V c main_v0) t r k
theorem blk1_at (c : Dev nD) (t : Fin cfg0.N) (k : Fin 1024) (j : Fin 512) :
    (iblk0 V c 1 t : Vec Ideal S1x1024x512 .f32) (ix3 (0 : Fin 1) k j) = Ww V c (ix3 (tE t) (kIdx (tK t) k) (gateCol (nIdx (tN t) j))) := by
  unfold iblk0
  exact read0_1 (V c main_arg1) t k j
theorem blk2_at (c : Dev nD) (t : Fin cfg0.N) (k : Fin 1024) (j : Fin 512) :
    (iblk0 V c 2 t : Vec Ideal S1x1024x512 .f32) (ix3 (0 : Fin 1) k j) = Ww V c (ix3 (tE t) (kIdx (tK t) k) (upCol (nIdx (tN t) j))) := by
  unfold iblk0
  exact read0_2 (V c main_arg1) t k j

/-! ## The accumulators and the stored block as the body's arithmetic of the blocks -/

theorem gateAcc_even (c : Dev nD) (t : Fin cfg0.N) (h0 : t.val % 2 = 0) :
    (outsAt0 V c t.val t.isLt).2.1 = k0_pay4 (iblk0 V c 0 t) (iblk0 V c 1 t) (k0_pay1 (F := Ideal)) := by
  rw [outsAt0_A V c t h0]
  dsimp only
  exact sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (by omega : ¬t.val % 2 = 1) ((hcond0_1 t).mp h)) (iblk0 V c 0 t) (iblk0 V c 1 t) (iblk0 V c 2 t)
theorem upAcc_even (c : Dev nD) (t : Fin cfg0.N) (h0 : t.val % 2 = 0) :
    (outsAt0 V c t.val t.isLt).2.2 = k0_pay5 (iblk0 V c 0 t) (iblk0 V c 2 t) (k0_pay2 (F := Ideal)) := by
  rw [outsAt0_A V c t h0]
  dsimp only
  exact sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => (by omega : ¬t.val % 2 = 1) ((hcond0_1 t).mp h)) (iblk0 V c 0 t) (iblk0 V c 1 t) (iblk0 V c 2 t)
theorem gateAcc_odd (c : Dev nD) (t : Fin cfg0.N) (h1 : t.val % 2 = 1) :
    (outsAt0 V c t.val t.isLt).2.1 = k0_pay4 (iblk0 V c 0 t) (iblk0 V c 1 t) (outsAt0 V c (t.val - 1) (Nat.lt_of_le_of_lt (Nat.sub_le _ _) t.isLt)).2.1 := by
  rw [outsAt0_B V c t h1]
  dsimp only
  exact sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem upAcc_odd (c : Dev nD) (t : Fin cfg0.N) (h1 : t.val % 2 = 1) :
    (outsAt0 V c t.val t.isLt).2.2 = k0_pay5 (iblk0 V c 0 t) (iblk0 V c 2 t) (outsAt0 V c (t.val - 1) (Nat.lt_of_le_of_lt (Nat.sub_le _ _) t.isLt)).2.2 := by
  rw [outsAt0_B V c t h1]
  dsimp only
  exact sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem out_odd (c : Dev nD) (t : Fin cfg0.N) (h1 : t.val % 2 = 1) :
    (outsAt0 V c t.val t.isLt).1 = k0_pay6 (k0_pay4 (iblk0 V c 0 t) (iblk0 V c 1 t) (outsAt0 V c (t.val - 1) (Nat.lt_of_le_of_lt (Nat.sub_le _ _) t.isLt)).2.1) (k0_pay5 (iblk0 V c 0 t) (iblk0 V c 2 t) (outsAt0 V c (t.val - 1) (Nat.lt_of_le_of_lt (Nat.sub_le _ _) t.isLt)).2.2) := by
  rw [outsAt0_B V c t h1]
  dsimp only
  exact out0_B_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => (by omega : ¬t.val % 2 = 0) ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-! ## At an index -/

/-- After an even point the gate accumulator holds zero plus the sum over the first half of the features. -/
theorem gateAcc_even_at (c : Dev nD) (t : Fin cfg0.N) (h0 : t.val % 2 = 0) (r : Fin 1024) (j : Fin 512) :
    (outsAt0 V c t.val t.isLt).2.1 (ix2 r j)
      = 0 + ∑ k : Fin 1024, Hh V c (ix3 (tE t) r (loHalf k)) * Ww V c (ix3 (tE t) (loHalf k) (gateCol (nIdx (tN t) j))) := by
  rw [gateAcc_even V c t h0]
  refine (k0_pay4_at (iblk0 V c 0 t) (iblk0 V c 1 t) (k0_pay1 (F := Ideal)) r j).trans ?_
  rw [k0_pay1_at]
  have hk : tK t = 0 := Fin.ext h0
  refine congrArg (0 + ·) (Finset.sum_congr rfl fun k _ => ?_)
  rw [blk0_at V c t r k, blk1_at V c t k j, hk, kIdx_zero]
theorem upAcc_even_at (c : Dev nD) (t : Fin cfg0.N) (h0 : t.val % 2 = 0) (r : Fin 1024) (j : Fin 512) :
    (outsAt0 V c t.val t.isLt).2.2 (ix2 r j)
      = 0 + ∑ k : Fin 1024, Hh V c (ix3 (tE t) r (loHalf k)) * Ww V c (ix3 (tE t) (loHalf k) (upCol (nIdx (tN t) j))) := by
  rw [upAcc_even V c t h0]
  refine (k0_pay5_at (iblk0 V c 0 t) (iblk0 V c 2 t) (k0_pay2 (F := Ideal)) r j).trans ?_
  rw [k0_pay2_at]
  have hk : tK t = 0 := Fin.ext h0
  refine congrArg (0 + ·) (Finset.sum_congr rfl fun k _ => ?_)
  rw [blk0_at V c t r k, blk2_at V c t k j, hk, kIdx_zero]

/-- The point before an odd point. -/
def prevPt (t : Fin cfg0.N) : Fin cfg0.N := ⟨t.val - 1, Nat.lt_of_le_of_lt (Nat.sub_le _ _) t.isLt⟩
theorem prevPt_even (t : Fin cfg0.N) (h1 : t.val % 2 = 1) : (prevPt t).val % 2 = 0 := by
  show (t.val - 1) % 2 = 0; omega
theorem tE_prevPt (t : Fin cfg0.N) (h1 : t.val % 2 = 1) : tE (prevPt t) = tE t :=
  Fin.ext (by show (t.val - 1) / 8 = t.val / 8; omega)
theorem tN_prevPt (t : Fin cfg0.N) (h1 : t.val % 2 = 1) : tN (prevPt t) = tN t :=
  Fin.ext (by show (t.val - 1) / 2 % 4 = t.val / 2 % 4; omega)

/-- After an odd point the gate accumulator holds the whole contraction: the gate pre-activation. -/
theorem gateAcc_odd_at (c : Dev nD) (t : Fin cfg0.N) (h1 : t.val % 2 = 1) (r : Fin 1024) (j : Fin 512) :
    (outsAt0 V c t.val t.isLt).2.1 (ix2 r j) = Cert.Spec.gate (V c main_v0) (V c main_arg1) (tE t) r (nIdx (tN t) j) := by
  rw [gateAcc_odd V c t h1]
  refine (k0_pay4_at (iblk0 V c 0 t) (iblk0 V c 1 t) _ r j).trans ?_
  have hk : tK t = 1 := Fin.ext h1
  have hp := gateAcc_even_at V c (prevPt t) (prevPt_even t h1) r j
  rw [tE_prevPt t h1, tN_prevPt t h1] at hp
  refine Eq.trans ?_ (Cert.Spec.sum_two_halves (fun d => Hh V c (ix3 (tE t) r d) * Ww V c (ix3 (tE t) d (gateCol (nIdx (tN t) j)))))
  refine congrArg₂ (· + ·) hp (Finset.sum_congr rfl fun k _ => ?_)
  rw [blk0_at V c t r k, blk1_at V c t k j, hk, kIdx_one]
theorem upAcc_odd_at (c : Dev nD) (t : Fin cfg0.N) (h1 : t.val % 2 = 1) (r : Fin 1024) (j : Fin 512) :
    (outsAt0 V c t.val t.isLt).2.2 (ix2 r j) = Cert.Spec.up (V c main_v0) (V c main_arg1) (tE t) r (nIdx (tN t) j) := by
  rw [upAcc_odd V c t h1]
  refine (k0_pay5_at (iblk0 V c 0 t) (iblk0 V c 2 t) _ r j).trans ?_
  have hk : tK t = 1 := Fin.ext h1
  have hp := upAcc_even_at V c (prevPt t) (prevPt_even t h1) r j
  rw [tE_prevPt t h1, tN_prevPt t h1] at hp
  refine Eq.trans ?_ (Cert.Spec.sum_two_halves (fun d => Hh V c (ix3 (tE t) r d) * Ww V c (ix3 (tE t) d (upCol (nIdx (tN t) j)))))
  refine congrArg₂ (· + ·) hp (Finset.sum_congr rfl fun k _ => ?_)
  rw [blk0_at V c t r k, blk2_at V c t k j, hk, kIdx_one]

/-- The block stored at an odd point is the gated activation at the block's place in the array. -/
theorem out_odd_at (c : Dev nD) (t : Fin cfg0.N) (h1 : t.val % 2 = 1) (r : Fin 1024) (j : Fin 512) :
    (outsAt0 V c t.val t.isLt).1 (ix3 (0 : Fin 1) r j) = Cert.Spec.act (V c main_v0) (V c main_arg1) (ix3 (tE t) r (nIdx (tN t) j)) := by
  rw [out_odd V c t h1, ← gateAcc_odd V c t h1, ← upAcc_odd V c t h1]
  refine (k0_pay6_at _ _ r j).trans ?_
  rw [gateAcc_odd_at V c t h1 r j, upAcc_odd_at V c t h1 r j]
  rfl

/-! ## From the blocks to the array -/

/-- What an odd point writes back is its block of the gated activation. -/
theorem flushed3_eq (c : Dev nD) (t : Fin cfg0.N) (hf : (cfg0.win 3).flush t = true) :
    (dat0 (F := Ideal) q V c).flushed 3 t = ((cfg0.win 3).blk t).view.read (Elt Ideal) (Cert.Spec.act (V c main_v0) (V c main_arg1)) := by
  have h1 : t.val % 2 = 1 := (flush0_3 t).mp hf
  show (cfg0.win 3).cut (grid0.coords t) ((dat0 (F := Ideal) q V c).after 3 t) = _
  rw [after0_3]
  funext y
  obtain ⟨r, j, rfl⟩ : ∃ (r : Fin 1024) (j : Fin 512), y = ix3 (0 : Fin 1) r j := by
    refine ⟨y 1, y 2, ?_⟩
    funext a; apply Fin.ext
    match a with
    | ⟨0, _⟩ => show (y 0).val = 0; have : (y 0).val < 1 := (y 0).isLt; omega
    | ⟨1, _⟩ => rfl
    | ⟨2, _⟩ => rfl
  refine Eq.trans ?_ (read0_3 (Cert.Spec.act (V c main_v0) (V c main_arg1)) t r j).symm
  exact out_odd_at V c t h1 r j

/-- An index of the activation array is in point `t`'s block iff each coordinate is in the block's range. -/
theorem mem_blk3 (t : Fin cfg0.N) (i : S8x1024x2048.Idx) :
    i ∈ ((cfg0.win 3).blk t).view.set ↔ ∀ a : Fin 3, win0_3.index t a * S1x1024x512.size a ≤ (i a).val ∧ (i a).val < win0_3.index t a * S1x1024x512.size a + S1x1024x512.size a := by
  show i ∈ ((View.whole main_v1).slice (win0_3.rect t)).set ↔ _
  rw [View.set_slice_whole, Rect.mem_set_unit]
  exact Iff.rfl

/-- Entry (e, r, f) lies in the block of the odd point of expert e and column block f / 512. -/
theorem cover3 (i : S8x1024x2048.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 2048 := (i 2).isLt
  have hN : cfg0.N = 64 := N_0
  have hlt : ((i 0).val * 4 + (i 2).val / 512) * 2 + 1 < cfg0.N := lt_of_lt_of_eq (by omega) hN.symm
  obtain ⟨e0, e1, e2⟩ := idx0_3 ⟨((i 0).val * 4 + (i 2).val / 512) * 2 + 1, hlt⟩
  refine ⟨⟨((i 0).val * 4 + (i 2).val / 512) * 2 + 1, hlt⟩, (flush0_3 _).mpr (by show (((i 0).val * 4 + (i 2).val / 512) * 2 + 1) % 2 = 1; omega), ?_⟩
  rw [mem_blk3]
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 512 ≤ (i 2).val ∧ (i 2).val < win0_3.index _ (2 : Fin 3) * 512 + 512; omega

/-- The activation array after the first region: the gated activation of the token array and the first weight
    array as the region found them. -/
theorem act_array (c : Dev nD) :
    ((dat0 (F := Ideal) q V c).arrAt 3 cfg0.N : S8x1024x2048.Idx → EReal) = Cert.Spec.act (V c main_v0) (V c main_arg1) :=
  (dat0 (F := Ideal) q V c).arrAt_eq_of_cover 3 (Cert.Spec.act (V c main_v0) (V c main_arg1)) (fun t hf => flushed3_eq q V c t hf) cover3

end Cert.KernelIdeal.Val

end
-- ==== Proof.ValI.R1Value.lean ====
/-
  What the down projection's result array holds after the region, on the extended reals.

  At a point (e, n, k) of the grid the running sum's buffer holds, at row r and column j, the contraction of activation
  row r of expert e with column n * 512 + j of the expert's down weights, taken over the contraction halves seen so
  far: after a first-half point it is zero plus the first half's sum, after a last-half point that plus the second
  half's sum — and this is what a last-half point stores into the result block.  Addition on the extended reals is
  commutative and associative with zero neutral, so the two halves accumulated from zero are the sum over all 2048
  contraction positions.  The result blocks written back at the last-half points tile the result array, which
  therefore ends holding the down projection of the activations as the region found them.
-/
import proofs.«108648_j3204045603931_2_alg».proof.Proof.FrameI.R1Body
import proofs.«108648_j3204045603931_2_alg».proof.Proof.Spec
import proofs.«108648_j3204045603931_2_alg».proof.Proof.ValI.Payloads
import proofs.«108648_j3204045603931_2_alg».proof.Proof.ValI.Blocks
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

open scoped BigOperators

namespace Cert.KernelIdeal.Val

open Cert.KernelIdeal Cert.KernelIdeal.Gen Cert.KernelIdeal.Frm
open Idealize.ShloMosaic Idealize.ShloMosaic.TcCoe Idealize.ShloMosaic.Tactic Idealize.ShloMosaic.ValueIdx Idealize.SL.Sem
open Idealize.ShloMosaic.Pipeline (Dat)

/-! ## What each case leaves, as the body's arithmetic of what it loaded (any float instance) -/

section Pieces

variable {F : FTy → Type} [FloatOps F]

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- A last-half point leaves in the running sum's buffer what it held plus the block product. -/
theorem r1_sout_B (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero (S := S1024x512) r1_hz2]
  simp only [View.readAt_eq_ld, harg3.read_unread, harg4.read_unread, harg6.read_unread, View.ld_unit_zero (S := S1x1024x1024) r1_hz3, View.ld_unit_zero (S := S1x1024x512) r1_hz3, View.ld_unit_zero (S := S1024x512) r1_hz2]

/-- and stores that same sum, laid out as a block, into the result block. -/
theorem r1_out_B (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : ¬cond1_0 i) (hc1 : cond1_1 i)
    (x0 : Vec F S1x1024x1024 .bf16) (x1 : Vec F S1x1024x512 .f32) (xs0 : Vec F S1024x512 .f32) :
    out1_B_2 c i arg3 harg3 arg4 harg4 arg5 harg5 arg6 harg6 hc0 hc1 x0 x1 xs0 = k1_pay3 (k1_pay2 x0 x1 xs0) := by
  unfold out1_B_2
  rw [View.read_writes_eq_canon _ _ _ (cover1_B_2 c i arg3 harg3 arg4 harg4 arg5 harg5 arg6 harg6 hc0 hc1 x0 x1 xs0)]
  unfold kernelRun1_B
  dsimp only
  sl_unfold_words
  rw [View.canon_unit_zero (S := S1x1024x512) r1_hz3, View.readCov_unit_zero (S := S1024x512) _ r1_hz2]
  simp only [View.readAt_eq_ld, harg3.read_unread, harg4.read_unread, harg6.read_unread, View.ld_unit_zero (S := S1x1024x1024) r1_hz3, View.ld_unit_zero (S := S1x1024x512) r1_hz3, View.ld_unit_zero (S := S1024x512) r1_hz2]

/-- A first-half point leaves in the running sum's buffer the zero fill plus the block product. -/
theorem r1_sout_A (c : Dev nD) (i : grid1.Coords) (arg3 : Memref sig .tc .vmem S1x1024x1024 .bf16) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1024x512 .f32) (harg6 : arg6.IsWhole) (hc0 : cond1_0 i) (hc1 : ¬cond1_1 i)
    (x0 : Vec F S1x1024x1024 .bf16) (x1 : Vec F S1x1024x512 .f32) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero (S := S1024x512) r1_hz2, View.readCov_unit_zero (S := S1024x512) _ r1_hz2]
  simp only [View.readAt_eq_ld, harg3.read_unread, harg4.read_unread, harg6.read_unread, View.ld_unit_zero (S := S1x1024x1024) r1_hz3, View.ld_unit_zero (S := S1x1024x512) r1_hz3, View.ld_unit_zero (S := S1024x512) r1_hz2]

end Pieces

/-! ## The running sum and the result block at each point, on the extended reals -/

section Values

variable (V : (c : Dev nD) → (b : Ref sig .tc) → Buf (Elt Ideal) ((c : Thread nD τ).loc b))

/-- The contraction of activation row `r` of expert `e` with column `f` of the expert's down weights, over the 1024
    positions of contraction half `b`. -/
def halfDot (a : Vec Ideal S8x1024x2048 .bf16) (w2 : Vec Ideal S8x2048x2048 .f32) (e : Fin 8) (b : Fin 2) (r : Fin 1024) (f : Fin 2048) : EReal :=
  ∑ k : Fin 1024, a (ix3 e r (kIdx b k)) * w2 (ix3 e (kIdx b k) f)

/-- The block product at row `r` and column `j`: the sum over the block's 1024 contraction positions. -/
def blockDot (x0 : Vec Ideal S1x1024x1024 .bf16) (x1 : Vec Ideal S1x1024x512 .f32) (r : Fin 1024) (j : Fin 512) : EReal :=
  ∑ k : Fin 1024, x0 (ix3 (0 : Fin 1) r k) * x1 (ix3 (0 : Fin 1) k j)

/-- One term of the full contraction: position `d`. -/
def dotTerm (a : Vec Ideal S8x1024x2048 .bf16) (w2 : Vec Ideal S8x2048x2048 .f32) (e : Fin 8) (r : Fin 1024) (f : Fin 2048) (d : Fin 2048) : EReal :=
  a (ix3 e r d) * w2 (ix3 e d f)

/-- Two functions of a block index with a leading unit axis agree if they agree at every row and column. -/
theorem r1_ext3 {α : Type} (f g : S1x1024x512.Idx → α)
    (h : ∀ (r : Fin 1024) (j : Fin 512), f (ix3 (0 : Fin 1) r j) = g (ix3 (0 : Fin 1) r j)) : f = g := by
  funext y
  obtain ⟨z, r, j, rfl⟩ : ∃ (z : Fin 1) (r : Fin 1024) (j : Fin 512), y = ix3 z r j := ⟨y 0, y 1, y 2, eq_ix3 y⟩
  obtain rfl : z = 0 := Subsingleton.elim _ _
  exact h r j

/-- The activation block at a point, read at a row and a contraction position. -/
theorem r1_iblk0 (c : Dev nD) (t : Fin cfg1.N) (r k : Fin 1024) :
    iblk1 V c 0 t (ix3 (0 : Fin 1) r k : S1x1024x1024.Idx) = (V c main_v1 : Vec Ideal S8x1024x2048 .bf16) (ix3 (tE1 t) r (kIdx (tK1 t) k)) :=
  read1_0 (V c main_v1) t r k

/-- The weight block at a point, read at a contraction position and a column. -/
theorem r1_iblk1 (c : Dev nD) (t : Fin cfg1.N) (k : Fin 1024) (j : Fin 512) :
    iblk1 V c 1 t (ix3 (0 : Fin 1) k j : S1x1024x512.Idx) = (V c main_arg2 : Vec Ideal S8x2048x2048 .f32) (ix3 (tE1 t) (kIdx (tK1 t) k) (nIdx (tN1 t) j)) :=
  read1_1 (V c main_arg2) t k j

/-- The block product at a point is that point's contraction half. -/
theorem r1_blockDot (c : Dev nD) (t : Fin cfg1.N) (r : Fin 1024) (j : Fin 512) :
    blockDot (iblk1 V c 0 t) (iblk1 V c 1 t) r j
      = halfDot (V c main_v1) (V c main_arg2) (tE1 t) (tK1 t) r (nIdx (tN1 t) j) := by
  unfold halfDot blockDot
  refine Finset.sum_congr rfl fun k _ => ?_
  exact congrArg₂ (· * ·) (r1_iblk0 V c t r k) (r1_iblk1 V c t k j)

/-- After a first-half point the running sum is zero plus the first half. -/
theorem r1_even (c : Dev nD) (t : Fin cfg1.N) (h0 : t.val % 2 = 0) (r : Fin 1024) (j : Fin 512) :
    (outsAt1 V c t.val t.isLt).2 (ix2 r j)
      = 0 + halfDot (V c main_v1) (V c main_arg2) (tE1 t) (tK1 t) r (nIdx (tN1 t) j) := by
  rw [outsAt1_A V c t h0]
  dsimp only
  refine (congrFun (r1_sout_A (F := Ideal) c (grid1.coords t) (ms1_0 t) (hs1_0 t) (ms1_1 t) (hs1_1 t) (ms1_2 t) (hs1_2 t) scM1_0 (Memref.isWhole_whole _) ((hcond1_0 t).mpr h0) (fun h => not_odd_of_even1 h0 ((hcond1_1 t).mp h)) (iblk1 V c 0 t) (iblk1 V c 1 t)) (ix2 r j)).trans ?_
  refine (k1_pay2_at (iblk1 V c 0 t) (iblk1 V c 1 t) (k1_pay1 (F := Ideal)) r j).trans ?_
  exact congrArg₂ (· + ·) (k1_pay1_at r j) (r1_blockDot V c t r j)

/-- A last-half point continues the first-half point just before it: same expert, same column block. -/
theorem r1_prev (t : Fin cfg1.N) (h1 : t.val % 2 = 1) :
    ∃ t' : Fin cfg1.N, t'.val = t.val - 1 ∧ t'.val % 2 = 0 ∧ tE1 t' = tE1 t ∧ tN1 t' = tN1 t ∧ tK1 t' = 0 ∧ tK1 t = 1 := by
  refine ⟨⟨t.val - 1, Nat.lt_of_le_of_lt (Nat.sub_le _ _) t.isLt⟩, rfl, ?_, Fin.ext ?_, Fin.ext ?_, Fin.ext ?_, Fin.ext ?_⟩
  · show (t.val - 1) % 2 = 0; omega
  · show (t.val - 1) / 8 = t.val / 8; omega
  · show (t.val - 1) / 2 % 4 = t.val / 2 % 4; omega
  · show (t.val - 1) % 2 = 0; omega
  · show t.val % 2 = 1; exact h1

/-- After a last-half point the result block holds zero plus the first half plus the second half. -/
theorem r1_odd (c : Dev nD) (t : Fin cfg1.N) (h1 : t.val % 2 = 1) (r : Fin 1024) (j : Fin 512) :
    (outsAt1 V c t.val t.isLt).1 (ix3 (0 : Fin 1) r j)
      = (0 + halfDot (V c main_v1) (V c main_arg2) (tE1 t) 0 r (nIdx (tN1 t) j))
          + halfDot (V c main_v1) (V c main_arg2) (tE1 t) 1 r (nIdx (tN1 t) j) := by
  obtain ⟨t', hv, h0', hE, hN, hK', hK⟩ := r1_prev t h1
  have hprev := r1_even V c t' h0' r j
  rw [hE, hN, hK'] at hprev
  rw [outsAt1_B V c t h1]
  dsimp only
  refine (congrFun (r1_out_B (F := Ideal) c (grid1.coords t) (ms1_0 t) (hs1_0 t) (ms1_1 t) (hs1_1 t) (ms1_2 t) (hs1_2 t) scM1_0 (Memref.isWhole_whole _) (fun h => not_even_of_odd1 h1 ((hcond1_0 t).mp h)) ((hcond1_1 t).mpr h1) (iblk1 V c 0 t) (iblk1 V c 1 t) (outsAt1 V c (t.val - 1) (Nat.lt_of_le_of_lt (Nat.sub_le _ _) t.isLt)).2) (ix3 (0 : Fin 1) r j)).trans ?_
  refine (k1_pay3_at _ r j).trans ?_
  refine (k1_pay2_at (iblk1 V c 0 t) (iblk1 V c 1 t) _ r j).trans ?_
  have hb := r1_blockDot V c t r j
  rw [hK] at hb
  refine congrArg₂ (· + ·) ?_ hb
  have e : (outsAt1 V c (t.val - 1) (Nat.lt_of_le_of_lt (Nat.sub_le _ _) t.isLt)).2 = (outsAt1 V c t'.val t'.isLt).2 := by
    congr 2 <;> exact hv.symm
  rw [e]
  exact hprev

/-! ## From the blocks to the array -/

/-- What a last-half point writes back is its block of the down projection. -/
theorem r1_flushed (c : Dev nD) (t : Fin cfg1.N) (hf : (cfg1.win 2).flush t = true) :
    (dat1 (F := Ideal) V c).flushed 2 t
      = ((cfg1.win 2).blk t).view.read (Elt Ideal) (Cert.Spec.down (V c main_v1) (V c main_arg2)) := by
  have h1 : t.val % 2 = 1 := (flush1_2 t).mp hf
  show (cfg1.win 2).cut (grid1.coords t) ((dat1 (F := Ideal) V c).after 2 t) = _
  rw [after1_2]
  refine r1_ext3 _ _ fun r j => ?_
  refine Eq.trans ?_ (read1_2 (Cert.Spec.down (V c main_v1) (V c main_arg2)) t r j).symm
  refine (r1_odd V c t h1 r j).trans ?_
  refine Eq.trans ?_ (Cert.Spec.down_ix3 (V c main_v1) (V c main_arg2) (tE1 t) r (nIdx (tN1 t) j)).symm
  unfold halfDot
  simp only [kIdx_zero, kIdx_one]
  exact Cert.Spec.sum_two_halves (dotTerm (V c main_v1) (V c main_arg2) (tE1 t) r (nIdx (tN1 t) j))

/-- An index of the result array is in point `t`'s block iff each coordinate is in the block's range on its axis. -/
theorem r1_mem_blk (t : Fin cfg1.N) (i : S8x1024x2048.Idx) :
    i ∈ ((cfg1.win 2).blk t).view.set ↔ ∀ a : Fin 3, win1_2.index t a * S1x1024x512.size a ≤ (i a).val ∧ (i a).val < win1_2.index t a * S1x1024x512.size a + S1x1024x512.size a := by
  show i ∈ ((View.whole main_v2).slice (win1_2.rect t)).set ↔ _
  rw [View.set_slice_whole, Rect.mem_set_unit]
  exact Iff.rfl

/-- Every index of the result array is in the block of a point that writes back: row block `e`, column block `f / 512`,
    at the last contraction half. -/
theorem r1_cover (i : S8x1024x2048.Idx) :
    ∃ t : Fin cfg1.N, (cfg1.win 2).flush t = true ∧ i ∈ ((cfg1.win 2).blk t).view.set := by
  have hi0 : (i 0).val < 8 := (i 0).isLt
  have hi1 : (i 1).val < 1024 := (i 1).isLt
  have hi2 : (i 2).val < 2048 := (i 2).isLt
  have hN : cfg1.N = 64 := N_1
  obtain ⟨t, ht⟩ : ∃ t : Fin cfg1.N, t.val = ((i 0).val * 4 + (i 2).val / 512) * 2 + 1 :=
    ⟨⟨((i 0).val * 4 + (i 2).val / 512) * 2 + 1, by rw [hN]; omega⟩, rfl⟩
  obtain ⟨e0, e1, e2⟩ := idx1_2 t
  refine ⟨t, (flush1_2 t).mpr (by omega), ?_⟩
  rw [r1_mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 512 ≤ (i 2).val ∧ (i 2).val < win1_2.index t (2 : Fin 3) * 512 + 512; omega

/-- The result array after the region is the down projection of the activations and the down weights as the region
    found them. -/
theorem down_array (c : Dev nD) :
    ((dat1 (F := Ideal) V c).arrAt 2 cfg1.N : S8x1024x2048.Idx → EReal) = Cert.Spec.down (V c main_v1) (V c main_arg2) :=
  (dat1 (F := Ideal) V c).arrAt_eq_of_cover 2 (Cert.Spec.down (V c main_v1) (V c main_arg2))
    (fun t hf => r1_flushed V c t hf) r1_cover

end Values

end Cert.KernelIdeal.Val

end
-- ==== Proof.ValI.Compose.lean ====
/-
  The kernel's result rows from what its two regions leave.

  The program regroups the token matrix by expert, runs the gate/up region, runs the down-projection region, and
  regroups the result back into rows.  Given that the first region leaves the gated activation of the arrays it is
  entered with, and the second the down projection of the arrays it is entered with, the rows at the return are the
  specification of the three arguments: the first regrouping reads row `e * 1024 + t`, the last reads expert
  `r / 1024`, slot `r % 1024`, and no segment but the one that produces an array writes it.
-/
import proofs.«108648_j3204045603931_2_alg».proof.Proof.FrameI.Run
import proofs.«108648_j3204045603931_2_alg».proof.Proof.Spec
import Idealize.ShloMosaic.Lib.ValueIdx
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.ShloMosaic.ValueIdx
open Cert.Spec

/-! ## The two regroupings at an index -/

/-- The token matrix viewed by expert reads row `e * 1024 + t`. -/
theorem regroup_apply {α : Type} (x : S8192x2048.Idx → α) (h : S8192x2048.ShapeCasts S8x1024x2048)
    (e : Fin 8) (t : Fin 1024) (d : Fin 2048) :
    shapeCast S8x1024x2048 x h (ix3 e t d) = x (ix2 (row e t) d) :=
  shapeCast_apply x h _ _ (by
    rw [Shape.rowMajor_val_two, Shape.rowMajor_val_three]
    show (e.val * 1024 + t.val) * 2048 + d.val = (e.val * 1024 + t.val) * 2048 + d.val
    rfl)

/-- A per-expert array viewed as rows reads expert `r / 1024`, slot `r % 1024`. -/
theorem ungroup_apply {α : Type} (y : S8x1024x2048.Idx → α) (h : S8x1024x2048.ShapeCasts S8192x2048)
    (r : Fin 8192) (f : Fin 2048) :
    shapeCast S8192x2048 y h (ix2 r f) = y (ix3 (expertOf r) (slotOf r) f) :=
  shapeCast_apply y h _ _ (by
    rw [Shape.rowMajor_val_three, Shape.rowMajor_val_two]
    show (r.val / 1024 * 1024 + r.val % 1024) * 2048 + f.val = r.val * 2048 + f.val
    omega)

theorem regroup_eq (x : S8192x2048.Idx → EReal) (h : S8192x2048.ShapeCasts S8x1024x2048) :
    shapeCast S8x1024x2048 x h = tok x := by
  funext i
  obtain ⟨e, t, d, rfl⟩ : ∃ (e : Fin 8) (t : Fin 1024) (d : Fin 2048), i = ix3 e t d := ⟨i 0, i 1, i 2, eq_ix3 i⟩
  exact regroup_apply x h e t d

theorem ungroup_eq (y : S8x1024x2048.Idx → EReal) (h : S8x1024x2048.ShapeCasts S8192x2048) :
    shapeCast S8192x2048 y h = untok y := by
  funext j
  obtain ⟨r, f, rfl⟩ : ∃ (r : Fin 8192) (f : Fin 2048), j = ix2 r f := ⟨j 0, j 1, eq_ix2 j⟩
  exact ungroup_apply y h r f

/-! ## The contents between the segments -/

variable (m : (ℓ : Loc nD τ sig) → Buf (Elt Ideal) ℓ) (c : Dev nD)

/-- The first region is entered with the tokens regrouped by expert, -/
theorem V1_main_v0 : (Frm.V1 m c main_v0 : S8x1024x2048.Idx → EReal) = tok (m ((c.tc : Thread nD τ).loc main_arg0)) := by
  show StableHlo.after hostOps0 (Frm.W0 m c) (Proc.devRef .tc main_v0) = _
  after_results
  exact regroup_eq _ _

/-- and with the first weight array as launched. -/
theorem V1_main_arg1 : Frm.V1 m c main_arg1 = m ((c.tc : Thread nD τ).loc main_arg1) :=
  (StableHlo.after_of_writes_sub hostOps0 _ Frm.ops0_writes (by decide)).trans rfl

/-- The second region is entered with what the first left in the activation array, -/
theorem V2_main_v1 : Frm.V2 m c main_v1 = (Frm.dat0 (F := Ideal) Frm.q0 (Frm.V1 m) c).arrAt 3 cfg0.N :=
  (Frm.W2_main_v1 m c).trans rfl

/-- and with the second weight array as launched. -/
theorem V2_main_arg2 : Frm.V2 m c main_arg2 = m ((c.tc : Thread nD τ).loc main_arg2) :=
  (Frm.W2_of_ne m c main_arg2 (by decide)).trans
    ((StableHlo.after_of_writes_sub hostOps0 _ Frm.ops0_writes (by decide)).trans rfl)

/-- The rows at the return are the second region's result array laid back out. -/
theorem W4_main_v3 : (Frm.W4 m c (Proc.devRef .tc main_v3) : S8192x2048.Idx → EReal)
    = untok ((Frm.dat1 (F := Ideal) (Frm.V2 m) c).arrAt 2 cfg1.N : S8x1024x2048.Idx → EReal) := by
  show StableHlo.after hostOps2 (Frm.W3 m c) (Proc.devRef .tc main_v3) = _
  after_results
  refine (ungroup_eq _ _).trans ?_
  exact congrArg untok ((Frm.W3_main_v2 m c).trans rfl)

/-! ## The result -/

/-- If the first region leaves the gated activation of what it is entered with and the second the down projection of
    what it is entered with, the rows at the return are the specification of the three arguments. -/
theorem kernel_value_of
    (hact : ((Frm.dat0 (F := Ideal) Frm.q0 (Frm.V1 m) c).arrAt 3 cfg0.N : S8x1024x2048.Idx → EReal)
      = Cert.Spec.act (Frm.V1 m c main_v0) (Frm.V1 m c main_arg1))
    (hdown : ((Frm.dat1 (F := Ideal) (Frm.V2 m) c).arrAt 2 cfg1.N : S8x1024x2048.Idx → EReal)
      = Cert.Spec.down (Frm.V2 m c main_v1) (Frm.V2 m c main_arg2)) :
    (Frm.W4 m c (Proc.devRef .tc main_v3) : S8192x2048.Idx → EReal)
      = Cert.Spec.G (m ((c.tc : Thread nD τ).loc main_arg0)) (m ((c.tc : Thread nD τ).loc main_arg1))
          (m ((c.tc : Thread nD τ).loc main_arg2)) := by
  refine (W4_main_v3 m c).trans (congrArg untok ?_)
  refine hdown.trans ?_
  have ha : (Frm.V2 m c main_v1 : S8x1024x2048.Idx → EReal)
      = act (tok (m ((c.tc : Thread nD τ).loc main_arg0))) (m ((c.tc : Thread nD τ).loc main_arg1)) :=
    (V2_main_v1 m c).trans (hact.trans (congrArg₂ act (V1_main_v0 m c) (V1_main_arg1 m c)))
  exact congrArg₂ down ha (V2_main_arg2 m c)

end Cert.KernelIdeal.Val

end
-- ==== Proof.lean ====
/-
  The certificate of the gated expert projection kernel against its reference.

  Both programs regroup the token matrix by expert, contract each token with the expert's gate and up weight matrices,
  multiply the up projection by the positive part of the gate, contract with the expert's down weights and lay the
  result back out as rows.  The kernel does the two contractions block by block: each pallas region accumulates, in
  scratch buffers that persist across grid points, the products over the two halves of the 2048 features, starting
  from zero at the first half and writing its output block at the second; a change of float format is the identity
  on the extended reals, and a sum accumulated from zero in two halves is the whole sum, so the two results agree
  index by index with no appeal to the inputs being finite.

  The frames of the two kernel programs are one run of the program's four segments (two regroupings and two
  regions), stated for any float instance and read at the word level and at the extended reals; the reference's frame
  is its run with the result dropped.  The ideal pass rewrote no operation, so the idealization claim is trivial.
-/
import proofs.«108648_j3204045603931_2_alg».proof.Defs
import proofs.«108648_j3204045603931_2_alg».proof.Proof.Gen.Kernel
import proofs.«108648_j3204045603931_2_alg».proof.Proof.Gen.KernelIdeal
import proofs.«108648_j3204045603931_2_alg».proof.Proof.Gen.ReferenceIdeal
import proofs.«108648_j3204045603931_2_alg».proof.Proof.Gen.Pre_finite_inputs
import proofs.«108648_j3204045603931_2_alg».proof.Proof.FrameB.Run
import proofs.«108648_j3204045603931_2_alg».proof.Proof.FrameI.Run
import proofs.«108648_j3204045603931_2_alg».proof.Proof.RefSide
import proofs.«108648_j3204045603931_2_alg».proof.Proof.ValI.R0Value
import proofs.«108648_j3204045603931_2_alg».proof.Proof.ValI.R1Value
import proofs.«108648_j3204045603931_2_alg».proof.Proof.ValI.Compose
import Idealize.ShloMosaic.Adequacy
import Idealize.ShloMosaic.Init

noncomputable section

namespace Cert.Proof

open Idealize.ShloMosaic Idealize.SL.Sem

/-- The kernel's result rows at the return are the specification of the launch arguments: the first region leaves the
    gated activation of the regrouped tokens, the second its down projection, and the last regrouping lays it out as rows. -/
theorem kernel_value (m : (ℓ : Loc Cert.KernelIdeal.nD Cert.KernelIdeal.τ Cert.KernelIdeal.sig) → Buf (Elt Ideal) ℓ) (c : Dev Cert.KernelIdeal.nD) :
    Cert.KernelIdeal.Frm.W4 m c (Proc.devRef .tc Cert.KernelIdeal.main_v3)
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
  Cert.KernelIdeal.Val.kernel_value_of m c
    (Cert.KernelIdeal.Val.act_array Cert.KernelIdeal.Frm.q0 (Cert.KernelIdeal.Frm.V1 m) c)
    (Cert.KernelIdeal.Val.down_array (Cert.KernelIdeal.Frm.V2 m) c)

/-- The word-level kernel runs and leaves its arguments as launched. -/
theorem frame_kernel : Cert.frame_Kernel := fun m ρ _ => Cert.Kernel.Frm.frame (F := Bits) m ρ
/-- So does the kernel read at the extended reals. -/
theorem frame_kernelIdeal : Cert.frame_KernelIdeal := fun m ρ _ => Cert.KernelIdeal.Frm.frame (F := Ideal) m ρ

/-- At the extended reals the kernel's result rows and the reference's are the same function of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (kernel_value m c), (h c).2⟩)
      (Cert.KernelIdeal.Frm.run_value (F := Ideal) m ρ)
  · exact (θ_run Cert.ReferenceIdeal.defs _ _).mono
      (fun _ h c => ⟨by rw [(h c).1, (hagree c).1, (hagree c).2.1, (hagree c).2.2], (h c).2⟩) (Cert.RefSide.ref_run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, Cert.RefSide.frame_ri, trivial, algebraic⟩

end Cert.Proof

end
